-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S4x512x256 : Shape := ⟨3, ![4, 512, 256]⟩
abbrev S4x256 : Shape := ⟨2, ![4, 256]⟩
abbrev S5x256 : Shape := ⟨2, ![5, 256]⟩
abbrev S1x10 : Shape := ⟨2, ![1, 10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_
  bcast_S_S5x256 : S_.BroadcastsInDim S5x256 (![] : Fin 0 → Fin S5x256.rank)
  reducesTo_S5x256_S_d0_1 : S5x256.ReducesTo [0, 1] S_
  bcast_S_S1x10 : S_.BroadcastsInDim S1x10 (![] : Fin 0 → Fin S1x10.rank)
  reducesTo_S1x10_S_d0_1 : S1x10.ReducesTo [0, 1] S_

variable [Facts]

def fn_part2 {F : FTy → Type} [FloatOps F] (main_arg10 : FVec F S1x10 .f32) (main_v33 : IVec S_ 1) : IVec S_ 1 :=
  let main_v34 : FVec F S1x10 .f32 := Host.absf main_arg10
  let main_cst_12 : FVec F S_ .f32 := constant S_ .f32 0x7F800000#32
  let main_v35 : FVec F S1x10 .f32 := broadcastInDim S1x10 ![] bcast_S_S1x10 main_cst_12
  let main_v36 : IVec S1x10 1 := cmpf .olt main_v34 main_v35
  let main_c_13 : IVec S_ 1 := constantI S_ 1 1#1
  let main_v37 : IVec S_ 1 := (fun x v => Host.reduce IntOp.andi x v reducesTo_S1x10_S_d0_1 h_S_) main_v36 main_c_13
  let main_v38 : IVec S_ 1 := andi main_v33 main_v37
  main_v38

def fn_part1 {F : FTy → Type} [FloatOps F] (main_arg7 : FVec F S4x256 .f32) (main_arg8 : FVec F S5x256 .f32) (main_arg9 : FVec F S5x256 .f32) (main_arg10 : FVec F S1x10 .f32) (main_v13 : IVec S_ 1) (main_v16 : IVec S4x512x256 1) : IVec S_ 1 :=
  let main_c_5 : IVec S_ 1 := constantI S_ 1 1#1
  let main_v17 : IVec S_ 1 := (fun x v => Host.reduce IntOp.andi x v reducesTo_S4x512x256_S_d0_1_2 h_S_) main_v16 main_c_5
  let main_v18 : IVec S_ 1 := andi main_v13 main_v17
  let main_v19 : FVec F S4x256 .f32 := Host.absf main_arg7
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S5x256 .f32 := Host.absf main_arg8
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256 .f32 := Host.absf main_arg9
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg10 main_v33

def fn {F : FTy → Type} [FloatOps F] (main_arg0 : FVec F S50000x128 .f32) (main_arg1 : IVec S800000 32) (main_arg2 : IVec S800000 32) (main_arg3 : IVec S50000 32) (main_arg4 : FVec F S128x256 .f32) (main_arg5 : FVec F S256 .f32) (main_arg6 : FVec F S4x512x256 .f32) (main_arg7 : FVec F S4x256 .f32) (main_arg8 : FVec F S5x256 .f32) (main_arg9 : FVec F S5x256 .f32) (main_arg10 : FVec F S1x10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S4x512x256 .f32 := Host.absf main_arg6
  let main_cst_4 : FVec F S_ .f32 := constant S_ .f32 0x7F800000#32
  let main_v15 : FVec F S4x512x256 .f32 := broadcastInDim S4x512x256 ![] bcast_S_S4x512x256 main_cst_4
  let main_v16 : IVec S4x512x256 1 := cmpf .olt main_v14 main_v15
  fn_part1 (F := F) main_arg7 main_arg8 main_arg9 main_arg10 main_v13 main_v16
-- ==== Kernel.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S4x512x256 : Shape := ⟨3, ![4, 512, 256]⟩
abbrev S4x256 : Shape := ⟨2, ![4, 256]⟩
abbrev S5x256 : Shape := ⟨2, ![5, 256]⟩
abbrev S1x10 : Shape := ⟨2, ![1, 10]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256x256 : Shape := ⟨3, ![1, 256, 256]⟩
abbrev S256x256 : Shape := ⟨2, ![256, 256]⟩
abbrev S2000 : Shape := ⟨1, ![2000]⟩
abbrev S2000x1 : Shape := ⟨2, ![2000, 1]⟩
abbrev S64x256 : Shape := ⟨2, ![64, 256]⟩
abbrev S64 : Shape := ⟨1, ![64]⟩
abbrev S64x1 : Shape := ⟨2, ![64, 1]⟩
abbrev S64x1x256 : Shape := ⟨3, ![64, 1, 256]⟩
abbrev S1x5x256 : Shape := ⟨3, ![1, 5, 256]⟩
abbrev S64x5x256 : Shape := ⟨3, ![64, 5, 256]⟩
abbrev S64x5 : Shape := ⟨2, ![64, 5]⟩
abbrev S64x10 : Shape := ⟨2, ![64, 10]⟩
abbrev S10x1 : Shape := ⟨2, ![10, 1]⟩

abbrev nBuf : Space → Nat
  | .hbm => 205
  | .vmem => 42
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x256, .f32⟩
  | 5 => ⟨S256, .f32⟩
  | 6 => ⟨S4x512x256, .f32⟩
  | 7 => ⟨S4x256, .f32⟩
  | 8 => ⟨S5x256, .f32⟩
  | 9 => ⟨S5x256, .f32⟩
  | 10 => ⟨S1x10, .f32⟩
  | 11 => ⟨S1x256, .f32⟩
  | 12 => ⟨S50000x256, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x256, .f32⟩
  | 22 => ⟨S_, .f32⟩
  | 23 => ⟨S50000x256, .f32⟩
  | 24 => ⟨S800000x1, .i32⟩
  | 25 => ⟨S50000x256, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x256, .f32⟩
  | 37 => ⟨S50000x256, .f32⟩
  | 38 => ⟨S1x256x256, .f32⟩
  | 39 => ⟨S256x256, .f32⟩
  | 40 => ⟨S1x256x256, .f32⟩
  | 41 => ⟨S256x256, .f32⟩
  | 42 => ⟨S1x256, .f32⟩
  | 43 => ⟨S256, .f32⟩
  | 44 => ⟨S1x256, .f32⟩
  | 45 => ⟨S50000x256, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x256, .f32⟩
  | 70 => ⟨S50000x256, .f32⟩
  | 71 => ⟨S1x256x256, .f32⟩
  | 72 => ⟨S256x256, .f32⟩
  | 73 => ⟨S1x256x256, .f32⟩
  | 74 => ⟨S256x256, .f32⟩
  | 75 => ⟨S1x256, .f32⟩
  | 76 => ⟨S256, .f32⟩
  | 77 => ⟨S1x256, .f32⟩
  | 78 => ⟨S50000x256, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x256, .f32⟩
  | 88 => ⟨S_, .f32⟩
  | 89 => ⟨S50000x256, .f32⟩
  | 90 => ⟨S800000x1, .i32⟩
  | 91 => ⟨S50000x256, .f32⟩
  | 92 => ⟨S_, .f32⟩
  | 93 => ⟨S800000, .f32⟩
  | 94 => ⟨S_, .f32⟩
  | 95 => ⟨S50000, .f32⟩
  | 96 => ⟨S800000x1, .i32⟩
  | 97 => ⟨S50000, .f32⟩
  | 98 => ⟨S_, .f32⟩
  | 99 => ⟨S50000, .f32⟩
  | 100 => ⟨S50000, .f32⟩
  | 101 => ⟨S50000x1, .f32⟩
  | 102 => ⟨S50000x256, .f32⟩
  | 103 => ⟨S50000x256, .f32⟩
  | 104 => ⟨S1x256x256, .f32⟩
  | 105 => ⟨S256x256, .f32⟩
  | 106 => ⟨S1x256x256, .f32⟩
  | 107 => ⟨S256x256, .f32⟩
  | 108 => ⟨S1x256, .f32⟩
  | 109 => ⟨S256, .f32⟩
  | 110 => ⟨S1x256, .f32⟩
  | 111 => ⟨S50000x256, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x256, .f32⟩
  | 121 => ⟨S_, .f32⟩
  | 122 => ⟨S50000x256, .f32⟩
  | 123 => ⟨S800000x1, .i32⟩
  | 124 => ⟨S50000x256, .f32⟩
  | 125 => ⟨S_, .f32⟩
  | 126 => ⟨S800000, .f32⟩
  | 127 => ⟨S_, .f32⟩
  | _ => ⟨S50000x128, .f32⟩

abbrev hbmTy0_1 (i : Nat) : BufTy := match i % 128 with
  | 0 => ⟨S50000, .f32⟩
  | 1 => ⟨S800000x1, .i32⟩
  | 2 => ⟨S50000, .f32⟩
  | 3 => ⟨S_, .f32⟩
  | 4 => ⟨S50000, .f32⟩
  | 5 => ⟨S50000, .f32⟩
  | 6 => ⟨S50000x1, .f32⟩
  | 7 => ⟨S50000x256, .f32⟩
  | 8 => ⟨S50000x256, .f32⟩
  | 9 => ⟨S1x256x256, .f32⟩
  | 10 => ⟨S256x256, .f32⟩
  | 11 => ⟨S1x256x256, .f32⟩
  | 12 => ⟨S256x256, .f32⟩
  | 13 => ⟨S1x256, .f32⟩
  | 14 => ⟨S256, .f32⟩
  | 15 => ⟨S1x256, .f32⟩
  | 16 => ⟨S50000x256, .f32⟩
  | 17 => ⟨S_, .f32⟩
  | 18 => ⟨S64x256, .f32⟩
  | 19 => ⟨S50000x1, .i32⟩
  | 20 => ⟨S64x256, .f32⟩
  | 21 => ⟨S_, .f32⟩
  | 22 => ⟨S50000, .f32⟩
  | 23 => ⟨S_, .f32⟩
  | 24 => ⟨S64, .f32⟩
  | 25 => ⟨S50000x1, .i32⟩
  | 26 => ⟨S64, .f32⟩
  | 27 => ⟨S_, .f32⟩
  | 28 => ⟨S64, .f32⟩
  | 29 => ⟨S64, .f32⟩
  | 30 => ⟨S64x1, .f32⟩
  | 31 => ⟨S64x256, .f32⟩
  | 32 => ⟨S64x256, .f32⟩
  | 33 => ⟨S64x1x256, .f32⟩
  | 34 => ⟨S1x5x256, .f32⟩
  | 35 => ⟨S64x5x256, .f32⟩
  | 36 => ⟨S64x5x256, .f32⟩
  | 37 => ⟨S64x5x256, .f32⟩
  | 38 => ⟨S64x5x256, .f32⟩
  | 39 => ⟨S_, .f32⟩
  | 40 => ⟨S64x5, .f32⟩
  | 41 => ⟨S_, .f32⟩
  | 42 => ⟨S64x5, .f32⟩
  | 43 => ⟨S64x5, .f32⟩
  | 44 => ⟨S_, .f32⟩
  | 45 => ⟨S64x5, .f32⟩
  | 46 => ⟨S64x5, .f32⟩
  | 47 => ⟨S64x5, .f32⟩
  | 48 => ⟨S64x5, .f32⟩
  | 49 => ⟨S64x1x256, .f32⟩
  | 50 => ⟨S1x5x256, .f32⟩
  | 51 => ⟨S64x5x256, .f32⟩
  | 52 => ⟨S64x5x256, .f32⟩
  | 53 => ⟨S64x5x256, .f32⟩
  | 54 => ⟨S64x5x256, .f32⟩
  | 55 => ⟨S_, .f32⟩
  | 56 => ⟨S64x5, .f32⟩
  | 57 => ⟨S_, .f32⟩
  | 58 => ⟨S64x5, .f32⟩
  | 59 => ⟨S64x5, .f32⟩
  | 60 => ⟨S_, .f32⟩
  | 61 => ⟨S64x5, .f32⟩
  | 62 => ⟨S64x5, .f32⟩
  | 63 => ⟨S64x5, .f32⟩
  | 64 => ⟨S64x5, .f32⟩
  | 65 => ⟨S64x10, .f32⟩
  | 66 => ⟨S10x1, .f32⟩
  | 67 => ⟨S64x1, .f32⟩
  | 68 => ⟨S64x1, .f32⟩
  | 69 => ⟨S64x1, .f32⟩
  | 70 => ⟨S_, .f32⟩
  | 71 => ⟨S64x1, .f32⟩
  | 72 => ⟨S64x1, .f32⟩
  | 73 => ⟨S_, .f32⟩
  | 74 => ⟨S64x1, .f32⟩
  | 75 => ⟨S64x1, .f32⟩
  | 76 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S256x256, .f32⟩
  | .local _ .vmem, ⟨38, _⟩ => ⟨S256x256, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_16 : Ref sig .tc := ⟨.hbm, 112, rfl⟩
abbrev main_v83 : Ref sig .tc := ⟨.hbm, 113, rfl⟩
abbrev main_v84 : Ref sig .tc := ⟨.hbm, 114, rfl⟩
abbrev main_c_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_cst_20 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_21 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_22 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_23 : Ref sig .tc := ⟨.hbm, 149, rfl⟩
abbrev main_v113 : Ref sig .tc := ⟨.hbm, 150, rfl⟩
abbrev main_cst_24 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_25 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_26 : Ref sig .tc := ⟨.hbm, 167, rfl⟩
abbrev main_v128 : Ref sig .tc := ⟨.hbm, 168, rfl⟩
abbrev main_cst_27 : Ref sig .tc := ⟨.hbm, 169, rfl⟩
abbrev main_v129 : Ref sig .tc := ⟨.hbm, 170, rfl⟩
abbrev main_v130 : Ref sig .tc := ⟨.hbm, 171, rfl⟩
abbrev main_cst_28 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_29 : Ref sig .tc := ⟨.hbm, 183, rfl⟩
abbrev main_v141 : Ref sig .tc := ⟨.hbm, 184, rfl⟩
abbrev main_cst_30 : Ref sig .tc := ⟨.hbm, 185, rfl⟩
abbrev main_v142 : Ref sig .tc := ⟨.hbm, 186, rfl⟩
abbrev main_v143 : Ref sig .tc := ⟨.hbm, 187, rfl⟩
abbrev main_cst_31 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_32 : Ref sig .tc := ⟨.hbm, 198, rfl⟩
abbrev main_v153 : Ref sig .tc := ⟨.hbm, 199, rfl⟩
abbrev main_v154 : Ref sig .tc := ⟨.hbm, 200, rfl⟩
abbrev main_cst_33 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S4x512x256_S1x256x256_0_0_0 : S4x512x256.Slices ![0, 0, 0] S1x256x256
  shapeCasts_S1x256x256_S256x256 : S1x256x256.ShapeCasts S256x256
  slices_S4x512x256_S1x256x256_0_256_0 : S4x512x256.Slices ![0, 256, 0] S1x256x256
  slices_S4x256_S1x256_0_0 : S4x256.Slices ![0, 0] S1x256
  shapeCasts_S1x256_S256 : S1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S2000 : S2000x256.Reduces [1] S2000
  shapeCasts_S2000_S2000x1 : S2000.ShapeCasts S2000x1
  broadcasts_S2000x1_S2000x256 : S2000x1.Broadcasts S2000x256
  slices_S4x512x256_S1x256x256_1_0_0 : S4x512x256.Slices ![1, 0, 0] S1x256x256
  slices_S4x512x256_S1x256x256_1_256_0 : S4x512x256.Slices ![1, 256, 0] S1x256x256
  slices_S4x256_S1x256_1_0 : S4x256.Slices ![1, 0] S1x256
  slices_S4x512x256_S1x256x256_2_0_0 : S4x512x256.Slices ![2, 0, 0] S1x256x256
  slices_S4x512x256_S1x256x256_2_256_0 : S4x512x256.Slices ![2, 256, 0] S1x256x256
  slices_S4x256_S1x256_2_0 : S4x256.Slices ![2, 0] S1x256
  slices_S4x512x256_S1x256x256_3_0_0 : S4x512x256.Slices ![3, 0, 0] S1x256x256
  slices_S4x512x256_S1x256x256_3_256_0 : S4x512x256.Slices ![3, 256, 0] S1x256x256
  slices_S4x256_S1x256_3_0 : S4x256.Slices ![3, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S64x256_S64x1x256_0_2 : S64x256.BroadcastsInDim S64x1x256 (![0, 2] : Fin 2 → Fin S64x1x256.rank)
  bcast_S5x256_S1x5x256_1_2 : S5x256.BroadcastsInDim S1x5x256 (![1, 2] : Fin 2 → Fin S1x5x256.rank)
  bcast_S64x1x256_S64x5x256_0_1_2 : S64x1x256.BroadcastsInDim S64x5x256 (![0, 1, 2] : Fin 3 → Fin S64x5x256.rank)
  bcast_S1x5x256_S64x5x256_0_1_2 : S1x5x256.BroadcastsInDim S64x5x256 (![0, 1, 2] : Fin 3 → Fin S64x5x256.rank)
  reducesTo_S64x5x256_S64x5_d2 : S64x5x256.ReducesTo [2] S64x5
  h_S_ : 0 < S_.numel
  bcast_S_S64x5 : S_.BroadcastsInDim S64x5 (![] : Fin 0 → Fin S64x5.rank)
  concatenates_S64x5_S64x5_S64x10_d1 : Shape.Concatenates [S64x5, S64x5] S64x10 1
  transposes_S1x10_S10x1_1_0 : S1x10.Transposes [1, 0] S10x1
  bcast_S_S64x1 : S_.BroadcastsInDim S64x1 (![] : Fin 0 → Fin S64x1.rank)
  shapeCasts_S64x1_S64 : S64x1.ShapeCasts S64
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x10_S10x1_S64x1_1_0_0_1_n_n_wf : DotDims.WF S64x10 S10x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v82) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v103) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v105) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S4x512x256 : Shape := ⟨3, ![4, 512, 256]⟩
abbrev S4x256 : Shape := ⟨2, ![4, 256]⟩
abbrev S5x256 : Shape := ⟨2, ![5, 256]⟩
abbrev S1x10 : Shape := ⟨2, ![1, 10]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S50000x512 : Shape := ⟨2, ![50000, 512]⟩
abbrev S1x512x256 : Shape := ⟨3, ![1, 512, 256]⟩
abbrev S512x256 : Shape := ⟨2, ![512, 256]⟩
abbrev S64x256 : Shape := ⟨2, ![64, 256]⟩
abbrev S64 : Shape := ⟨1, ![64]⟩
abbrev S64x1 : Shape := ⟨2, ![64, 1]⟩
abbrev S64x1x256 : Shape := ⟨3, ![64, 1, 256]⟩
abbrev S1x5x256 : Shape := ⟨3, ![1, 5, 256]⟩
abbrev S64x5x256 : Shape := ⟨3, ![64, 5, 256]⟩
abbrev S64x5 : Shape := ⟨2, ![64, 5]⟩
abbrev S64x10 : Shape := ⟨2, ![64, 10]⟩
abbrev S10x1 : Shape := ⟨2, ![10, 1]⟩

abbrev nBuf : Space → Nat
  | .hbm => 267
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x256, .f32⟩
  | 5 => ⟨S256, .f32⟩
  | 6 => ⟨S4x512x256, .f32⟩
  | 7 => ⟨S4x256, .f32⟩
  | 8 => ⟨S5x256, .f32⟩
  | 9 => ⟨S5x256, .f32⟩
  | 10 => ⟨S1x10, .f32⟩
  | 11 => ⟨S50000x256, .f32⟩
  | 12 => ⟨S1x256, .f32⟩
  | 13 => ⟨S50000x256, .f32⟩
  | 14 => ⟨S50000x256, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x256, .f32⟩
  | 24 => ⟨S_, .f32⟩
  | 25 => ⟨S50000x256, .f32⟩
  | 26 => ⟨S800000x1, .i32⟩
  | 27 => ⟨S50000x256, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x256, .f32⟩
  | 39 => ⟨S50000x256, .f32⟩
  | 40 => ⟨S50000x512, .f32⟩
  | 41 => ⟨S1x512x256, .f32⟩
  | 42 => ⟨S512x256, .f32⟩
  | 43 => ⟨S50000x256, .f32⟩
  | 44 => ⟨S1x256, .f32⟩
  | 45 => ⟨S256, .f32⟩
  | 46 => ⟨S1x256, .f32⟩
  | 47 => ⟨S50000x256, .f32⟩
  | 48 => ⟨S50000x256, .f32⟩
  | 49 => ⟨S50000x256, .f32⟩
  | 50 => ⟨S_, .f32⟩
  | 51 => ⟨S50000, .f32⟩
  | 52 => ⟨S50000x1, .f32⟩
  | 53 => ⟨S50000x1, .f32⟩
  | 54 => ⟨S_, .f32⟩
  | 55 => ⟨S50000x1, .f32⟩
  | 56 => ⟨S50000x1, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x256, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x256, .f32⟩
  | 72 => ⟨S_, .f32⟩
  | 73 => ⟨S50000x256, .f32⟩
  | 74 => ⟨S800000x1, .i32⟩
  | 75 => ⟨S50000x256, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x256, .f32⟩
  | 87 => ⟨S50000x256, .f32⟩
  | 88 => ⟨S50000x512, .f32⟩
  | 89 => ⟨S1x512x256, .f32⟩
  | 90 => ⟨S512x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S50000x256, .f32⟩
  | 97 => ⟨S50000x256, .f32⟩
  | 98 => ⟨S_, .f32⟩
  | 99 => ⟨S50000, .f32⟩
  | 100 => ⟨S50000x1, .f32⟩
  | 101 => ⟨S50000x1, .f32⟩
  | 102 => ⟨S_, .f32⟩
  | 103 => ⟨S50000x1, .f32⟩
  | 104 => ⟨S50000x1, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x256, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x256, .f32⟩
  | 120 => ⟨S_, .f32⟩
  | 121 => ⟨S50000x256, .f32⟩
  | 122 => ⟨S800000x1, .i32⟩
  | 123 => ⟨S50000x256, .f32⟩
  | 124 => ⟨S_, .f32⟩
  | 125 => ⟨S800000, .f32⟩
  | 126 => ⟨S_, .f32⟩
  | 127 => ⟨S50000, .f32⟩
  | _ => ⟨S50000x128, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x256, .f32⟩
  | 7 => ⟨S50000x256, .f32⟩
  | 8 => ⟨S50000x512, .f32⟩
  | 9 => ⟨S1x512x256, .f32⟩
  | 10 => ⟨S512x256, .f32⟩
  | 11 => ⟨S50000x256, .f32⟩
  | 12 => ⟨S1x256, .f32⟩
  | 13 => ⟨S256, .f32⟩
  | 14 => ⟨S1x256, .f32⟩
  | 15 => ⟨S50000x256, .f32⟩
  | 16 => ⟨S50000x256, .f32⟩
  | 17 => ⟨S50000x256, .f32⟩
  | 18 => ⟨S_, .f32⟩
  | 19 => ⟨S50000, .f32⟩
  | 20 => ⟨S50000x1, .f32⟩
  | 21 => ⟨S50000x1, .f32⟩
  | 22 => ⟨S_, .f32⟩
  | 23 => ⟨S50000x1, .f32⟩
  | 24 => ⟨S50000x1, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x256, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x256, .f32⟩
  | 40 => ⟨S_, .f32⟩
  | 41 => ⟨S50000x256, .f32⟩
  | 42 => ⟨S800000x1, .i32⟩
  | 43 => ⟨S50000x256, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x256, .f32⟩
  | 55 => ⟨S50000x256, .f32⟩
  | 56 => ⟨S50000x512, .f32⟩
  | 57 => ⟨S1x512x256, .f32⟩
  | 58 => ⟨S512x256, .f32⟩
  | 59 => ⟨S50000x256, .f32⟩
  | 60 => ⟨S1x256, .f32⟩
  | 61 => ⟨S256, .f32⟩
  | 62 => ⟨S1x256, .f32⟩
  | 63 => ⟨S50000x256, .f32⟩
  | 64 => ⟨S50000x256, .f32⟩
  | 65 => ⟨S50000x256, .f32⟩
  | 66 => ⟨S_, .f32⟩
  | 67 => ⟨S50000, .f32⟩
  | 68 => ⟨S50000x1, .f32⟩
  | 69 => ⟨S50000x1, .f32⟩
  | 70 => ⟨S_, .f32⟩
  | 71 => ⟨S50000x1, .f32⟩
  | 72 => ⟨S50000x1, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S_, .f32⟩
  | 80 => ⟨S64x256, .f32⟩
  | 81 => ⟨S50000x1, .i32⟩
  | 82 => ⟨S64x256, .f32⟩
  | 83 => ⟨S_, .f32⟩
  | 84 => ⟨S50000, .f32⟩
  | 85 => ⟨S_, .f32⟩
  | 86 => ⟨S64, .f32⟩
  | 87 => ⟨S50000x1, .i32⟩
  | 88 => ⟨S64, .f32⟩
  | 89 => ⟨S_, .f32⟩
  | 90 => ⟨S64, .f32⟩
  | 91 => ⟨S64, .f32⟩
  | 92 => ⟨S64x1, .f32⟩
  | 93 => ⟨S64x256, .f32⟩
  | 94 => ⟨S64x256, .f32⟩
  | 95 => ⟨S64x1x256, .f32⟩
  | 96 => ⟨S1x5x256, .f32⟩
  | 97 => ⟨S64x5x256, .f32⟩
  | 98 => ⟨S64x5x256, .f32⟩
  | 99 => ⟨S64x5x256, .f32⟩
  | 100 => ⟨S64x5x256, .f32⟩
  | 101 => ⟨S_, .f32⟩
  | 102 => ⟨S64x5, .f32⟩
  | 103 => ⟨S_, .f32⟩
  | 104 => ⟨S64x5, .f32⟩
  | 105 => ⟨S64x5, .f32⟩
  | 106 => ⟨S_, .f32⟩
  | 107 => ⟨S64x5, .f32⟩
  | 108 => ⟨S64x5, .f32⟩
  | 109 => ⟨S64x5, .f32⟩
  | 110 => ⟨S64x5, .f32⟩
  | 111 => ⟨S64x1x256, .f32⟩
  | 112 => ⟨S1x5x256, .f32⟩
  | 113 => ⟨S64x5x256, .f32⟩
  | 114 => ⟨S64x5x256, .f32⟩
  | 115 => ⟨S64x5x256, .f32⟩
  | 116 => ⟨S64x5x256, .f32⟩
  | 117 => ⟨S_, .f32⟩
  | 118 => ⟨S64x5, .f32⟩
  | 119 => ⟨S_, .f32⟩
  | 120 => ⟨S64x5, .f32⟩
  | 121 => ⟨S64x5, .f32⟩
  | 122 => ⟨S_, .f32⟩
  | 123 => ⟨S64x5, .f32⟩
  | 124 => ⟨S64x5, .f32⟩
  | 125 => ⟨S64x5, .f32⟩
  | 126 => ⟨S64x5, .f32⟩
  | 127 => ⟨S64x10, .f32⟩
  | _ => ⟨S50000x128, .f32⟩

abbrev hbmTy0_2 (i : Nat) : BufTy := match i % 128 with
  | 0 => ⟨S10x1, .f32⟩
  | 1 => ⟨S64x1, .f32⟩
  | 2 => ⟨S64x1, .f32⟩
  | 3 => ⟨S64x1, .f32⟩
  | 4 => ⟨S_, .f32⟩
  | 5 => ⟨S64x1, .f32⟩
  | 6 => ⟨S64x1, .f32⟩
  | 7 => ⟨S_, .f32⟩
  | 8 => ⟨S64x1, .f32⟩
  | 9 => ⟨S64x1, .f32⟩
  | 10 => ⟨S64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call3_cst : Ref sig .tc := ⟨.hbm, 107, rfl⟩
abbrev main_call3_v0 : Ref sig .tc := ⟨.hbm, 108, rfl⟩
abbrev main_v72 : Ref sig .tc := ⟨.hbm, 109, rfl⟩
abbrev main_v73 : Ref sig .tc := ⟨.hbm, 110, rfl⟩
abbrev main_c_12 : Ref sig .tc := ⟨.hbm, 111, rfl⟩
abbrev main_v74 : Ref sig .tc := ⟨.hbm, 112, rfl⟩
abbrev main_v75 : Ref sig .tc := ⟨.hbm, 113, rfl⟩
abbrev main_c_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_cst_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call4_v0 : Ref sig .tc := ⟨.hbm, 145, rfl⟩
abbrev main_call4_cst : Ref sig .tc := ⟨.hbm, 146, rfl⟩
abbrev main_call4_v1 : Ref sig .tc := ⟨.hbm, 147, rfl⟩
abbrev main_call4_v2 : Ref sig .tc := ⟨.hbm, 148, rfl⟩
abbrev main_v102 : Ref sig .tc := ⟨.hbm, 149, rfl⟩
abbrev main_cst_18 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call5_cst : Ref sig .tc := ⟨.hbm, 155, rfl⟩
abbrev main_call5_v0 : Ref sig .tc := ⟨.hbm, 156, rfl⟩
abbrev main_v107 : Ref sig .tc := ⟨.hbm, 157, rfl⟩
abbrev main_v108 : Ref sig .tc := ⟨.hbm, 158, rfl⟩
abbrev main_c_19 : Ref sig .tc := ⟨.hbm, 159, rfl⟩
abbrev main_v109 : Ref sig .tc := ⟨.hbm, 160, rfl⟩
abbrev main_v110 : Ref sig .tc := ⟨.hbm, 161, rfl⟩
abbrev main_c_20 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_21 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_22 : Ref sig .tc := ⟨.hbm, 172, rfl⟩
abbrev main_v119 : Ref sig .tc := ⟨.hbm, 173, rfl⟩
abbrev main_cst_23 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_24 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call6_v0 : Ref sig .tc := ⟨.hbm, 193, rfl⟩
abbrev main_call6_cst : Ref sig .tc := ⟨.hbm, 194, rfl⟩
abbrev main_call6_v1 : Ref sig .tc := ⟨.hbm, 195, rfl⟩
abbrev main_call6_v2 : Ref sig .tc := ⟨.hbm, 196, rfl⟩
abbrev main_v137 : Ref sig .tc := ⟨.hbm, 197, rfl⟩
abbrev main_cst_25 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_call7_cst : Ref sig .tc := ⟨.hbm, 203, rfl⟩
abbrev main_call7_v0 : Ref sig .tc := ⟨.hbm, 204, rfl⟩
abbrev main_v142 : Ref sig .tc := ⟨.hbm, 205, rfl⟩
abbrev main_v143 : Ref sig .tc := ⟨.hbm, 206, rfl⟩
abbrev main_cst_26 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_cst_27 : Ref sig .tc := ⟨.hbm, 211, rfl⟩
abbrev main_v147 : Ref sig .tc := ⟨.hbm, 212, rfl⟩
abbrev main_cst_28 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_cst_29 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_30 : Ref sig .tc := ⟨.hbm, 229, rfl⟩
abbrev main_v162 : Ref sig .tc := ⟨.hbm, 230, rfl⟩
abbrev main_cst_31 : Ref sig .tc := ⟨.hbm, 231, rfl⟩
abbrev main_v163 : Ref sig .tc := ⟨.hbm, 232, rfl⟩
abbrev main_v164 : Ref sig .tc := ⟨.hbm, 233, rfl⟩
abbrev main_cst_32 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_33 : Ref sig .tc := ⟨.hbm, 245, rfl⟩
abbrev main_v175 : Ref sig .tc := ⟨.hbm, 246, rfl⟩
abbrev main_cst_34 : Ref sig .tc := ⟨.hbm, 247, rfl⟩
abbrev main_v176 : Ref sig .tc := ⟨.hbm, 248, rfl⟩
abbrev main_v177 : Ref sig .tc := ⟨.hbm, 249, rfl⟩
abbrev main_cst_35 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_36 : Ref sig .tc := ⟨.hbm, 260, rfl⟩
abbrev main_v187 : Ref sig .tc := ⟨.hbm, 261, rfl⟩
abbrev main_v188 : Ref sig .tc := ⟨.hbm, 262, rfl⟩
abbrev main_cst_37 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x256_S50000x256_S50000x512_d1 : Shape.Concatenates [S50000x256, S50000x256] S50000x512 1
  slices_S4x512x256_S1x512x256_0_0_0 : S4x512x256.Slices ![0, 0, 0] S1x512x256
  shapeCasts_S1x512x256_S512x256 : S1x512x256.ShapeCasts S512x256
  slices_S4x256_S1x256_0_0 : S4x256.Slices ![0, 0] S1x256
  shapeCasts_S1x256_S256 : S1x256.ShapeCasts S256
  reducesTo_S50000x256_S50000_d1 : S50000x256.ReducesTo [1] S50000
  h_S_ : 0 < S_.numel
  bcast_S_S50000x1 : S_.BroadcastsInDim S50000x1 (![] : Fin 0 → Fin S50000x1.rank)
  slices_S4x512x256_S1x512x256_1_0_0 : S4x512x256.Slices ![1, 0, 0] S1x512x256
  slices_S4x256_S1x256_1_0 : S4x256.Slices ![1, 0] S1x256
  slices_S4x512x256_S1x512x256_2_0_0 : S4x512x256.Slices ![2, 0, 0] S1x512x256
  slices_S4x256_S1x256_2_0 : S4x256.Slices ![2, 0] S1x256
  slices_S4x512x256_S1x512x256_3_0_0 : S4x512x256.Slices ![3, 0, 0] S1x512x256
  slices_S4x256_S1x256_3_0 : S4x256.Slices ![3, 0] S1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S64x256_S64x1x256_0_2 : S64x256.BroadcastsInDim S64x1x256 (![0, 2] : Fin 2 → Fin S64x1x256.rank)
  bcast_S5x256_S1x5x256_1_2 : S5x256.BroadcastsInDim S1x5x256 (![1, 2] : Fin 2 → Fin S1x5x256.rank)
  bcast_S64x1x256_S64x5x256_0_1_2 : S64x1x256.BroadcastsInDim S64x5x256 (![0, 1, 2] : Fin 3 → Fin S64x5x256.rank)
  bcast_S1x5x256_S64x5x256_0_1_2 : S1x5x256.BroadcastsInDim S64x5x256 (![0, 1, 2] : Fin 3 → Fin S64x5x256.rank)
  reducesTo_S64x5x256_S64x5_d2 : S64x5x256.ReducesTo [2] S64x5
  bcast_S_S64x5 : S_.BroadcastsInDim S64x5 (![] : Fin 0 → Fin S64x5.rank)
  concatenates_S64x5_S64x5_S64x10_d1 : Shape.Concatenates [S64x5, S64x5] S64x10 1
  transposes_S1x10_S10x1_1_0 : S1x10.Transposes [1, 0] S10x1
  bcast_S_S64x1 : S_.BroadcastsInDim S64x1 (![] : Fin 0 → Fin S64x1.rank)
  shapeCasts_S64x1_S64 : S64x1.ShapeCasts S64
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  scatter_S64x256_S50000x1_S50000x256_1_0_0_1_wf : ScatterDims.WF S64x256 S50000x1 S50000x256 [1] [0] [0] 1
  scatter_S64_S50000x1_S50000_n_0_0_1_wf : ScatterDims.WF S64 S50000x1 S50000 [] [0] [0] 1
  dot_S64x10_S10x1_S64x1_1_0_0_1_n_n_wf : DotDims.WF S64x10 S10x1 S64x1 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x10_S10x1_S64x1_1_0_0_1_n_n : DotDims S64x10 S10x1 S64x1 where
  lhsContracting := [1]
  rhsContracting := [0]
  lhsNonContracting := [0]
  rhsNonContracting := [1]
  lhsBatch := []
  rhsBatch := []
  wf := dot_S64x10_S10x1_S64x1_1_0_0_1_n_n_wf

class Facts : Prop extends Facts₀ where

variable [Facts]
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«168573_j3556232921300_1_alg».proof.Proof.LibPlainMatmul
import proofs.«168573_j3556232921300_1_alg».proof.Proof.LibHostReads
import proofs.«168573_j3556232921300_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowLayers.lean ====
/-
  Layers of a dense network read on picked rows, one operation at a time.

  A block of TM rows is cut out of a tall matrix of M rows by a map ρ of row numbers (Cert.BlockRows.rowsOf). Each
  lemma below takes an operand that IS the picked rows of some tall matrix (an equation, so that the lemma applies to
  whatever expression the operand is spelled as) and says that one more operation on it gives the picked rows of the
  host's operation on the tall matrix:

  * a bias given as a matrix B of ONE row, broadcast down the block, against the same row broadcast down all M rows;
  * a sum of two operands, a maximum with a constant zero, a reshape to the operand's own shape;
  * a change to a narrower float format, which on the extended reals changes nothing;
  * the matrix unit's product into a zero accumulator with a fixed right factor against the host's plain product.

  Chained, they read max(x·W + B, 0) and the like, computed on a block, as rows of the same expression on whole arrays.
-/
import Idealize.ShloMosaic.PureOps.Ideal.Laws
import Idealize.ShloMosaic.Lib.Pipeline.Value
import Idealize.ShloMosaic.Lib.ValueIdx
import Idealize.ShloMosaic.Lib.ValueLayout
import proofs.«168573_j3556232921300_1_alg».proof.Proof.LibBlockRows

noncomputable section

namespace Cert.RowLayers

open Idealize.ShloMosaic Idealize.ShloMosaic.ValueIdx Cert.BlockRows

variable {TM M K N : Nat}

/-- The host's bias matrix of a one-row matrix: the row broadcast down M rows. -/
def rowBias {α : Type} (h2 : (⟨2, ![1, N]⟩ : Shape).BroadcastsInDim ⟨2, ![M, N]⟩ ![0, 1])
    (B : (⟨2, ![1, N]⟩ : Shape).Idx → α) : (⟨2, ![M, N]⟩ : Shape).Idx → α :=
  broadcastInDim ⟨2, ![M, N]⟩ ![0, 1] h2 B

/-- Entry (r, c) of the bias matrix is entry (0, c) of the row. -/
theorem rowBias_apply {α : Type} (h2 : (⟨2, ![1, N]⟩ : Shape).BroadcastsInDim ⟨2, ![M, N]⟩ ![0, 1])
    (B : (⟨2, ![1, N]⟩ : Shape).Idx → α) (r : Fin M) (c : Fin N) : rowBias h2 B (ix2 r c) = B (ix2 (0 : Fin 1) c) := by
  unfold rowBias
  refine broadcastInDim_apply _ h2 B (ix2 r c) (ix2 (0 : Fin 1) c) fun a => ?_
  match a with
  | ⟨0, _⟩ => show (0 : Fin 1).val = if (1 : Nat) = 1 then 0 else r.val; rw [if_pos rfl]; rfl
  | ⟨1, _⟩ =>
    show c.val = if N = 1 then 0 else c.val
    split
    · have := c.isLt; omega
    · rfl

/-- The one row, reshaped to its own shape and broadcast down a block of TM rows, is any TM picked rows of the
    host's bias matrix. -/
theorem rowBias_rows {α : Type} (ρ : Fin TM → Fin M) (B : (⟨2, ![1, N]⟩ : Shape).Idx → α)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    broadcastTo ⟨2, ![TM, N]⟩ (shapeCast ⟨2, ![1, N]⟩ B hs) hb = rowsOf ρ (rowBias h2 B) := by
  rw [shapeCast_self]
  funext j
  obtain ⟨p, c, rfl⟩ : ∃ (p : Fin TM) (c : Fin N), j = ix2 p c := ⟨j 0, j 1, eq_ix2 j⟩
  rw [broadcastTo_1b_ab_apply, rowsOf_apply, rowBias_apply]

/-- A reshape of picked rows to their own shape is the picked rows. -/
theorem cast_of_rows {α : Type} (ρ : Fin TM → Fin M) (y : (⟨2, ![TM, N]⟩ : Shape).Idx → α) (Y : (⟨2, ![M, N]⟩ : Shape).Idx → α)
    (hy : y = rowsOf ρ Y) (hs : (⟨2, ![TM, N]⟩ : Shape).ShapeCasts ⟨2, ![TM, N]⟩) :
    shapeCast ⟨2, ![TM, N]⟩ y hs = rowsOf ρ Y := by
  rw [shapeCast_self]; exact hy

/-- Picked rows plus the bias row broadcast down the block are the picked rows of the host's sum with the bias matrix. -/
theorem addBias_of_rows (ρ : Fin TM → Fin M) (y : FVec Ideal ⟨2, ![TM, N]⟩ .f32) (Y : FVec Ideal ⟨2, ![M, N]⟩ .f32)
    (hy : y = rowsOf ρ Y) (B : FVec Ideal ⟨2, ![1, N]⟩ .f32)
    (hs : (⟨2, ![1, N]⟩ : Shape).ShapeCasts ⟨2, ![1, N]⟩) (hb : (⟨2, ![1, N]⟩ : Shape).Broadcasts ⟨2, ![TM, N]⟩)
    (h2 : (⟨2, ![1, N]⟩ : Shape).BroadcastsInDim ⟨2, ![M, N]⟩ ![0, 1]) :
    addf y (broadcastTo ⟨2, ![TM, N]⟩ (shapeCast ⟨2, ![1, N]⟩ B hs) hb) = rowsOf ρ (addf Y (rowBias h2 B)) := by
  subst hy
  rw [rowBias_rows ρ B hs hb h2, addf_rows]

/-- A sum of two operands that are picked rows is the picked rows of the sum. -/
theorem addf_of_rows (ρ : Fin TM → Fin M) (y z : FVec Ideal ⟨2, ![TM, N]⟩ .f32) (Y Z : FVec Ideal ⟨2, ![M, N]⟩ .f32)
    (hy : y = rowsOf ρ Y) (hz : z = rowsOf ρ Z) : addf y z = rowsOf ρ (addf Y Z) := by
  subst hy hz; rfl

/-- The maximum of picked rows with a splat zero is the picked rows of the host's maximum with zero. -/
theorem relu_of_rows (ρ : Fin TM → Fin M) (y : FVec Ideal ⟨2, ![TM, N]⟩ .f32) (Y : FVec Ideal ⟨2, ![M, N]⟩ .f32)
    (hy : y = rowsOf ρ Y) (h0 : (⟨0, ![]⟩ : Shape).BroadcastsInDim ⟨2, ![M, N]⟩ ![]) :
    maximumf y (broadcast ⟨2, ![TM, N]⟩ (Scalar.ofBits (F := Ideal) .f32 0x00000000#32)) = rowsOf ρ (relu h0 Y) := by
  subst hy
  exact relu_rows ρ h0 Y

/-- Picked rows converted to a narrower float format are, on the extended reals, the same picked rows. -/
theorem trunc_of_rows (ρ : Fin TM → Fin M) {ψ : FTy} (hψ : ψ.bits < FTy.f32.bits) (y : FVec Ideal ⟨2, ![TM, N]⟩ .f32)
    (Y : FVec Ideal ⟨2, ![M, N]⟩ .f32) (hy : y = rowsOf ρ Y) :
    (truncf ψ y hψ : (⟨2, ![TM, N]⟩ : Shape).Idx → EReal) = rowsOf ρ Y := hy

/-- A whole matrix converted to a narrower float format is, on the extended reals, the same matrix. -/
theorem trunc_whole {s : Shape} {ψ : FTy} (hψ : ψ.bits < FTy.f32.bits) (g G : FVec Ideal s .f32) (hg : g = G) :
    (truncf ψ g hψ : s.Idx → EReal) = G := hg

/-- The matrix unit's product into zeros of a left operand that IS picked rows of A with a right operand that IS G
    (either possibly in another float format) is the picked rows of the host's A · G. -/
theorem matmul_of_rows (ρ : Fin TM → Fin M) {φ₁ φ₂ : FTy} (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : (a : (⟨2, ![TM, K]⟩ : Shape).Idx → EReal) = rowsOf ρ A) (hg : (g : (⟨2, ![K, N]⟩ : Shape).Idx → EReal) = G) :
    matmul (DotDims.plain TM K N) none a g (constant ⟨2, ![TM, N]⟩ .f32 0x00000000#32) = rowsOf ρ (propagate A G) :=
  matmul_rows ρ none none a g A G (fun p k => congrFun ha (ix2 p k)) (fun k n => congrFun hg (ix2 k n))

end Cert.RowLayers

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«168573_j3556232921300_1_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibBiInteraction.lean ====
/-
  A bi-interaction graph layer and a clamped Euclidean row normalisation, computed on picked rows.

  For two M-row tables E and S of K columns, two K × N weight tables W₁, W₂ and two bias rows B₁, B₂ the layer is
      lrelu((E + S)·W₁ + B₁) + lrelu((E ⊙ S)·W₂ + B₂),          lrelu y = y if y ≥ 0, else s·y,
  and the normalisation divides each row y of an M × N table by max(√(Σ_j y_j²), ε).

  Both act on every row separately. So the vector unit's spelling on a block of TM rows picked out of the tables by a
  map ρ — sums and products entry by entry, the matrix unit's product into zeros of operands first narrowed to another
  float format, a bias row spread down the block, a comparison with a splat zero and a selection; then a square, a sum
  along the lanes, a column, a square root, a maximum with a splat ε, the column spread along the lanes, a division —
  gives the picked rows of the host's spelling on the whole tables (dot_general, broadcast_in_dim, compare, select;
  reduce-add, broadcast_in_dim to a column and back, sqrt, maximum, divide). Everything is on the extended reals,
  where narrowing a float format is the identity; nothing needs the entries to be finite, because the two spellings
  apply the same operations to the same sums.
-/
import Idealize.ShloMosaic.PureOps.Ideal.Laws
import Idealize.ShloMosaic.Lib.Pipeline.Value
import Idealize.ShloMosaic.Lib.ValueIdx
import proofs.«168573_j3556232921300_1_alg».proof.Proof.LibBlockRows
import proofs.«168573_j3556232921300_1_alg».proof.Proof.LibColRowBroadcast
import proofs.«168573_j3556232921300_1_alg».proof.Proof.LibRmsNorm

noncomputable section

open scoped BigOperators

namespace Cert.BiInteraction

open Idealize.ShloMosaic Idealize.ShloMosaic.ValueIdx
open Cert.BlockRows (rowsOf rowsOf_apply)

variable {TM M K N : Nat}

/-! ## The host's spelling, on whole tables -/

/-- The leaky rectifier with slope word `s`: y where y ≥ 0, s·y elsewhere; the zero and the slope rank-zero constants
    broadcast to the table. -/
def leaky (s : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  select (cmpf .oge Y (broadcastInDim ⟨2, ![M, N]⟩ ![] h0 (constant (F := Ideal) ⟨0, ![]⟩ .f32 0x00000000#32))) Y
    (mulf (broadcastInDim ⟨2, ![M, N]⟩ ![] h0 (constant (F := Ideal) ⟨0, ![]⟩ .f32 s)) Y)

/-- One branch: a dense layer X·W + B, then the leaky rectifier. -/
def branch (s : BitVec 32) (h0 : (⟨0, ![]⟩ : Shape).BroadcastsInDim ⟨2, ![M, N]⟩ ![])
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  leaky s h0 (Cert.BlockRows.dense h2 X W B)

/-- The bi-interaction layer: the branch of E + S through W₁, B₁ plus the branch of E ⊙ S through W₂, B₂. -/
def layer (s : BitVec 32) (h0 : (⟨0, ![]⟩ : Shape).BroadcastsInDim ⟨2, ![M, N]⟩ ![])
    (h2 : (⟨2, ![1, N]⟩ : Shape).BroadcastsInDim ⟨2, ![M, N]⟩ ![0, 1])
    (E S : FVec Ideal ⟨2, ![M, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) : FVec Ideal ⟨2, ![M, N]⟩ .f32 :=
  addf (branch s h0 h2 (addf E S) W₁ B₁) (branch s h0 h2 (mulf E S) W₂ B₂)

/-- The column of divisors: per row, the larger of its Euclidean length and the floor of word `e`. -/
def divisors (e : BitVec 32)
    (hrt : (⟨2, ![M, N]⟩ : Shape).ReducesTo [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (Y : FVec Ideal ⟨2, ![M, N]⟩ .f32) : FVec Ideal ⟨2, ![M, 1]⟩ .f32 :=
  maximumf
    (Host.sqrt (broadcastInDim ⟨2, ![M, 1]⟩ ![0] hb1
      (Host.reduceAdd (mulf Y Y) (constant (F := Ideal) ⟨0, ![]⟩ .f32 0x00000000#32) hrt hz)))
    (broadcastInDim ⟨2, ![M, 1]⟩ ![] hbs (constant (F := Ideal) ⟨0, ![]⟩ .f32 e))

/-- Each row divided by the larger of its Euclidean length and the floor of word `e`. -/
def normalized (e : BitVec 32)
    (hrt : (⟨2, ![M, N]⟩ : Shape).ReducesTo [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (Y : FVec Ideal ⟨2, ![M, N]⟩ .f32) : FVec Ideal ⟨2, ![M, N]⟩ .f32 :=
  Host.divf Y (broadcastInDim ⟨2, ![M, N]⟩ ![0, 1] hbc (divisors e hrt hz hb1 hbs Y))

/-! ## The vector unit's spelling, on a block of rows -/

/-- A dense layer on a block: the matrix unit's product into zeros of operands narrowed to format ψ, plus the bias row
    spread down the block. -/
def vecDense {ψ : FTy} (hψ : ψ.bits < FTy.f32.bits) (hb : (⟨2, ![1, N]⟩ : Shape).Broadcasts ⟨2, ![TM, N]⟩)
    (x : FVec Ideal ⟨2, ![TM, K]⟩ .f32) (W : FVec Ideal ⟨2, ![K, N]⟩ .f32) (B : FVec Ideal ⟨2, ![1, N]⟩ .f32) :
    FVec Ideal ⟨2, ![TM, N]⟩ .f32 :=
  addf (matmul (DotDims.plain TM K N) none (truncf ψ x hψ) (truncf ψ W hψ) (constant ⟨2, ![TM, N]⟩ .f32 0x00000000#32))
    (broadcastTo ⟨2, ![TM, N]⟩ B hb)

/-- The leaky rectifier on a block: a comparison with a splat zero, a product with a splat slope, a selection. -/
def vecLeaky (s : BitVec 32) (y : FVec Ideal ⟨2, ![TM, N]⟩ .f32) : FVec Ideal ⟨2, ![TM, N]⟩ .f32 :=
  select (cmpf .oge y (broadcast ⟨2, ![TM, N]⟩ (Scalar.ofBits (F := Ideal) .f32 0x00000000#32))) y
    (mulf (broadcast ⟨2, ![TM, N]⟩ (Scalar.ofBits (F := Ideal) .f32 s)) y)

/-- The layer on a block of rows. -/
def vecLayer (s : BitVec 32) {ψ : FTy} (hψ : ψ.bits < FTy.f32.bits) (hb : (⟨2, ![1, N]⟩ : Shape).Broadcasts ⟨2, ![TM, N]⟩)
    (e s' : FVec Ideal ⟨2, ![TM, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) : FVec Ideal ⟨2, ![TM, N]⟩ .f32 :=
  addf (vecLeaky s (vecDense hψ hb (addf e s') W₁ B₁)) (vecLeaky s (vecDense hψ hb (mulf e s') W₂ B₂))

/-- The column of divisors on a block of rows. -/
def vecDivisors (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩)
    (y : FVec Ideal ⟨2, ![TM, N]⟩ .f32) : FVec Ideal ⟨2, ![TM, 1]⟩ .f32 :=
  maximumf
    (sqrt (shapeCast ⟨2, ![TM, 1]⟩ (multiReduction .add [1] ⟨1, ![TM]⟩ (mulf y y) 0x00000000#32 hr hφ hacc) hc))
    (broadcast ⟨2, ![TM, 1]⟩ (Scalar.ofBits (F := Ideal) .f32 e))

/-- The normalisation on a block of rows. -/
def vecNormalized (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩) (hbc : (⟨2, ![TM, 1]⟩ : Shape).Broadcasts ⟨2, ![TM, N]⟩)
    (y : FVec Ideal ⟨2, ![TM, N]⟩ .f32) : FVec Ideal ⟨2, ![TM, N]⟩ .f32 :=
  divf y (broadcastTo ⟨2, ![TM, N]⟩ (vecDivisors e hr hφ hacc hc y) hbc)

/-! ## The block's result is the picked rows of the whole tables' -/

/-- A bias row spread down a block is the picked rows of the row spread down the whole table. -/
theorem bias_rows (ρ : Fin TM → Fin M) (hb : (⟨2, ![1, N]⟩ : Shape).Broadcasts ⟨2, ![TM, N]⟩)
    (h2 : (⟨2, ![1, N]⟩ : Shape).BroadcastsInDim ⟨2, ![M, N]⟩ ![0, 1]) (B : FVec Ideal ⟨2, ![1, N]⟩ .f32) :
    broadcastTo ⟨2, ![TM, N]⟩ B hb = rowsOf ρ (broadcastInDim ⟨2, ![M, N]⟩ ![0, 1] h2 B) := by
  funext j
  obtain ⟨p, q, rfl⟩ : ∃ (p : Fin TM) (q : Fin N), j = ix2 p q := ⟨j 0, j 1, eq_ix2 j⟩
  rw [rowsOf_apply]
  exact (Cert.ColRowBroadcast.rowBroadcast_apply B hb p q).trans (Cert.RmsNorm.hostRowBroadcast_apply B h2 (ρ p) q).symm

/-- The dense layer of picked rows is the picked rows of the host's dense layer. -/
theorem vecDense_rows (ρ : Fin TM → Fin M) {ψ : FTy} (hψ : ψ.bits < FTy.f32.bits)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    vecDense hψ hb (rowsOf ρ X) W B = rowsOf ρ (Cert.BlockRows.dense h2 X W B) := by
  unfold vecDense Cert.BlockRows.dense
  rw [Cert.BlockRows.matmul_rows ρ none none (truncf ψ (rowsOf ρ X) hψ) (truncf ψ W hψ) X W (fun _ _ => rfl) (fun _ _ => rfl),
    bias_rows ρ hb h2 B]
  rfl

/-- The leaky rectifier of picked rows is the picked rows of the host's. -/
theorem vecLeaky_rows (ρ : Fin TM → Fin M) (s : BitVec 32) (h0 : (⟨0, ![]⟩ : Shape).BroadcastsInDim ⟨2, ![M, N]⟩ ![])
    (Y : FVec Ideal ⟨2, ![M, N]⟩ .f32) : vecLeaky s (rowsOf ρ Y) = rowsOf ρ (leaky s h0 Y) := by
  unfold vecLeaky
  rw [Cert.BlockRows.splat_rows ρ 0x00000000#32 h0, Cert.BlockRows.splat_rows ρ s h0]
  rfl

/-- THE LAYER on picked rows of E and S is the picked rows of the host's layer on E and S. -/
theorem vecLayer_rows (ρ : Fin TM → Fin M) (s : BitVec 32) {ψ : FTy} (hψ : ψ.bits < FTy.f32.bits)
    (hb : (⟨2, ![1, N]⟩ : Shape).Broadcasts ⟨2, ![TM, N]⟩)
    (h0 : (⟨0, ![]⟩ : Shape).BroadcastsInDim ⟨2, ![M, N]⟩ ![])
    (h2 : (⟨2, ![1, N]⟩ : Shape).BroadcastsInDim ⟨2, ![M, N]⟩ ![0, 1])
    (E S : FVec Ideal ⟨2, ![M, K]⟩ .f32) (W₁ : FVec Ideal ⟨2, ![K, N]⟩ .f32) (B₁ : FVec Ideal ⟨2, ![1, N]⟩ .f32)
    (W₂ : FVec Ideal ⟨2, ![K, N]⟩ .f32) (B₂ : FVec Ideal ⟨2, ![1, N]⟩ .f32) :
    vecLayer s hψ hb (rowsOf ρ E) (rowsOf ρ S) W₁ B₁ W₂ B₂ = rowsOf ρ (layer s h0 h2 E S W₁ B₁ W₂ B₂) := by
  unfold vecLayer layer branch
  rw [Cert.BlockRows.addf_rows, Cert.BlockRows.mulf_rows, vecDense_rows ρ hψ hb h2, vecDense_rows ρ hψ hb h2,
    vecLeaky_rows ρ s h0, vecLeaky_rows ρ s h0]
  rfl

/-- THE NORMALISATION of picked rows is the picked rows of the host's normalisation. -/
theorem vecNormalized_rows (ρ : Fin TM → Fin M) (e : BitVec 32)
    (hr : (⟨2, ![TM, N]⟩ : Shape).Reduces [1] (⟨1, ![TM]⟩ : Shape)) (hφ : FKind.Formats .f32)
    (hacc : (0x00000000#32 : BitVec (FTy.bits .f32)) = FKind.add.neutral .f32 hφ)
    (hc : (⟨1, ![TM]⟩ : Shape).ShapeCasts ⟨2, ![TM, 1]⟩) (hbc : (⟨2, ![TM, 1]⟩ : Shape).Broadcasts ⟨2, ![TM, N]⟩)
    (hrt : (⟨2, ![M, N]⟩ : Shape).ReducesTo [1] (⟨1, ![M]⟩ : Shape))
    (hrM : (⟨2, ![M, N]⟩ : Shape).Reduces [1] (⟨1, ![M]⟩ : Shape)) (hz : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbcM : (⟨2, ![M, 1]⟩ : Shape).BroadcastsInDim ⟨2, ![M, N]⟩ ![0, 1])
    (Y : FVec Ideal ⟨2, ![M, N]⟩ .f32) :
    vecNormalized e hr hφ hacc hc hbc (rowsOf ρ Y) = rowsOf ρ (normalized e hrt hz hb1 hbs hbcM Y) := by
  funext j
  obtain ⟨p, q, rfl⟩ : ∃ (p : Fin TM) (q : Fin N), j = ix2 p q := ⟨j 0, j 1, eq_ix2 j⟩
  rw [rowsOf_apply]
  have hv : broadcastTo ⟨2, ![TM, N]⟩ (vecDivisors e hr hφ hacc hc (rowsOf ρ Y)) hbc (ix2 p q)
      = max (Ideal.sqrt (∑ k : Fin N, Y (ix2 (ρ p) k) * Y (ix2 (ρ p) k))) (Ideal.ofBits .f32 e) := by
    refine (Cert.ColRowBroadcast.colBroadcast_apply _ hbc p q).trans ?_
    show max (Ideal.sqrt (shapeCast ⟨2, ![TM, 1]⟩
        (multiReduction .add [1] ⟨1, ![TM]⟩ (mulf (rowsOf ρ Y) (rowsOf ρ Y)) 0x00000000#32 hr hφ hacc) hc (ix2 p (0 : Fin 1))))
      (Ideal.ofBits .f32 e) = _
    rw [Cert.ColRowBroadcast.colCast_apply, Cert.RmsNorm.laneSum_apply]
    rfl
  have hh : broadcastInDim ⟨2, ![M, N]⟩ ![0, 1] hbcM (divisors e hrt hz hb1 hbs Y) (ix2 (ρ p) q)
      = max (Ideal.sqrt (∑ k : Fin N, Y (ix2 (ρ p) k) * Y (ix2 (ρ p) k))) (Ideal.ofBits .f32 e) := by
    refine (Cert.RmsNorm.hostColBroadcast_apply _ hbcM (ρ p) q).trans ?_
    show max (Ideal.sqrt (broadcastInDim ⟨2, ![M, 1]⟩ ![0] hb1
        (Host.reduceAdd (mulf Y Y) (constant (F := Ideal) ⟨0, ![]⟩ .f32 0x00000000#32) hrt hz) (ix2 (ρ p) (0 : Fin 1))))
      (broadcastInDim ⟨2, ![M, 1]⟩ ![] hbs (constant (F := Ideal) ⟨0, ![]⟩ .f32 e) (ix2 (ρ p) (0 : Fin 1))) = _
    rw [Cert.RmsNorm.hostCol_apply, Cert.RmsNorm.hostSum_apply _ hrt hrM hz, Cert.RmsNorm.scalarBroadcast_apply]
    rfl
  show Ideal.div (Y (ix2 (ρ p) q)) (broadcastTo ⟨2, ![TM, N]⟩ (vecDivisors e hr hφ hacc hc (rowsOf ρ Y)) hbc (ix2 p q))
    = Ideal.div (Y (ix2 (ρ p) q)) (broadcastInDim ⟨2, ![M, N]⟩ ![0, 1] hbcM (divisors e hrt hz hb1 hbs Y) (ix2 (ρ p) q))
  rw [hv, hh]

end Cert.BiInteraction

end
-- ==== Proof.Spec.lean ====
/-
  The network both programs compute, as whole-array functions on the extended reals.

  A node table X : [50000, 256] is carried through four layers.  Each layer takes the mean C of X over every node's
  in-neighbours (`agg`: gather rows by the edge sources, add them up by the edge targets, divide by the in-degree
  clamped at one), forms the pre-activation Y = [X | C] · W + b, scales every row of Y by its Euclidean length clamped
  below at a small constant, cuts at zero and adds X back (`finish`).  The kernel multiplies X and C by the two halves
  of W separately (`layer`), the reference multiplies the joined table [X | C] by the whole of W (`Ref.pre`).  After the
  last layer the rows are averaged per graph (`pool`), compared with two families of prototypes (`sqd`, `simOf`) and
  sent through a one-row linear head and a logistic (`head`).
-/
import proofs.«168573_j3556232921300_1_alg».proof.Proof.Gen.KernelIdeal
import proofs.«168573_j3556232921300_1_alg».proof.Proof.Gen.ReferenceIdeal
import proofs.«168573_j3556232921300_1_alg».proof.Proof.LibBlockRows
import proofs.«168573_j3556232921300_1_alg».proof.Proof.LibRowLayers
import proofs.«168573_j3556232921300_1_alg».proof.Proof.LibBiInteraction

noncomputable section

namespace Cert.Sage

open Idealize.ShloMosaic

/-! ## Chains the two programs spell alike, in the kernel program's vocabulary -/
section Shared
open Cert.KernelIdeal Cert.KernelIdeal.Facts₀ Cert.KernelIdeal.Facts

/-- The mean of the rows of `x` over each node's in-neighbours (zero rows where there are none). -/
def agg (x : FVec Ideal S50000x256 .f32) (src dst : IVec S800000 32) : FVec Ideal S50000x256 .f32 :=
  (Host.divf (Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 dst) (Host.gather gather_S50000x256_S800000x1_S800000x256_1_0_n_n_0_1_1256 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x256 ![0, 1] bcast_S50000x1_S50000x256_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 dst) (broadcastInDim S800000 ![] bcast_S_S800000 (constant (F := Ideal) S_ .f32 0x3F800000#32))) (broadcastInDim S50000 ![] bcast_S_S50000 (constant (F := Ideal) S_ .f32 0x3F800000#32))))))

/-- The upper half of layer 0's weight table. -/
def wx0 (Ws : FVec Ideal S4x512x256 .f32) : FVec Ideal S256x256 .f32 :=
  (shapeCast S256x256 (extractStridedSlice S1x256x256 ![0, 0, 0] Ws slices_S4x512x256_S1x256x256_0_0_0) shapeCasts_S1x256x256_S256x256)
/-- The lower half of layer 0's weight table. -/
def wc0 (Ws : FVec Ideal S4x512x256 .f32) : FVec Ideal S256x256 .f32 :=
  (shapeCast S256x256 (extractStridedSlice S1x256x256 ![0, 256, 0] Ws slices_S4x512x256_S1x256x256_0_256_0) shapeCasts_S1x256x256_S256x256)
/-- Layer 0's bias as a one-row matrix. -/
def b20 (bs : FVec Ideal S4x256 .f32) : FVec Ideal S1x256 .f32 :=
  (shapeCast S1x256 (shapeCast S256 (extractStridedSlice S1x256 ![0, 0] bs slices_S4x256_S1x256_0_0) shapeCasts_S1x256_S256) shapeCasts_S256_S1x256)
/-- The upper half of layer 1's weight table. -/
def wx1 (Ws : FVec Ideal S4x512x256 .f32) : FVec Ideal S256x256 .f32 :=
  (shapeCast S256x256 (extractStridedSlice S1x256x256 ![1, 0, 0] Ws slices_S4x512x256_S1x256x256_1_0_0) shapeCasts_S1x256x256_S256x256)
/-- The lower half of layer 1's weight table. -/
def wc1 (Ws : FVec Ideal S4x512x256 .f32) : FVec Ideal S256x256 .f32 :=
  (shapeCast S256x256 (extractStridedSlice S1x256x256 ![1, 256, 0] Ws slices_S4x512x256_S1x256x256_1_256_0) shapeCasts_S1x256x256_S256x256)
/-- Layer 1's bias as a one-row matrix. -/
def b21 (bs : FVec Ideal S4x256 .f32) : FVec Ideal S1x256 .f32 :=
  (shapeCast S1x256 (shapeCast S256 (extractStridedSlice S1x256 ![1, 0] bs slices_S4x256_S1x256_1_0) shapeCasts_S1x256_S256) shapeCasts_S256_S1x256)
/-- The upper half of layer 2's weight table. -/
def wx2 (Ws : FVec Ideal S4x512x256 .f32) : FVec Ideal S256x256 .f32 :=
  (shapeCast S256x256 (extractStridedSlice S1x256x256 ![2, 0, 0] Ws slices_S4x512x256_S1x256x256_2_0_0) shapeCasts_S1x256x256_S256x256)
/-- The lower half of layer 2's weight table. -/
def wc2 (Ws : FVec Ideal S4x512x256 .f32) : FVec Ideal S256x256 .f32 :=
  (shapeCast S256x256 (extractStridedSlice S1x256x256 ![2, 256, 0] Ws slices_S4x512x256_S1x256x256_2_256_0) shapeCasts_S1x256x256_S256x256)
/-- Layer 2's bias as a one-row matrix. -/
def b22 (bs : FVec Ideal S4x256 .f32) : FVec Ideal S1x256 .f32 :=
  (shapeCast S1x256 (shapeCast S256 (extractStridedSlice S1x256 ![2, 0] bs slices_S4x256_S1x256_2_0) shapeCasts_S1x256_S256) shapeCasts_S256_S1x256)
/-- The upper half of layer 3's weight table. -/
def wx3 (Ws : FVec Ideal S4x512x256 .f32) : FVec Ideal S256x256 .f32 :=
  (shapeCast S256x256 (extractStridedSlice S1x256x256 ![3, 0, 0] Ws slices_S4x512x256_S1x256x256_3_0_0) shapeCasts_S1x256x256_S256x256)
/-- The lower half of layer 3's weight table. -/
def wc3 (Ws : FVec Ideal S4x512x256 .f32) : FVec Ideal S256x256 .f32 :=
  (shapeCast S256x256 (extractStridedSlice S1x256x256 ![3, 256, 0] Ws slices_S4x512x256_S1x256x256_3_256_0) shapeCasts_S1x256x256_S256x256)
/-- Layer 3's bias as a one-row matrix. -/
def b23 (bs : FVec Ideal S4x256 .f32) : FVec Ideal S1x256 .f32 :=
  (shapeCast S1x256 (shapeCast S256 (extractStridedSlice S1x256 ![3, 0] bs slices_S4x256_S1x256_3_0) shapeCasts_S1x256_S256) shapeCasts_S256_S1x256)

/-- The embedding's bias as a one-row matrix. -/
def bemb2 (b : FVec Ideal S256 .f32) : FVec Ideal S1x256 .f32 :=
  (shapeCast S1x256 b shapeCasts_S256_S1x256)

/-- The mean of the node rows of each graph. -/
def pool (x : FVec Ideal S50000x256 .f32) (gid : IVec S50000 32) : FVec Ideal S64x256 .f32 :=
  (Host.divf (Host.scatterAdd scatter_S64x256_S50000x1_S50000x256_1_0_0_1 (broadcastInDim S64x256 ![] bcast_S_S64x256 (constant (F := Ideal) S_ .f32 0x00000000#32)) (broadcastInDim S50000x1 ![0] bcast_S50000_S50000x1_0 gid) x) (broadcastInDim S64x256 ![0, 1] bcast_S64x1_S64x256_0_1 (broadcastInDim S64x1 ![0] bcast_S64_S64x1_0 (maximumf (Host.scatterAdd scatter_S64_S50000x1_S50000_n_0_0_1 (broadcastInDim S64 ![] bcast_S_S64 (constant (F := Ideal) S_ .f32 0x00000000#32)) (broadcastInDim S50000x1 ![0] bcast_S50000_S50000x1_0 gid) (broadcastInDim S50000 ![] bcast_S_S50000 (constant (F := Ideal) S_ .f32 0x3F800000#32))) (broadcastInDim S64 ![] bcast_S_S64 (constant (F := Ideal) S_ .f32 0x3F800000#32))))))
/-- Squared distances of every pooled row to every prototype. -/
def sqd (hg : FVec Ideal S64x256 .f32) (P : FVec Ideal S5x256 .f32) : FVec Ideal S64x5 .f32 :=
  (Host.reduceAdd (mulf (subf (broadcastInDim S64x5x256 ![0, 1, 2] bcast_S64x1x256_S64x5x256_0_1_2 (broadcastInDim S64x1x256 ![0, 2] bcast_S64x256_S64x1x256_0_2 hg)) (broadcastInDim S64x5x256 ![0, 1, 2] bcast_S1x5x256_S64x5x256_0_1_2 (broadcastInDim S1x5x256 ![1, 2] bcast_S5x256_S1x5x256_1_2 P))) (subf (broadcastInDim S64x5x256 ![0, 1, 2] bcast_S64x1x256_S64x5x256_0_1_2 (broadcastInDim S64x1x256 ![0, 2] bcast_S64x256_S64x1x256_0_2 hg)) (broadcastInDim S64x5x256 ![0, 1, 2] bcast_S1x5x256_S64x5x256_0_1_2 (broadcastInDim S1x5x256 ![1, 2] bcast_S5x256_S1x5x256_1_2 P)))) (constant (F := Ideal) S_ .f32 0x00000000#32) reducesTo_S64x5x256_S64x5_d2 h_S_)
/-- The similarity log((d + 1) / (d + ε)). -/
def simOf (d : FVec Ideal S64x5 .f32) : FVec Ideal S64x5 .f32 :=
  (Host.log (Host.divf (addf d (broadcastInDim S64x5 ![] bcast_S_S64x5 (constant (F := Ideal) S_ .f32 0x3F800000#32))) (addf d (broadcastInDim S64x5 ![] bcast_S_S64x5 (constant (F := Ideal) S_ .f32 0x2B8CBCCC#32)))))
/-- The linear head on the joined similarities, and the logistic. -/
def head (s1 s2 : FVec Ideal S64x5 .f32) (wfc : FVec Ideal S1x10 .f32) : FVec Ideal S64 .f32 :=
  (shapeCast S64 (Host.divf (broadcastInDim S64x1 ![] bcast_S_S64x1 (constant (F := Ideal) S_ .f32 0x3F800000#32)) (addf (broadcastInDim S64x1 ![] bcast_S_S64x1 (constant (F := Ideal) S_ .f32 0x3F800000#32)) (Host.exp (Host.negf (Host.dotGeneral dot_S64x10_S10x1_S64x1_1_0_0_1_n_n none (concatenate S64x10 1 [⟨S64x5, s1⟩, ⟨S64x5, s2⟩] concatenates_S64x5_S64x5_S64x10_d1) (transpose S10x1 [1, 0] wfc transposes_S1x10_S10x1_1_0)))))) shapeCasts_S64x1_S64)
/-- Everything after the last layer. -/
def tail (x : FVec Ideal S50000x256 .f32) (gid : IVec S50000 32) (pp pn : FVec Ideal S5x256 .f32) (wfc : FVec Ideal S1x10 .f32) : FVec Ideal S64 .f32 :=
  head (simOf (sqd (pool x gid) pp)) (simOf (sqd (pool x gid) pn)) wfc

end Shared

/-! ## The layers, in the reference program's vocabulary -/
section Layers
open Cert.ReferenceIdeal Cert.ReferenceIdeal.Facts₀ Cert.ReferenceIdeal.Facts Cert.BlockRows

/-- Rows of Y scaled by their clamped Euclidean length, cut at zero, added to X. -/
def finish (X Y : FVec Ideal S50000x256 .f32) : FVec Ideal S50000x256 .f32 :=
  addf X (relu (M := 50000) (N := 256) bcast_S_S50000x256
    (Cert.BiInteraction.normalized (M := 50000) (N := 256) 0x2B8CBCCC#32 reducesTo_S50000x256_S50000_d1 h_S_
      bcast_S50000_S50000x1_0 bcast_S_S50000x1 bcast_S50000x1_S50000x256_0_1 Y))

/-- The embedding H · W + b with the bias given as a one-row matrix. -/
def embed (H : FVec Ideal S50000x128 .f32) (W : FVec Ideal S128x256 .f32) (B2 : FVec Ideal S1x256 .f32) : FVec Ideal S50000x256 .f32 :=
  dense (M := 50000) (K := 128) (N := 256) bcast_S1x256_S50000x256_0_1 H W B2

/-- One layer with the two halves of the weight table given apart: X + relu(normalise(X · Wx + C · Wc + b)). -/
def layer (X C : FVec Ideal S50000x256 .f32) (Wx Wc : FVec Ideal Cert.KernelIdeal.S256x256 .f32) (B2 : FVec Ideal S1x256 .f32) : FVec Ideal S50000x256 .f32 :=
  finish X (addf (addf (propagate (M := 50000) (K := 256) (N := 256) X Wx) (propagate (M := 50000) (K := 256) (N := 256) C Wc))
    (Cert.RowLayers.rowBias (M := 50000) (N := 256) bcast_S1x256_S50000x256_0_1 B2))

namespace Ref

/-- The embedding as the reference spells it. -/
def embed (h : FVec Ideal S50000x128 .f32) (W : FVec Ideal S128x256 .f32) (b : FVec Ideal S256 .f32) : FVec Ideal S50000x256 .f32 :=
  (addf (Host.dotGeneral dot_S50000x128_S128x256_S50000x256_1_0_0_1_n_n none h W) (broadcastInDim S50000x256 ![0, 1] bcast_S1x256_S50000x256_0_1 (broadcastInDim S1x256 ![1] bcast_S256_S1x256_1 b)))

/-- Layer 0's pre-activation [X | C] · W + b as the reference spells it. -/
def pre0 (X C : FVec Ideal S50000x256 .f32) (Ws : FVec Ideal S4x512x256 .f32) (bs : FVec Ideal S4x256 .f32) : FVec Ideal S50000x256 .f32 :=
  (addf (Host.dotGeneral dot_S50000x512_S512x256_S50000x256_1_0_0_1_n_n none (concatenate S50000x512 1 [⟨S50000x256, X⟩, ⟨S50000x256, C⟩] concatenates_S50000x256_S50000x256_S50000x512_d1) (shapeCast S512x256 (extractStridedSlice S1x512x256 ![0, 0, 0] Ws slices_S4x512x256_S1x512x256_0_0_0) shapeCasts_S1x512x256_S512x256)) (broadcastInDim S50000x256 ![0, 1] bcast_S1x256_S50000x256_0_1 (broadcastInDim S1x256 ![1] bcast_S256_S1x256_1 (shapeCast S256 (extractStridedSlice S1x256 ![0, 0] bs slices_S4x256_S1x256_0_0) shapeCasts_S1x256_S256))))
/-- Layer 1's pre-activation [X | C] · W + b as the reference spells it. -/
def pre1 (X C : FVec Ideal S50000x256 .f32) (Ws : FVec Ideal S4x512x256 .f32) (bs : FVec Ideal S4x256 .f32) : FVec Ideal S50000x256 .f32 :=
  (addf (Host.dotGeneral dot_S50000x512_S512x256_S50000x256_1_0_0_1_n_n none (concatenate S50000x512 1 [⟨S50000x256, X⟩, ⟨S50000x256, C⟩] concatenates_S50000x256_S50000x256_S50000x512_d1) (shapeCast S512x256 (extractStridedSlice S1x512x256 ![1, 0, 0] Ws slices_S4x512x256_S1x512x256_1_0_0) shapeCasts_S1x512x256_S512x256)) (broadcastInDim S50000x256 ![0, 1] bcast_S1x256_S50000x256_0_1 (broadcastInDim S1x256 ![1] bcast_S256_S1x256_1 (shapeCast S256 (extractStridedSlice S1x256 ![1, 0] bs slices_S4x256_S1x256_1_0) shapeCasts_S1x256_S256))))
/-- Layer 2's pre-activation [X | C] · W + b as the reference spells it. -/
def pre2 (X C : FVec Ideal S50000x256 .f32) (Ws : FVec Ideal S4x512x256 .f32) (bs : FVec Ideal S4x256 .f32) : FVec Ideal S50000x256 .f32 :=
  (addf (Host.dotGeneral dot_S50000x512_S512x256_S50000x256_1_0_0_1_n_n none (concatenate S50000x512 1 [⟨S50000x256, X⟩, ⟨S50000x256, C⟩] concatenates_S50000x256_S50000x256_S50000x512_d1) (shapeCast S512x256 (extractStridedSlice S1x512x256 ![2, 0, 0] Ws slices_S4x512x256_S1x512x256_2_0_0) shapeCasts_S1x512x256_S512x256)) (broadcastInDim S50000x256 ![0, 1] bcast_S1x256_S50000x256_0_1 (broadcastInDim S1x256 ![1] bcast_S256_S1x256_1 (shapeCast S256 (extractStridedSlice S1x256 ![2, 0] bs slices_S4x256_S1x256_2_0) shapeCasts_S1x256_S256))))
/-- Layer 3's pre-activation [X | C] · W + b as the reference spells it. -/
def pre3 (X C : FVec Ideal S50000x256 .f32) (Ws : FVec Ideal S4x512x256 .f32) (bs : FVec Ideal S4x256 .f32) : FVec Ideal S50000x256 .f32 :=
  (addf (Host.dotGeneral dot_S50000x512_S512x256_S50000x256_1_0_0_1_n_n none (concatenate S50000x512 1 [⟨S50000x256, X⟩, ⟨S50000x256, C⟩] concatenates_S50000x256_S50000x256_S50000x512_d1) (shapeCast S512x256 (extractStridedSlice S1x512x256 ![3, 0, 0] Ws slices_S4x512x256_S1x512x256_3_0_0) shapeCasts_S1x512x256_S512x256)) (broadcastInDim S50000x256 ![0, 1] bcast_S1x256_S50000x256_0_1 (broadcastInDim S1x256 ![1] bcast_S256_S1x256_1 (shapeCast S256 (extractStridedSlice S1x256 ![3, 0] bs slices_S4x256_S1x256_3_0) shapeCasts_S1x256_S256))))

end Ref
end Layers

/-! ## The two networks -/

/-- Layer 0 as the kernel program computes it. -/
def kstep0 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  layer X (agg X src dst) (wx0 Ws) (wc0 Ws) (b20 bs)
/-- Layer 0 as the reference computes it. -/
def rstep0 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  finish X (Ref.pre0 X (agg X src dst) Ws bs)
/-- Layer 1 as the kernel program computes it. -/
def kstep1 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  layer X (agg X src dst) (wx1 Ws) (wc1 Ws) (b21 bs)
/-- Layer 1 as the reference computes it. -/
def rstep1 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  finish X (Ref.pre1 X (agg X src dst) Ws bs)
/-- Layer 2 as the kernel program computes it. -/
def kstep2 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  layer X (agg X src dst) (wx2 Ws) (wc2 Ws) (b22 bs)
/-- Layer 2 as the reference computes it. -/
def rstep2 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  finish X (Ref.pre2 X (agg X src dst) Ws bs)
/-- Layer 3 as the kernel program computes it. -/
def kstep3 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  layer X (agg X src dst) (wx3 Ws) (wc3 Ws) (b23 bs)
/-- Layer 3 as the reference computes it. -/
def rstep3 (X : FVec Ideal Cert.KernelIdeal.S50000x256 .f32) (src dst : IVec Cert.KernelIdeal.S800000 32) (Ws : FVec Ideal Cert.KernelIdeal.S4x512x256 .f32) (bs : FVec Ideal Cert.KernelIdeal.S4x256 .f32) : FVec Ideal Cert.KernelIdeal.S50000x256 .f32 :=
  finish X (Ref.pre3 X (agg X src dst) Ws bs)

end Cert.Sage

end
-- ==== Proof.LibSplitDense.lean ====
/-
  A matrix product whose inner axis is a concatenation.

  Let A have M rows and K₁ columns, B have M rows and K₂ columns, and W have K₁ + K₂ rows and N columns. Laying A and B
  side by side gives a matrix [A | B] of M rows and K₁ + K₂ columns, and

      [A | B] · W  =  A · W_top + B · W_bottom ,

  where W_top is the first K₁ rows of W and W_bottom the remaining K₂: entry (i, n) of the left side is a sum over
  K₁ + K₂ terms, the first K₁ of which read A and the top of W and the last K₂ of which read B and the bottom of W.
  Splitting a finite sum at a position uses only that addition is associative and commutative, so the law holds on
  the extended reals with no finiteness assumption.
-/
import Idealize.ShloMosaic.PureOps.Ideal.Laws
import Idealize.ShloMosaic.Lib.Pipeline.Value
import Idealize.ShloMosaic.Lib.ValueIdx
import Mathlib.Algebra.BigOperators.Fin
import proofs.«168573_j3556232921300_1_alg».proof.Proof.LibHostReads

noncomputable section

open scoped BigOperators

namespace Cert.SplitDense

open Idealize.ShloMosaic Idealize.ShloMosaic.ValueIdx

/-- Entry (i, k) of [A | B] for a column k among the first K₁ is entry (i, k) of A. -/
theorem concat_left {α : Type} {M K₁ K₂ : Nat} (A : (⟨2, ![M, K₁]⟩ : Shape).Idx → α) (B : (⟨2, ![M, K₂]⟩ : Shape).Idx → α)
    (hc : Shape.Concatenates [(⟨2, ![M, K₁]⟩ : Shape), ⟨2, ![M, K₂]⟩] ⟨2, ![M, K₁ + K₂]⟩ 1) (i : Fin M) (k : Fin K₁) :
    concatenate ⟨2, ![M, K₁ + K₂]⟩ 1 [⟨⟨2, ![M, K₁]⟩, A⟩, ⟨⟨2, ![M, K₂]⟩, B⟩] hc (ix2 i (Fin.castAdd K₂ k)) = A (ix2 i k) := by
  refine concatenate_pair_apply_left (1 : Fin 2) A B hc (ix2 i (Fin.castAdd K₂ k)) rfl (ix2 i k) fun b => ?_
  match b with
  | ⟨0, _⟩ => rfl
  | ⟨1, _⟩ => rfl

/-- Entry (i, K₁ + k) of [A | B] is entry (i, k) of B. -/
theorem concat_right {α : Type} {M K₁ K₂ : Nat} (A : (⟨2, ![M, K₁]⟩ : Shape).Idx → α) (B : (⟨2, ![M, K₂]⟩ : Shape).Idx → α)
    (hc : Shape.Concatenates [(⟨2, ![M, K₁]⟩ : Shape), ⟨2, ![M, K₂]⟩] ⟨2, ![M, K₁ + K₂]⟩ 1) (i : Fin M) (k : Fin K₂) :
    concatenate ⟨2, ![M, K₁ + K₂]⟩ 1 [⟨⟨2, ![M, K₁]⟩, A⟩, ⟨⟨2, ![M, K₂]⟩, B⟩] hc (ix2 i (Fin.natAdd K₁ k)) = B (ix2 i k) := by
  refine concatenate_pair_apply_right (1 : Fin 2) A B hc (ix2 i (Fin.natAdd K₁ k)) rfl rfl (ix2 i k) (fun b hb => ?_) ?_
  · match b with
    | ⟨0, _⟩ => rfl
    | ⟨1, _⟩ => exact absurd rfl hb
  · show k.val + K₁ = K₁ + k.val
    omega

/-- Row k of the first K₁ rows of W is row k of W. -/
theorem top_apply {α : Type} {K₁ K₂ N : Nat} (W : (⟨2, ![K₁ + K₂, N]⟩ : Shape).Idx → α)
    (hs : (⟨2, ![K₁ + K₂, N]⟩ : Shape).Slices ![0, 0] ⟨2, ![K₁, N]⟩) (k : Fin K₁) (n : Fin N) :
    extractStridedSlice ⟨2, ![K₁, N]⟩ ![0, 0] W hs (ix2 k n) = W (ix2 (Fin.castAdd K₂ k) n) := by
  refine extractStridedSlice_apply ![0, 0] W hs (ix2 k n) (ix2 (Fin.castAdd K₂ k) n) fun a => ?_
  match a with
  | ⟨0, _⟩ => show k.val = 0 + k.val; omega
  | ⟨1, _⟩ => show n.val = 0 + n.val; omega

/-- Row k of the last K₂ rows of W is row K₁ + k of W. -/
theorem bottom_apply {α : Type} {K₁ K₂ N : Nat} (W : (⟨2, ![K₁ + K₂, N]⟩ : Shape).Idx → α)
    (hs : (⟨2, ![K₁ + K₂, N]⟩ : Shape).Slices ![K₁, 0] ⟨2, ![K₂, N]⟩) (k : Fin K₂) (n : Fin N) :
    extractStridedSlice ⟨2, ![K₂, N]⟩ ![K₁, 0] W hs (ix2 k n) = W (ix2 (Fin.natAdd K₁ k) n) := by
  refine extractStridedSlice_apply ![K₁, 0] W hs (ix2 k n) (ix2 (Fin.natAdd K₁ k) n) fun a => ?_
  match a with
  | ⟨0, _⟩ => rfl
  | ⟨1, _⟩ => show n.val = 0 + n.val; omega

/-- [A | B] · W = A · W_top + B · W_bottom, entry by entry on the extended reals. -/
theorem dot_concat (M K₁ K₂ N : Nat) (A : FVec Ideal ⟨2, ![M, K₁]⟩ .f32) (B : FVec Ideal ⟨2, ![M, K₂]⟩ .f32)
    (W : FVec Ideal ⟨2, ![K₁ + K₂, N]⟩ .f32)
    (hc : Shape.Concatenates [(⟨2, ![M, K₁]⟩ : Shape), ⟨2, ![M, K₂]⟩] ⟨2, ![M, K₁ + K₂]⟩ 1)
    (hs₁ : (⟨2, ![K₁ + K₂, N]⟩ : Shape).Slices ![0, 0] ⟨2, ![K₁, N]⟩)
    (hs₂ : (⟨2, ![K₁ + K₂, N]⟩ : Shape).Slices ![K₁, 0] ⟨2, ![K₂, N]⟩) :
    Host.dotGeneral (F := Ideal) (DotDims.plain M (K₁ + K₂) N) none
        (concatenate ⟨2, ![M, K₁ + K₂]⟩ 1 [⟨⟨2, ![M, K₁]⟩, A⟩, ⟨⟨2, ![M, K₂]⟩, B⟩] hc) W
      = addf (Host.dotGeneral (F := Ideal) (DotDims.plain M K₁ N) none A (extractStridedSlice ⟨2, ![K₁, N]⟩ ![0, 0] W hs₁))
          (Host.dotGeneral (F := Ideal) (DotDims.plain M K₂ N) none B (extractStridedSlice ⟨2, ![K₂, N]⟩ ![K₁, 0] W hs₂)) := by
  funext j
  obtain ⟨i, n, rfl⟩ : ∃ (i : Fin M) (n : Fin N), j = ix2 i n := ⟨j 0, j 1, eq_ix2 j⟩
  show _ = Host.dotGeneral (F := Ideal) (DotDims.plain M K₁ N) none A _ (ix2 i n)
      + Host.dotGeneral (F := Ideal) (DotDims.plain M K₂ N) none B _ (ix2 i n)
  rw [Cert.LibHostReads.dotGeneral_plain_apply, Cert.LibHostReads.dotGeneral_plain_apply,
    Cert.LibHostReads.dotGeneral_plain_apply, Fin.sum_univ_add]
  refine congrArg₂ (· + ·) (Finset.sum_congr rfl fun k _ => ?_) (Finset.sum_congr rfl fun k _ => ?_)
  · rw [concat_left A B hc i k, top_apply W hs₁ k n]
  · rw [concat_right A B hc i k, bottom_apply W hs₂ k n]

end Cert.SplitDense

end
-- ==== Proof.LibLeadUnit.lean ====
/-
  A matrix carried with a leading axis of extent one, read at one entry, over any sizes and any element type.

  * [1, a, b] re-laid as [a, b]: the matrix at (i, j) is the array at (0, i, j).
  * [a, b] re-laid as [1, a, b]: the array at (0, i, j) is the matrix at (i, j).
  * The slab [q : q+1, 0 : a, 0 : b] sliced out of an [n, a, b] array: the slab at (0, i, j) is the array at (q, i, j).
-/
import Idealize.ShloMosaic.Lib.Pipeline.Value
import Idealize.ShloMosaic.Lib.ValueIdx

noncomputable section

namespace Cert.LeadUnit

open Idealize.ShloMosaic Idealize.ShloMosaic.ValueIdx

/-- [1, a, b] re-laid as [a, b] reads, at (i, j), the array at (0, i, j). -/
theorem dropLead_apply {α : Type} {a b : ℕ} (v : (⟨3, ![1, a, b]⟩ : Shape).Idx → α)
    (h : (⟨3, ![1, a, b]⟩ : Shape).ShapeCasts ⟨2, ![a, b]⟩) (i : Fin a) (j : Fin b) :
    shapeCast ⟨2, ![a, b]⟩ v h (ix2 i j) = v (ix3 (0 : Fin 1) i j) := by
  refine shapeCast_apply v h (ix2 i j) (ix3 (0 : Fin 1) i j) ?_
  rw [Shape.rowMajor_val_three, Shape.rowMajor_val_two]
  show ((0 : ℕ) * a + i.val) * b + j.val = i.val * b + j.val
  rw [Nat.zero_mul, Nat.zero_add]

/-- [a, b] re-laid as [1, a, b] reads, at (0, i, j), the matrix at (i, j). -/
theorem addLead_apply {α : Type} {a b : ℕ} (v : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ v h (ix3 z i j) = v (ix2 i j) := by
  refine shapeCast_apply v h (ix3 z i j) (ix2 i j) ?_
  rw [Shape.rowMajor_val_three, Shape.rowMajor_val_two]
  show i.val * b + j.val = (z.val * a + i.val) * b + j.val
  have hz : z.val = 0 := by have := z.isLt; omega
  rw [hz, Nat.zero_mul, Nat.zero_add]

/-- The slab q of an [n, a, b] array, sliced out as [1, a, b], reads at (0, i, j) the array at (q, i, j). -/
theorem sliceLead_apply {α : Type} {n a b : ℕ} (x : (⟨3, ![n, a, b]⟩ : Shape).Idx → α) (q : Fin n)
    (h : (⟨3, ![n, a, b]⟩ : Shape).Slices ![q.val, 0, 0] ⟨3, ![1, a, b]⟩) (z : Fin 1) (i : Fin a) (j : Fin b) :
    extractStridedSlice ⟨3, ![1, a, b]⟩ ![q.val, 0, 0] x h (ix3 z i j) = x (ix3 q i j) := by
  refine extractStridedSlice_apply _ x h (ix3 z i j) (ix3 q i j) fun c => ?_
  match c with
  | ⟨0, _⟩ =>
    show q.val = q.val + z.val
    have hz : z.val = 0 := by have := z.isLt; omega
    omega
  | ⟨1, _⟩ => show i.val = 0 + i.val; omega
  | ⟨2, _⟩ => show j.val = 0 + j.val; omega

end Cert.LeadUnit

end
-- ==== Proof.LibSlab.lean ====
/-
  A stacked table [G, A, B] read through a slice of one slab.  Cutting rows o … o + a − 1 out of slab g (a slice of
  extents [1, a, B] at offsets [g, o, 0]) and re-laying the piece as an a × B matrix gives, at (k, n), the table's entry
  (g, o + k, n) — for any sizes and element type.  With o = 0 and a = A this is the whole slab; with two pieces it reads
  the halves of a slab against the slab.
-/
import proofs.«168573_j3556232921300_1_alg».proof.Proof.LibLeadUnit
import Idealize.ShloMosaic.Lib.Pipeline.Value
import Idealize.ShloMosaic.Lib.ValueIdx

noncomputable section

namespace Cert.Slab

open Idealize.ShloMosaic Idealize.ShloMosaic.ValueIdx

/-- Rows o … o + a − 1 of slab g of a stacked table [G, A, B], re-laid as a matrix, read at (k, n): the table at
    (g, o + k, n). -/
theorem slab_apply {α : Type} {G A B a : Nat} (T : (⟨3, ![G, A, B]⟩ : Shape).Idx → α) (g o : Nat)
    (hs : (⟨3, ![G, A, B]⟩ : Shape).Slices ![g, o, 0] ⟨3, ![1, a, B]⟩)
    (hc : (⟨3, ![1, a, B]⟩ : Shape).ShapeCasts ⟨2, ![a, B]⟩) (k : Fin a) (n : Fin B) (hg : g < G) (hk : o + k.val < A) :
    shapeCast ⟨2, ![a, B]⟩ (extractStridedSlice ⟨3, ![1, a, B]⟩ ![g, o, 0] T hs) hc (ix2 k n)
      = T (ix3 (⟨g, hg⟩ : Fin G) (⟨o + k.val, hk⟩ : Fin A) n) := by
  rw [Cert.LeadUnit.dropLead_apply]
  refine extractStridedSlice_apply ![g, o, 0] T hs (ix3 (0 : Fin 1) k n) (ix3 (⟨g, hg⟩ : Fin G) (⟨o + k.val, hk⟩ : Fin A) n) fun x => ?_
  match x with
  | ⟨0, _⟩ => show g = g + 0; omega
  | ⟨1, _⟩ => rfl
  | ⟨2, _⟩ => show n.val = 0 + n.val; omega

end Cert.Slab

end
-- ==== Proof.Bridge.lean ====
/-
  The reference's layer is the kernel's layer.

  The reference multiplies the joined table [X | C] by the whole 512 × 256 weight table of a layer; the kernel multiplies
  X by its upper 256 rows and C by its lower 256 rows and adds.  A sum over 512 terms is the sum of its first 256 and its
  last 256 terms on the extended reals, whatever the terms (no finiteness is used).  What is left is to read both
  programs' slices of the stacked tables at an entry: row k of the upper (lower) half of layer l's table is row k
  (256 + k) of slab l, and the bias row of layer l is row l of the bias table, laid out as a one-row matrix either by a
  reshape or by a broadcast along a new leading axis.
-/
import proofs.«168573_j3556232921300_1_alg».proof.Proof.Spec
import proofs.«168573_j3556232921300_1_alg».proof.Proof.LibSplitDense
import proofs.«168573_j3556232921300_1_alg».proof.Proof.LibSlab
import Idealize.ShloMosaic.Lib.Pipeline.Value
import Idealize.ShloMosaic.Lib.ValueIdx

noncomputable section

namespace Cert.Sage.Bridge

open Idealize.ShloMosaic Idealize.ShloMosaic.ValueIdx Cert.BlockRows Cert.Slab

/-- The reference's 512-term product is the plain M × K by K × N product. -/
theorem dot512 : Cert.ReferenceIdeal.dot_S50000x512_S512x256_S50000x256_1_0_0_1_n_n = DotDims.plain 50000 512 256 := rfl
/-- The reference's embedding product is the plain product. -/
theorem dot128 : Cert.ReferenceIdeal.dot_S50000x128_S128x256_S50000x256_1_0_0_1_n_n = DotDims.plain 50000 128 256 := rfl

/-- The upper 256 rows of slab l of the stacked weight table, cut out of the slab's whole 512 × 256 table or out of
    the stacked table directly: the same matrix. -/
theorem upper_half (Ws : FVec Ideal ⟨3, ![4, 512, 256]⟩ .f32) (l : Nat) (hl : l < 4)
    (hsW : (⟨3, ![4, 512, 256]⟩ : Shape).Slices ![l, 0, 0] ⟨3, ![1, 512, 256]⟩)
    (hcW : (⟨3, ![1, 512, 256]⟩ : Shape).ShapeCasts ⟨2, ![512, 256]⟩)
    (hsx : (⟨3, ![4, 512, 256]⟩ : Shape).Slices ![l, 0, 0] ⟨3, ![1, 256, 256]⟩)
    (hcx : (⟨3, ![1, 256, 256]⟩ : Shape).ShapeCasts ⟨2, ![256, 256]⟩)
    (hs1 : (⟨2, ![256 + 256, 256]⟩ : Shape).Slices ![0, 0] ⟨2, ![256, 256]⟩) :
    extractStridedSlice ⟨2, ![256, 256]⟩ ![0, 0]
        (shapeCast ⟨2, ![512, 256]⟩ (extractStridedSlice ⟨3, ![1, 512, 256]⟩ ![l, 0, 0] Ws hsW) hcW : FVec Ideal ⟨2, ![256 + 256, 256]⟩ .f32) hs1
      = shapeCast ⟨2, ![256, 256]⟩ (extractStridedSlice ⟨3, ![1, 256, 256]⟩ ![l, 0, 0] Ws hsx) hcx := by
  funext j
  obtain ⟨k, n, rfl⟩ : ∃ (k : Fin 256) (n : Fin 256), j = ix2 k n := ⟨j 0, j 1, eq_ix2 j⟩
  rw [Cert.SplitDense.top_apply (K₁ := 256) (K₂ := 256) (N := 256) _ hs1 k n]
  refine (slab_apply (G := 4) (A := 512) (B := 256) (a := 512) Ws l 0 hsW hcW (Fin.castAdd 256 k) n hl (by have := k.isLt; simp only [Fin.coe_castAdd]; omega)).trans ?_
  exact (slab_apply (G := 4) (A := 512) (B := 256) (a := 256) Ws l 0 hsx hcx k n hl (by have := k.isLt; omega)).symm

/-- The lower 256 rows of slab l, likewise. -/
theorem lower_half (Ws : FVec Ideal ⟨3, ![4, 512, 256]⟩ .f32) (l : Nat) (hl : l < 4)
    (hsW : (⟨3, ![4, 512, 256]⟩ : Shape).Slices ![l, 0, 0] ⟨3, ![1, 512, 256]⟩)
    (hcW : (⟨3, ![1, 512, 256]⟩ : Shape).ShapeCasts ⟨2, ![512, 256]⟩)
    (hsc : (⟨3, ![4, 512, 256]⟩ : Shape).Slices ![l, 256, 0] ⟨3, ![1, 256, 256]⟩)
    (hcx : (⟨3, ![1, 256, 256]⟩ : Shape).ShapeCasts ⟨2, ![256, 256]⟩)
    (hs2 : (⟨2, ![256 + 256, 256]⟩ : Shape).Slices ![256, 0] ⟨2, ![256, 256]⟩) :
    extractStridedSlice ⟨2, ![256, 256]⟩ ![256, 0]
        (shapeCast ⟨2, ![512, 256]⟩ (extractStridedSlice ⟨3, ![1, 512, 256]⟩ ![l, 0, 0] Ws hsW) hcW : FVec Ideal ⟨2, ![256 + 256, 256]⟩ .f32) hs2
      = shapeCast ⟨2, ![256, 256]⟩ (extractStridedSlice ⟨3, ![1, 256, 256]⟩ ![l, 256, 0] Ws hsc) hcx := by
  funext j
  obtain ⟨k, n, rfl⟩ : ∃ (k : Fin 256) (n : Fin 256), j = ix2 k n := ⟨j 0, j 1, eq_ix2 j⟩
  rw [Cert.SplitDense.bottom_apply (K₁ := 256) (K₂ := 256) (N := 256) _ hs2 k n]
  refine (slab_apply (G := 4) (A := 512) (B := 256) (a := 512) Ws l 0 hsW hcW (Fin.natAdd 256 k) n hl (by have := k.isLt; simp only [Fin.coe_natAdd]; omega)).trans ?_
  refine Eq.trans ?_ (slab_apply (G := 4) (A := 512) (B := 256) (a := 256) Ws l 256 hsc hcx k n hl (by have := k.isLt; omega)).symm
  refine congrArg Ws (congrArg (fun r => ix3 (⟨l, hl⟩ : Fin 4) r n) (Fin.ext ?_))
  show 0 + (256 + k.val) = 256 + k.val
  omega

/-- [X | C] · W + b with W the whole table of slab l is X · (upper half) + C · (lower half) + b, the bias row laid out
    by a reshape or by a broadcast alike. -/
theorem pre_eq (X C : FVec Ideal ⟨2, ![50000, 256]⟩ .f32) (Ws : FVec Ideal ⟨3, ![4, 512, 256]⟩ .f32) (v : FVec Ideal ⟨1, ![256]⟩ .f32)
    (l : Nat) (hl : l < 4)
    (hc : Shape.Concatenates [(⟨2, ![50000, 256]⟩ : Shape), ⟨2, ![50000, 256]⟩] ⟨2, ![50000, 256 + 256]⟩ 1)
    (hsW : (⟨3, ![4, 512, 256]⟩ : Shape).Slices ![l, 0, 0] ⟨3, ![1, 512, 256]⟩)
    (hcW : (⟨3, ![1, 512, 256]⟩ : Shape).ShapeCasts ⟨2, ![512, 256]⟩)
    (hsx : (⟨3, ![4, 512, 256]⟩ : Shape).Slices ![l, 0, 0] ⟨3, ![1, 256, 256]⟩)
    (hsc : (⟨3, ![4, 512, 256]⟩ : Shape).Slices ![l, 256, 0] ⟨3, ![1, 256, 256]⟩)
    (hcx : (⟨3, ![1, 256, 256]⟩ : Shape).ShapeCasts ⟨2, ![256, 256]⟩)
    (hA : (⟨2, ![1, 256]⟩ : Shape).BroadcastsInDim ⟨2, ![50000, 256]⟩ ![0, 1])
    (hB : (⟨1, ![256]⟩ : Shape).BroadcastsInDim ⟨2, ![1, 256]⟩ ![1])
    (hr : (⟨1, ![256]⟩ : Shape).ShapeCasts ⟨2, ![1, 256]⟩) :
    addf (Host.dotGeneral (F := Ideal) (DotDims.plain 50000 (256 + 256) 256) none
          (concatenate ⟨2, ![50000, 256 + 256]⟩ 1 [⟨⟨2, ![50000, 256]⟩, X⟩, ⟨⟨2, ![50000, 256]⟩, C⟩] hc)
          (shapeCast ⟨2, ![512, 256]⟩ (extractStridedSlice ⟨3, ![1, 512, 256]⟩ ![l, 0, 0] Ws hsW) hcW : FVec Ideal ⟨2, ![256 + 256, 256]⟩ .f32))
        (broadcastInDim ⟨2, ![50000, 256]⟩ ![0, 1] hA (broadcastInDim ⟨2, ![1, 256]⟩ ![1] hB v))
      = addf (addf (propagate (M := 50000) (K := 256) (N := 256) X
                (shapeCast ⟨2, ![256, 256]⟩ (extractStridedSlice ⟨3, ![1, 256, 256]⟩ ![l, 0, 0] Ws hsx) hcx))
              (propagate (M := 50000) (K := 256) (N := 256) C
                (shapeCast ⟨2, ![256, 256]⟩ (extractStridedSlice ⟨3, ![1, 256, 256]⟩ ![l, 256, 0] Ws hsc) hcx)))
          (Cert.RowLayers.rowBias (M := 50000) (N := 256) hA (shapeCast ⟨2, ![1, 256]⟩ v hr)) := by
  rw [Cert.SplitDense.dot_concat 50000 256 256 256 X C _ hc (by decide) (by decide),
    upper_half Ws l hl hsW hcW hsx hcx, lower_half Ws l hl hsW hcW hsc hcx, reshape_row v hr hB]
  rfl

/-- Layer 0: the reference's step is the kernel's. -/
theorem rstep0_eq (X : FVec Ideal Cert.KernelIdeal.S50000x256 .f32) (src dst : IVec Cert.KernelIdeal.S800000 32)
    (Ws : FVec Ideal Cert.KernelIdeal.S4x512x256 .f32) (bs : FVec Ideal Cert.KernelIdeal.S4x256 .f32) :
    rstep0 X src dst Ws bs = kstep0 X src dst Ws bs := by
  unfold rstep0 kstep0 layer
  refine congrArg (finish X) ?_
  unfold Ref.pre0 wx0 wc0 b20
  rw [dot512]
  exact pre_eq X _ Ws _ 0 (by decide) _ _ _ _ _ _ _ _ _

/-- Layer 1: the reference's step is the kernel's. -/
theorem rstep1_eq (X : FVec Ideal Cert.KernelIdeal.S50000x256 .f32) (src dst : IVec Cert.KernelIdeal.S800000 32)
    (Ws : FVec Ideal Cert.KernelIdeal.S4x512x256 .f32) (bs : FVec Ideal Cert.KernelIdeal.S4x256 .f32) :
    rstep1 X src dst Ws bs = kstep1 X src dst Ws bs := by
  unfold rstep1 kstep1 layer
  refine congrArg (finish X) ?_
  unfold Ref.pre1 wx1 wc1 b21
  rw [dot512]
  exact pre_eq X _ Ws _ 1 (by decide) _ _ _ _ _ _ _ _ _

/-- Layer 2: the reference's step is the kernel's. -/
theorem rstep2_eq (X : FVec Ideal Cert.KernelIdeal.S50000x256 .f32) (src dst : IVec Cert.KernelIdeal.S800000 32)
    (Ws : FVec Ideal Cert.KernelIdeal.S4x512x256 .f32) (bs : FVec Ideal Cert.KernelIdeal.S4x256 .f32) :
    rstep2 X src dst Ws bs = kstep2 X src dst Ws bs := by
  unfold rstep2 kstep2 layer
  refine congrArg (finish X) ?_
  unfold Ref.pre2 wx2 wc2 b22
  rw [dot512]
  exact pre_eq X _ Ws _ 2 (by decide) _ _ _ _ _ _ _ _ _

/-- Layer 3: the reference's step is the kernel's. -/
theorem rstep3_eq (X : FVec Ideal Cert.KernelIdeal.S50000x256 .f32) (src dst : IVec Cert.KernelIdeal.S800000 32)
    (Ws : FVec Ideal Cert.KernelIdeal.S4x512x256 .f32) (bs : FVec Ideal Cert.KernelIdeal.S4x256 .f32) :
    rstep3 X src dst Ws bs = kstep3 X src dst Ws bs := by
  unfold rstep3 kstep3 layer
  refine congrArg (finish X) ?_
  unfold Ref.pre3 wx3 wc3 b23
  rw [dot512]
  exact pre_eq X _ Ws _ 3 (by decide) _ _ _ _ _ _ _ _ _

/-- The embedding: the bias row laid out by a broadcast along a new leading axis is the reshaped row. -/
theorem embed_eq (h : FVec Ideal Cert.KernelIdeal.S50000x128 .f32) (W : FVec Ideal Cert.KernelIdeal.S128x256 .f32)
    (b : FVec Ideal Cert.KernelIdeal.S256 .f32) : Ref.embed h W b = embed h W (bemb2 b) := by
  unfold Ref.embed embed bemb2 dense
  rw [dot128]
  exact congrArg (fun z => addf _ (broadcastInDim _ _ _ z)) (reshape_row b _ _).symm

end Cert.Sage.Bridge

end
-- ==== Proof.KernelRun.lean ====
import proofs.«168573_j3556232921300_1_alg».proof.Proof.Gen.KernelIdeal.Frame

/-! # The kernel program's run, with the result buffer named

Every weakly fair execution of @main on the TensorCores from a memory with zero counters terminates without a
fault, and in every final state the result buffer holds the last boundary's contents `W11` read at it, while each
argument array is as launched. The contents `W11` are the fold of the launch memory through @main's eleven
segments; reading that fold at the result is the subject of the next module. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of @main: it terminates, nothing faulting, and every final state has the result buffer at the last
    boundary's contents and the argument arrays as launched. The last thread state holds every unscoped buffer at
    `W11`; the result buffer is one of them, so its final contents are `W11` read at it. -/
theorem run : θ_run defs (onTc (τ := τ) (main (F := F))) ⟨m, fun _ => 0, ρ⟩ (fun r => ∀ c : Dev nD,
      r.2.mem ((c.tc : Thread nD τ).loc main_v157) = W11 m ρ c (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v157 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.KRun

end
-- ==== Proof.KernelFold.lean ====
import proofs.«168573_j3556232921300_1_alg».proof.Proof.Gen.KernelIdeal.Frame
import proofs.«168573_j3556232921300_1_alg».proof.Proof.Spec

set_option maxRecDepth 16384

/-! # The last boundary's contents at the result buffer

The buffer contents at @main's segment boundaries are a fold of the launch memory: a host stretch rewrites the
buffers its operations write, a region replaces its output array by what its write-backs leave. Read at the result
buffer, the fold is the network of `Cert.Sage` applied to the launch contents of the argument arrays:

* after a host stretch, each buffer the next region reads is one of the named chains of the specification applied
  to buffers the stretch found (the neighbour mean, the two halves of a layer's weights, its bias), for ANY contents
  the stretch starts from;
* a buffer that no operation of a stretch writes, and that is no array of a region, keeps its contents, so the
  argument arrays the later stretches read are as launched at every boundary;
* each region's output array is, by hypothesis, the embedding or one layer applied to what the region found. -/

noncomputable section

namespace Cert.KernelIdeal.KFold

open Idealize.ShloMosaic Idealize.ShloMosaic.TcCoe
open Cert.KernelIdeal Cert.KernelIdeal.Gen

/-- A buffer that no operation of a host stretch writes: every operation's written reference differs from it. -/
macro "keep_host" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the host stretches leave, from any contents `W` -/
section Host
variable (W : Valuation τ sig (Elt Ideal))

/-- The first stretch reshapes the embedding's bias into a one-row matrix. -/
theorem host0_v0 : StableHlo.after (hostOps0 (F := Ideal)) W (Proc.devRef .tc main_v0)
    = Cert.Sage.bemb2 (W (Proc.devRef .tc main_arg5)) := by
  after_results; rfl

/-- Before layer 0's region: the neighbour mean of the node table, the two halves of the layer's weights, its bias. -/
theorem host1_agg : StableHlo.after (hostOps1 (F := Ideal)) W (Proc.devRef .tc main_v20)
    = Cert.Sage.agg (W (Proc.devRef .tc main_v1)) (W (Proc.devRef .tc main_arg1)) (W (Proc.devRef .tc main_arg2)) := by
  after_results_simp; rfl
theorem host1_wx : StableHlo.after (hostOps1 (F := Ideal)) W (Proc.devRef .tc main_v22) = Cert.Sage.wx0 (W (Proc.devRef .tc main_arg6)) := by
  after_results_simp; rfl
theorem host1_wc : StableHlo.after (hostOps1 (F := Ideal)) W (Proc.devRef .tc main_v24) = Cert.Sage.wc0 (W (Proc.devRef .tc main_arg6)) := by
  after_results_simp; rfl
theorem host1_b : StableHlo.after (hostOps1 (F := Ideal)) W (Proc.devRef .tc main_v27) = Cert.Sage.b20 (W (Proc.devRef .tc main_arg7)) := by
  after_results_simp; rfl

/-- Before layer 1's region: the neighbour mean of the node table, the two halves of the layer's weights, its bias. -/
theorem host2_agg : StableHlo.after (hostOps2 (F := Ideal)) W (Proc.devRef .tc main_v47)
    = Cert.Sage.agg (W (Proc.devRef .tc main_v28)) (W (Proc.devRef .tc main_arg1)) (W (Proc.devRef .tc main_arg2)) := by
  after_results_simp; rfl
theorem host2_wx : StableHlo.after (hostOps2 (F := Ideal)) W (Proc.devRef .tc main_v49) = Cert.Sage.wx1 (W (Proc.devRef .tc main_arg6)) := by
  after_results_simp; rfl
theorem host2_wc : StableHlo.after (hostOps2 (F := Ideal)) W (Proc.devRef .tc main_v51) = Cert.Sage.wc1 (W (Proc.devRef .tc main_arg6)) := by
  after_results_simp; rfl
theorem host2_b : StableHlo.after (hostOps2 (F := Ideal)) W (Proc.devRef .tc main_v54) = Cert.Sage.b21 (W (Proc.devRef .tc main_arg7)) := by
  after_results_simp; rfl

/-- Before layer 2's region: the neighbour mean of the node table, the two halves of the layer's weights, its bias. -/
theorem host3_agg : StableHlo.after (hostOps3 (F := Ideal)) W (Proc.devRef .tc main_v74)
    = Cert.Sage.agg (W (Proc.devRef .tc main_v55)) (W (Proc.devRef .tc main_arg1)) (W (Proc.devRef .tc main_arg2)) := by
  after_results_simp; rfl
theorem host3_wx : StableHlo.after (hostOps3 (F := Ideal)) W (Proc.devRef .tc main_v76) = Cert.Sage.wx2 (W (Proc.devRef .tc main_arg6)) := by
  after_results_simp; rfl
theorem host3_wc : StableHlo.after (hostOps3 (F := Ideal)) W (Proc.devRef .tc main_v78) = Cert.Sage.wc2 (W (Proc.devRef .tc main_arg6)) := by
  after_results_simp; rfl
theorem host3_b : StableHlo.after (hostOps3 (F := Ideal)) W (Proc.devRef .tc main_v81) = Cert.Sage.b22 (W (Proc.devRef .tc main_arg7)) := by
  after_results_simp; rfl

/-- Before layer 3's region: the neighbour mean of the node table, the two halves of the layer's weights, its bias. -/
theorem host4_agg : StableHlo.after (hostOps4 (F := Ideal)) W (Proc.devRef .tc main_v101)
    = Cert.Sage.agg (W (Proc.devRef .tc main_v82)) (W (Proc.devRef .tc main_arg1)) (W (Proc.devRef .tc main_arg2)) := by
  after_results_simp; rfl
theorem host4_wx : StableHlo.after (hostOps4 (F := Ideal)) W (Proc.devRef .tc main_v103) = Cert.Sage.wx3 (W (Proc.devRef .tc main_arg6)) := by
  after_results_simp; rfl
theorem host4_wc : StableHlo.after (hostOps4 (F := Ideal)) W (Proc.devRef .tc main_v105) = Cert.Sage.wc3 (W (Proc.devRef .tc main_arg6)) := by
  after_results_simp; rfl
theorem host4_b : StableHlo.after (hostOps4 (F := Ideal)) W (Proc.devRef .tc main_v108) = Cert.Sage.b23 (W (Proc.devRef .tc main_arg7)) := by
  after_results_simp; rfl

/-- The last stretch: pooling per graph, the two prototype similarities, the linear head and the logistic. -/
theorem host5_tail : StableHlo.after (hostOps5 (F := Ideal)) W (Proc.devRef .tc main_v157)
    = Cert.Sage.tail (W (Proc.devRef .tc main_v109)) (W (Proc.devRef .tc main_arg3)) (W (Proc.devRef .tc main_arg8)) (W (Proc.devRef .tc main_arg9)) (W (Proc.devRef .tc main_arg10)) := by
  after_results_simp; rfl

/-! ## Buffers a stretch leaves alone -/

/-- The argument arrays that the stretches after the embedding read. -/
abbrev lateArgs : List (Ref sig .tc) := [main_arg1, main_arg2, main_arg6, main_arg7, main_arg3, main_arg8, main_arg9, main_arg10]
/-- The argument arrays that the last stretch reads. -/
abbrev tailArgs : List (Ref sig .tc) := [main_arg3, main_arg8, main_arg9, main_arg10]

theorem keep0 {b : Ref sig .tc} (hb : b ∈ main_arg0 :: main_arg4 :: lateArgs) :
    StableHlo.after (hostOps0 (F := Ideal)) W (Proc.devRef .tc b) = W (Proc.devRef .tc b) := by
  simp only [List.mem_cons, List.not_mem_nil, or_false] at hb
  rcases hb with rfl | rfl | rfl | rfl | rfl | rfl | rfl | rfl | rfl | rfl <;> keep_host hostOps0
theorem keep1 {b : Ref sig .tc} (hb : b ∈ main_v1 :: lateArgs) :
    StableHlo.after (hostOps1 (F := Ideal)) W (Proc.devRef .tc b) = W (Proc.devRef .tc b) := by
  simp only [List.mem_cons, List.not_mem_nil, or_false] at hb
  rcases hb with rfl | rfl | rfl | rfl | rfl | rfl | rfl | rfl | rfl <;> keep_host hostOps1
theorem keep2 {b : Ref sig .tc} (hb : b ∈ main_v28 :: lateArgs) :
    StableHlo.after (hostOps2 (F := Ideal)) W (Proc.devRef .tc b) = W (Proc.devRef .tc b) := by
  simp only [List.mem_cons, List.not_mem_nil, or_false] at hb
  rcases hb with rfl | rfl | rfl | rfl | rfl | rfl | rfl | rfl | rfl <;> keep_host hostOps2
theorem keep3 {b : Ref sig .tc} (hb : b ∈ main_v55 :: lateArgs) :
    StableHlo.after (hostOps3 (F := Ideal)) W (Proc.devRef .tc b) = W (Proc.devRef .tc b) := by
  simp only [List.mem_cons, List.not_mem_nil, or_false] at hb
  rcases hb with rfl | rfl | rfl | rfl | rfl | rfl | rfl | rfl | rfl <;> keep_host hostOps3
theorem keep4 {b : Ref sig .tc} (hb : b ∈ main_v82 :: tailArgs) :
    StableHlo.after (hostOps4 (F := Ideal)) W (Proc.devRef .tc b) = W (Proc.devRef .tc b) := by
  simp only [List.mem_cons, List.not_mem_nil, or_false] at hb
  rcases hb with rfl | rfl | rfl | rfl | rfl <;> keep_host hostOps4

/-! ## What a region finds, in the specification's words -/

/-- The embedding's operands after the first stretch. -/
theorem entry0 :
    Cert.Sage.embed (StableHlo.after (hostOps0 (F := Ideal)) W (Proc.devRef .tc main_arg0)) (StableHlo.after (hostOps0 (F := Ideal)) W (Proc.devRef .tc main_arg4))
        (StableHlo.after (hostOps0 (F := Ideal)) W (Proc.devRef .tc main_v0))
      = Cert.Sage.embed (W (Proc.devRef .tc main_arg0)) (W (Proc.devRef .tc main_arg4)) (Cert.Sage.bemb2 (W (Proc.devRef .tc main_arg5))) := by
  rw [keep0 W (b := main_arg0) (by decide), keep0 W (b := main_arg4) (by decide), host0_v0 W]
/-- Layer 0's operands after its stretch: the layer as the kernel program computes it. -/
theorem entry1 :
    Cert.Sage.layer (StableHlo.after (hostOps1 (F := Ideal)) W (Proc.devRef .tc main_v1)) (StableHlo.after (hostOps1 (F := Ideal)) W (Proc.devRef .tc main_v20))
        (StableHlo.after (hostOps1 (F := Ideal)) W (Proc.devRef .tc main_v22)) (StableHlo.after (hostOps1 (F := Ideal)) W (Proc.devRef .tc main_v24)) (StableHlo.after (hostOps1 (F := Ideal)) W (Proc.devRef .tc main_v27))
      = Cert.Sage.kstep0 (W (Proc.devRef .tc main_v1)) (W (Proc.devRef .tc main_arg1)) (W (Proc.devRef .tc main_arg2)) (W (Proc.devRef .tc main_arg6)) (W (Proc.devRef .tc main_arg7)) := by
  rw [keep1 W (b := main_v1) (by decide), host1_agg W, host1_wx W, host1_wc W, host1_b W]; rfl
/-- Layer 1's operands after its stretch: the layer as the kernel program computes it. -/
theorem entry2 :
    Cert.Sage.layer (StableHlo.after (hostOps2 (F := Ideal)) W (Proc.devRef .tc main_v28)) (StableHlo.after (hostOps2 (F := Ideal)) W (Proc.devRef .tc main_v47))
        (StableHlo.after (hostOps2 (F := Ideal)) W (Proc.devRef .tc main_v49)) (StableHlo.after (hostOps2 (F := Ideal)) W (Proc.devRef .tc main_v51)) (StableHlo.after (hostOps2 (F := Ideal)) W (Proc.devRef .tc main_v54))
      = Cert.Sage.kstep1 (W (Proc.devRef .tc main_v28)) (W (Proc.devRef .tc main_arg1)) (W (Proc.devRef .tc main_arg2)) (W (Proc.devRef .tc main_arg6)) (W (Proc.devRef .tc main_arg7)) := by
  rw [keep2 W (b := main_v28) (by decide), host2_agg W, host2_wx W, host2_wc W, host2_b W]; rfl
/-- Layer 2's operands after its stretch: the layer as the kernel program computes it. -/
theorem entry3 :
    Cert.Sage.layer (StableHlo.after (hostOps3 (F := Ideal)) W (Proc.devRef .tc main_v55)) (StableHlo.after (hostOps3 (F := Ideal)) W (Proc.devRef .tc main_v74))
        (StableHlo.after (hostOps3 (F := Ideal)) W (Proc.devRef .tc main_v76)) (StableHlo.after (hostOps3 (F := Ideal)) W (Proc.devRef .tc main_v78)) (StableHlo.after (hostOps3 (F := Ideal)) W (Proc.devRef .tc main_v81))
      = Cert.Sage.kstep2 (W (Proc.devRef .tc main_v55)) (W (Proc.devRef .tc main_arg1)) (W (Proc.devRef .tc main_arg2)) (W (Proc.devRef .tc main_arg6)) (W (Proc.devRef .tc main_arg7)) := by
  rw [keep3 W (b := main_v55) (by decide), host3_agg W, host3_wx W, host3_wc W, host3_b W]; rfl
/-- Layer 3's operands after its stretch: the layer as the kernel program computes it. -/
theorem entry4 :
    Cert.Sage.layer (StableHlo.after (hostOps4 (F := Ideal)) W (Proc.devRef .tc main_v82)) (StableHlo.after (hostOps4 (F := Ideal)) W (Proc.devRef .tc main_v101))
        (StableHlo.after (hostOps4 (F := Ideal)) W (Proc.devRef .tc main_v103)) (StableHlo.after (hostOps4 (F := Ideal)) W (Proc.devRef .tc main_v105)) (StableHlo.after (hostOps4 (F := Ideal)) W (Proc.devRef .tc main_v108))
      = Cert.Sage.kstep3 (W (Proc.devRef .tc main_v82)) (W (Proc.devRef .tc main_arg1)) (W (Proc.devRef .tc main_arg2)) (W (Proc.devRef .tc main_arg6)) (W (Proc.devRef .tc main_arg7)) := by
  rw [keep4 W (b := main_v82) (by decide), host4_agg W, host4_wx W, host4_wc W, host4_b W]; rfl

end Host

/-! ## The argument arrays at the boundaries -/
section Fold
variable (m : (ℓ : Loc nD τ sig) → Buf (Elt Ideal) ℓ) (ρ : Dev nD → PrngReg) (c : Dev nD)

/-- At region 0's exit the later arguments are as launched: no array of the region, not written by the first stretch. -/
theorem W2_arg {b : Ref sig .tc} (hb : b ∈ lateArgs) : W2 m ρ c (Proc.devRef .tc b) = m ((c : Thread nD τ).loc b) := by
  simp only [List.mem_cons, List.not_mem_nil, or_false] at hb
  rcases hb with rfl | rfl | rfl | rfl | rfl | rfl | rfl | rfl <;>
    exact (W2_of_ne m ρ c _ (by decide)).trans (keep0 (W0 m ρ c) (by decide))
theorem W4_arg {b : Ref sig .tc} (hb : b ∈ lateArgs) : W4 m ρ c (Proc.devRef .tc b) = m ((c : Thread nD τ).loc b) := by
  simp only [List.mem_cons, List.not_mem_nil, or_false] at hb
  rcases hb with rfl | rfl | rfl | rfl | rfl | rfl | rfl | rfl <;>
    exact (W4_of_ne m ρ c _ (by decide)).trans ((keep1 (W2 m ρ c) (by decide)).trans (W2_arg m ρ c (by decide)))
theorem W6_arg {b : Ref sig .tc} (hb : b ∈ lateArgs) : W6 m ρ c (Proc.devRef .tc b) = m ((c : Thread nD τ).loc b) := by
  simp only [List.mem_cons, List.not_mem_nil, or_false] at hb
  rcases hb with rfl | rfl | rfl | rfl | rfl | rfl | rfl | rfl <;>
    exact (W6_of_ne m ρ c _ (by decide)).trans ((keep2 (W4 m ρ c) (by decide)).trans (W4_arg m ρ c (by decide)))
theorem W8_arg {b : Ref sig .tc} (hb : b ∈ lateArgs) : W8 m ρ c (Proc.devRef .tc b) = m ((c : Thread nD τ).loc b) := by
  simp only [List.mem_cons, List.not_mem_nil, or_false] at hb
  rcases hb with rfl | rfl | rfl | rfl | rfl | rfl | rfl | rfl <;>
    exact (W8_of_ne m ρ c _ (by decide)).trans ((keep3 (W6 m ρ c) (by decide)).trans (W6_arg m ρ c (by decide)))
theorem W10_arg {b : Ref sig .tc} (hb : b ∈ tailArgs) : W10 m ρ c (Proc.devRef .tc b) = m ((c : Thread nD τ).loc b) := by
  simp only [List.mem_cons, List.not_mem_nil, or_false] at hb
  rcases hb with rfl | rfl | rfl | rfl <;>
    exact (W10_of_ne m ρ c _ (by decide)).trans ((keep4 (W8 m ρ c) (by decide)).trans (W8_arg m ρ c (by decide)))

/-! ## The result -/

/-- The last boundary's contents at the result buffer: the tail of the network on the four layers on the embedding,
    every operand the launch contents of an argument array. The five hypotheses say what each region's output array
    holds at its exit, for any contents `V` the region is entered from. -/
theorem result
    (h0 : ∀ (V : (c : Dev nD) → (b : Ref sig .tc) → Buf (Elt Ideal) ((c : Thread nD τ).loc b)) (c : Dev nD),
      (dat0 (F := Ideal) V c).arrAt 3 cfg0.N = Cert.Sage.embed (V c main_arg0) (V c main_arg4) (V c main_v0))
    (h1 : ∀ (V : (c : Dev nD) → (b : Ref sig .tc) → Buf (Elt Ideal) ((c : Thread nD τ).loc b)) (c : Dev nD),
      (dat1 (F := Ideal) V c).arrAt 5 cfg1.N = Cert.Sage.layer (V c main_v1) (V c main_v20) (V c main_v22) (V c main_v24) (V c main_v27))
    (h2 : ∀ (V : (c : Dev nD) → (b : Ref sig .tc) → Buf (Elt Ideal) ((c : Thread nD τ).loc b)) (c : Dev nD),
      (dat2 (F := Ideal) V c).arrAt 5 cfg2.N = Cert.Sage.layer (V c main_v28) (V c main_v47) (V c main_v49) (V c main_v51) (V c main_v54))
    (h3 : ∀ (V : (c : Dev nD) → (b : Ref sig .tc) → Buf (Elt Ideal) ((c : Thread nD τ).loc b)) (c : Dev nD),
      (dat3 (F := Ideal) V c).arrAt 5 cfg3.N = Cert.Sage.layer (V c main_v55) (V c main_v74) (V c main_v76) (V c main_v78) (V c main_v81))
    (h4 : ∀ (V : (c : Dev nD) → (b : Ref sig .tc) → Buf (Elt Ideal) ((c : Thread nD τ).loc b)) (c : Dev nD),
      (dat4 (F := Ideal) V c).arrAt 5 cfg4.N = Cert.Sage.layer (V c main_v82) (V c main_v101) (V c main_v103) (V c main_v105) (V c main_v108))
    : W11 (F := Ideal) m ρ c (Proc.devRef .tc main_v157)
      = Cert.Sage.tail (Cert.Sage.kstep3 (Cert.Sage.kstep2 (Cert.Sage.kstep1 (Cert.Sage.kstep0 (Cert.Sage.embed (m ((c : Thread nD τ).loc main_arg0)) (m ((c : Thread nD τ).loc main_arg4)) (Cert.Sage.bemb2 (m ((c : Thread nD τ).loc main_arg5))))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg3)) (m ((c : Thread nD τ).loc main_arg8)) (m ((c : Thread nD τ).loc main_arg9)) (m ((c : Thread nD τ).loc main_arg10)) := by
  -- region 0's output array: the embedding of the launch contents
  have e1 : W2 m ρ c (Proc.devRef .tc main_v1) = (Cert.Sage.embed (m ((c : Thread nD τ).loc main_arg0)) (m ((c : Thread nD τ).loc main_arg4)) (Cert.Sage.bemb2 (m ((c : Thread nD τ).loc main_arg5)))) :=
    (W2_arr m ρ c 3).trans ((h0 (V1 m ρ) c).trans (entry0 (W0 m ρ c)))
  -- region 1's output array: layer 0 of what region 0 left
  have e2 : W4 m ρ c (Proc.devRef .tc main_v28) = (Cert.Sage.kstep0 (Cert.Sage.embed (m ((c : Thread nD τ).loc main_arg0)) (m ((c : Thread nD τ).loc main_arg4)) (Cert.Sage.bemb2 (m ((c : Thread nD τ).loc main_arg5))))
        (m ((c : Thread nD τ).loc main_arg1)) (m ((c : Thread nD τ).loc main_arg2)) (m ((c : Thread nD τ).loc main_arg6)) (m ((c : Thread nD τ).loc main_arg7))) := by
    refine (W4_arr m ρ c 5).trans ((h1 (V3 m ρ) c).trans ((entry1 (W2 m ρ c)).trans ?_))
    rw [e1, W2_arg m ρ c (b := main_arg1) (by decide), W2_arg m ρ c (b := main_arg2) (by decide),
      W2_arg m ρ c (b := main_arg6) (by decide), W2_arg m ρ c (b := main_arg7) (by decide)]
  -- region 2's output array: layer 1 of what region 1 left
  have e3 : W6 m ρ c (Proc.devRef .tc main_v55) = (Cert.Sage.kstep1 (Cert.Sage.kstep0 (Cert.Sage.embed (m ((c : Thread nD τ).loc main_arg0)) (m ((c : Thread nD τ).loc main_arg4)) (Cert.Sage.bemb2 (m ((c : Thread nD τ).loc main_arg5))))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7))) := by
    refine (W6_arr m ρ c 5).trans ((h2 (V5 m ρ) c).trans ((entry2 (W4 m ρ c)).trans ?_))
    rw [e2, W4_arg m ρ c (b := main_arg1) (by decide), W4_arg m ρ c (b := main_arg2) (by decide),
      W4_arg m ρ c (b := main_arg6) (by decide), W4_arg m ρ c (b := main_arg7) (by decide)]
  -- region 3's output array: layer 2 of what region 2 left
  have e4 : W8 m ρ c (Proc.devRef .tc main_v82) = (Cert.Sage.kstep2 (Cert.Sage.kstep1 (Cert.Sage.kstep0 (Cert.Sage.embed (m ((c : Thread nD τ).loc main_arg0)) (m ((c : Thread nD τ).loc main_arg4)) (Cert.Sage.bemb2 (m ((c : Thread nD τ).loc main_arg5))))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7))) := by
    refine (W8_arr m ρ c 5).trans ((h3 (V7 m ρ) c).trans ((entry3 (W6 m ρ c)).trans ?_))
    rw [e3, W6_arg m ρ c (b := main_arg1) (by decide), W6_arg m ρ c (b := main_arg2) (by decide),
      W6_arg m ρ c (b := main_arg6) (by decide), W6_arg m ρ c (b := main_arg7) (by decide)]
  -- region 4's output array: layer 3 of what region 3 left
  have e5 : W10 m ρ c (Proc.devRef .tc main_v109) = (Cert.Sage.kstep3 (Cert.Sage.kstep2 (Cert.Sage.kstep1 (Cert.Sage.kstep0 (Cert.Sage.embed (m ((c : Thread nD τ).loc main_arg0)) (m ((c : Thread nD τ).loc main_arg4)) (Cert.Sage.bemb2 (m ((c : Thread nD τ).loc main_arg5))))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7)))
        (m ((c : Thread nD τ).loc main_arg1)) (m ((c : Thread nD τ).loc main_arg2)) (m ((c : Thread nD τ).loc main_arg6)) (m ((c : Thread nD τ).loc main_arg7))) := by
    refine (W10_arr m ρ c 5).trans ((h4 (V9 m ρ) c).trans ((entry4 (W8 m ρ c)).trans ?_))
    rw [e4, W8_arg m ρ c (b := main_arg1) (by decide), W8_arg m ρ c (b := main_arg2) (by decide),
      W8_arg m ρ c (b := main_arg6) (by decide), W8_arg m ρ c (b := main_arg7) (by decide)]
  -- the last stretch on region 4's output array
  refine (host5_tail (W10 m ρ c)).trans ?_
  rw [e5, W10_arg m ρ c (b := main_arg3) (by decide), W10_arg m ρ c (b := main_arg8) (by decide),
    W10_arg m ρ c (b := main_arg9) (by decide), W10_arg m ρ c (b := main_arg10) (by decide)]

end Fold

end Cert.KernelIdeal.KFold

end
-- ==== Proof.BlockBody.lean ====
/-
  What the two kernel bodies compute on a block of rows.

  Each body receives 2000 rows of a tall table (and, for a layer, the same rows of the table of neighbour means)
  together with whole weight tables and a whole bias row, and every operation in it acts on each row separately: a
  product with a fixed right factor, a bias row added to every row, a division of each row by its own clamped
  Euclidean length, a cut at zero, a sum with the incoming rows. So when the block is rows ρ 0, ρ 1, … of the tall
  tables, the body's result is rows ρ 0, ρ 1, … of the same layer computed once on the tall tables.
-/
import proofs.«168573_j3556232921300_1_alg».proof.Proof.Spec
import proofs.«168573_j3556232921300_1_alg».proof.Proof.Gen.KernelIdeal.Skeleton

noncomputable section

namespace Cert.KernelIdeal.BlockBody

open Idealize.ShloMosaic Idealize.ShloMosaic.ValueIdx Cert.KernelIdeal Cert.BlockRows

/-- A layer's two products contract the second axis of a 2000 × 256 block with the first axis of a 256 × 256 table. -/
theorem dot_sage : dot_S2000x256_S256x256_S2000x256_1_0_0_1_n_n = DotDims.plain 2000 256 256 := rfl

/-- The embedding's product contracts the second axis of a 2000 × 128 block with the first axis of a 128 × 256 table. -/
theorem dot_embed : dot_S2000x128_S128x256_S2000x256_1_0_0_1_n_n = DotDims.plain 2000 128 256 := rfl

/-- Summing a 50000 × 256 table along its second axis leaves 50000 numbers. -/
theorem reduces_rows : (⟨2, ![50000, 256]⟩ : Shape).Reduces [1] (⟨1, ![50000]⟩ : Shape) := by decide

/-- THE EMBEDDING ON A BLOCK: on rows ρ 0, ρ 1, … of H, with the whole weight table and bias row, the body gives
    rows ρ 0, ρ 1, … of H · W + b. -/
theorem embed_rows (ρ : Fin 2000 → Fin 50000) (H : FVec Ideal S50000x128 .f32) (W : FVec Ideal S128x256 .f32)
    (B : FVec Ideal S1x256 .f32) :
    Gen.k0_pay1 (F := Ideal) (rowsOf ρ H) W B = rowsOf ρ (Cert.Sage.embed H W B) := by
  unfold Gen.k0_pay1
  dsimp only
  rw [dot_embed,
    Cert.RowLayers.matmul_of_rows ρ (truncf .bf16 (rowsOf ρ H) Gen.bitsLt_bf16_f32) (truncf .bf16 W Gen.bitsLt_bf16_f32)
      H W rfl rfl,
    Cert.RowLayers.rowBias_rows ρ B Gen.shapeCasts_S1x256_S1x256 Gen.broadcasts_S1x256_S2000x256
      Cert.ReferenceIdeal.Facts₀.bcast_S1x256_S50000x256_0_1, addf_rows]
  rfl

/-- ONE LAYER ON A BLOCK: on rows ρ 0, ρ 1, … of X and of C, with the two whole weight tables and the bias row, the
    body gives rows ρ 0, ρ 1, … of X + max(normalise(X · Wx + C · Wc + b), 0). -/
theorem sage_rows (ρ : Fin 2000 → Fin 50000) (X C : FVec Ideal S50000x256 .f32) (Wx Wc : FVec Ideal S256x256 .f32)
    (B : FVec Ideal S1x256 .f32) :
    Gen.k1_pay1 (F := Ideal) (rowsOf ρ X) (rowsOf ρ C) Wx Wc B = rowsOf ρ (Cert.Sage.layer X C Wx Wc B) := by
  unfold Gen.k1_pay1
  dsimp only
  -- the two products, their sum, and the bias: rows of X · Wx + C · Wc + b
  rw [shapeCast_self (rowsOf ρ X), shapeCast_self (rowsOf ρ C), dot_sage,
    propagate_rows ρ Gen.bitsLt_bf16_f32 Gen.shapeCasts_S256x256_S256x256 X Wx,
    propagate_rows ρ Gen.bitsLt_bf16_f32 Gen.shapeCasts_S256x256_S256x256 C Wc, addf_rows,
    Cert.RowLayers.rowBias_rows ρ B Gen.shapeCasts_S1x256_S1x256 Gen.broadcasts_S1x256_S2000x256
      Cert.ReferenceIdeal.Facts₀.bcast_S1x256_S50000x256_0_1, addf_rows]
  -- each row divided by its clamped Euclidean length
  refine Eq.trans (congrArg (fun z => addf (rowsOf ρ X) (maximumf z (broadcast S2000x256 (Scalar.ofBits (F := Ideal) .f32 0x00000000#32))))
    (Cert.BiInteraction.vecNormalized_rows ρ 0x2B8CBCCC#32 Gen.reduces_S2000x256_S2000 (.inl rfl) rfl
      Gen.shapeCasts_S2000_S2000x1 Gen.broadcasts_S2000x1_S2000x256
      Cert.ReferenceIdeal.Facts₀.reducesTo_S50000x256_S50000_d1 reduces_rows Cert.ReferenceIdeal.Facts₀.h_S_
      Cert.ReferenceIdeal.Facts₀.bcast_S50000_S50000x1_0 Cert.ReferenceIdeal.Facts₀.bcast_S_S50000x1
      Cert.ReferenceIdeal.Facts₀.bcast_S50000x1_S50000x256_0_1
      (addf (addf (propagate X Wx) (propagate C Wc))
        (Cert.RowLayers.rowBias Cert.ReferenceIdeal.Facts₀.bcast_S1x256_S50000x256_0_1 B)))) ?_
  -- the cut at zero and the sum with the incoming rows
  rw [relu_rows ρ Cert.ReferenceIdeal.Facts₀.bcast_S_S50000x256, addf_rows]
  rfl

/-- The four layers run the same body. -/
theorem k2_eq : @Gen.k2_pay1 = @Gen.k1_pay1 := rfl
theorem k3_eq : @Gen.k3_pay1 = @Gen.k1_pay1 := rfl
theorem k4_eq : @Gen.k4_pay1 = @Gen.k1_pay1 := rfl

/-- One layer on a block, for the second layer's body. -/
theorem sage_rows2 (ρ : Fin 2000 → Fin 50000) (X C : FVec Ideal S50000x256 .f32) (Wx Wc : FVec Ideal S256x256 .f32)
    (B : FVec Ideal S1x256 .f32) :
    Gen.k2_pay1 (F := Ideal) (rowsOf ρ X) (rowsOf ρ C) Wx Wc B = rowsOf ρ (Cert.Sage.layer X C Wx Wc B) :=
  sage_rows ρ X C Wx Wc B

/-- One layer on a block, for the third layer's body. -/
theorem sage_rows3 (ρ : Fin 2000 → Fin 50000) (X C : FVec Ideal S50000x256 .f32) (Wx Wc : FVec Ideal S256x256 .f32)
    (B : FVec Ideal S1x256 .f32) :
    Gen.k3_pay1 (F := Ideal) (rowsOf ρ X) (rowsOf ρ C) Wx Wc B = rowsOf ρ (Cert.Sage.layer X C Wx Wc B) :=
  sage_rows ρ X C Wx Wc B

/-- One layer on a block, for the fourth layer's body. -/
theorem sage_rows4 (ρ : Fin 2000 → Fin 50000) (X C : FVec Ideal S50000x256 .f32) (Wx Wc : FVec Ideal S256x256 .f32)
    (B : FVec Ideal S1x256 .f32) :
    Gen.k4_pay1 (F := Ideal) (rowsOf ρ X) (rowsOf ρ C) Wx Wc B = rowsOf ρ (Cert.Sage.layer X C Wx Wc B) :=
  sage_rows ρ X C Wx Wc B

end Cert.KernelIdeal.BlockBody

end
-- ==== Proof.RegionEmbed.lean ====
/-
  The embedding's region, from blocks to the whole table.

  The region runs the embedding's body once per block of 2000 rows, 25 blocks in all. At point t the body reads rows
  2000 t … 2000 t + 1999 of the feature table, the whole weight table and the whole bias row, and writes rows
  2000 t … 2000 t + 1999 of the output table. The body on picked rows gives the picked rows of H · W + b computed on
  the whole tables, every row r lies in block r / 2000, and every block is written back: so after the region the
  output table is the embedding of the tables the region found.
-/
import proofs.«168573_j3556232921300_1_alg».proof.Proof.BlockBody
import proofs.«168573_j3556232921300_1_alg».proof.Proof.Gen.KernelIdeal.Frame
import Idealize.ShloMosaic.Lib.Pipeline.Value

noncomputable section

namespace Cert.KernelIdeal.RegionEmbed

open Idealize.ShloMosaic Idealize.ShloMosaic.TcCoe Idealize.ShloMosaic.ValueIdx Idealize.SL.Sem
open Idealize.ShloMosaic.Pipeline (Dat)
open Cert.KernelIdeal Cert.KernelIdeal.Gen Cert.BlockRows

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the feature window and the output at block (t, 0), the weight table and
    the bias row at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block of point t is row 2000 t + p of the table. -/
def rowAt (t : Fin cfg0.N) : Fin 2000 → Fin 50000 :=
  blockRow 2000 25 50000 (by decide) ⟨t.val, lt_of_lt_of_eq t.isLt N_0⟩

theorem rowAt_val (t : Fin cfg0.N) (p : Fin 2000) : (rowAt t p).val = 2000 * t.val + p.val := rfl

/-- The first window's block at point t is rows 2000 t … 2000 t + 1999 of the feature table. -/
theorem rows_w0 (c : Dev nD) (t : Fin cfg0.N) :
    (iblk0 V c 0 t : Vec Ideal S2000x128 .f32) = rowsOf (rowAt t) (V c main_arg0) := by
  obtain ⟨e0, e1, -⟩ := idx_facts t
  funext x
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (x 0).val = 2000 * t.val + (x 0).val; rw [e0]; omega
  | ⟨1, _⟩ => show win0_0.index t (1 : Fin 2) * 128 + 1 * (x 1).val = (x 1).val; rw [e1]; omega

/-- The second window's one block is the whole weight table. -/
theorem whole_w1 (c : Dev nD) (t : Fin cfg0.N) :
    (iblk0 V c 1 t : Vec Ideal S128x256 .f32) = V c main_arg4 := by
  obtain ⟨-, -, e0, e1, -⟩ := idx_facts t
  funext x
  unfold iblk0
  rw [View.read_apply]
  show V c main_arg4 _ = V c main_arg4 _
  refine congrArg (V c main_arg4) ?_
  funext a
  apply Fin.ext
  match a with
  | ⟨0, _⟩ => show win0_1.index t (0 : Fin 2) * 128 + 1 * (x 0).val = (x 0).val; rw [e0]; omega
  | ⟨1, _⟩ => show win0_1.index t (1 : Fin 2) * 256 + 1 * (x 1).val = (x 1).val; rw [e1]; omega

/-- The third window's one block is the whole bias row. -/
theorem whole_w2 (c : Dev nD) (t : Fin cfg0.N) :
    (iblk0 V c 2 t : Vec Ideal S1x256 .f32) = V c main_v0 := by
  obtain ⟨-, -, -, -, e0, e1, -⟩ := idx_facts t
  funext x
  unfold iblk0
  rw [View.read_apply]
  show V c main_v0 _ = V c main_v0 _
  refine congrArg (V c main_v0) ?_
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The output window's block at point t, read off any table, is rows 2000 t … 2000 t + 1999 of the table. -/
theorem rows_out (t : Fin cfg0.N) (G : FVec Ideal S50000x256 .f32) :
    (((cfg0.win 3).blk t).view.read (Elt Ideal) G : Vec Ideal S2000x256 .f32) = rowsOf (rowAt t) G := by
  obtain ⟨-, -, -, -, -, -, e0, e1⟩ := idx_facts t
  funext x
  rw [View.read_apply]
  show G _ = G _
  refine congrArg G ?_
  funext a
  apply Fin.ext
  match a with
  | ⟨0, _⟩ => show win0_3.index t (0 : Fin 2) * 2000 + 1 * (x 0).val = 2000 * t.val + (x 0).val; rw [e0]; omega
  | ⟨1, _⟩ => show win0_3.index t (1 : Fin 2) * 256 + 1 * (x 1).val = (x 1).val; rw [e1]; omega

/-- WHAT POINT t WRITES BACK is block t of the embedding computed on the whole tables as the region finds them. -/
theorem flushed_eq (c : Dev nD) (t : Fin cfg0.N) :
    (dat0 (F := Ideal) V c).flushed 3 t = ((cfg0.win 3).blk t).view.read (Elt Ideal)
      (Cert.Sage.embed (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  rw [rows_w0 V c t, whole_w1 V c t, whole_w2 V c t, Cert.KernelIdeal.BlockBody.embed_rows, rows_out]
  rfl

/-- Row r of the output table lies in the block of point r / 2000, and every point writes its block back. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e0, e1⟩ := idx_facts t
  refine ⟨t, flush0_3 t, ?_⟩
  show i ∈ ((View.whole main_v1).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 256 ≤ (i 1).val ∧ (i 1).val < win0_3.index t (1 : Fin 2) * 256 + 256
    rw [e1]; omega

/-- THE OUTPUT TABLE after the region: the embedding computed once on the whole tables the region found. -/
theorem final (c : Dev nD) :
    (dat0 (F := Ideal) V c).arrAt 3 cfg0.N
      = Cert.Sage.embed (V c main_arg0) (V c main_arg4) (V c main_v0) :=
  (dat0 (F := Ideal) V c).arrAt_eq_of_cover 3 _ (fun t _ => flushed_eq V c t) cover

end Cert.KernelIdeal.RegionEmbed

end
-- ==== Proof.RegionSage1.lean ====
/-
  The first layer's region, from blocks to the whole table.

  The region runs the layer's body once per block of 2000 rows, 25 blocks in all. At point t the body reads rows
  2000 t … 2000 t + 1999 of the node table and of the table of neighbour means, the two whole weight tables and the
  whole bias row, and writes rows 2000 t … 2000 t + 1999 of the output table. The body on picked rows gives the picked
  rows of the layer computed on the whole tables, every row r lies in block r / 2000, and every block is written
  back: so after the region the output table is the layer of the tables the region found.
-/
import proofs.«168573_j3556232921300_1_alg».proof.Proof.BlockBody
import proofs.«168573_j3556232921300_1_alg».proof.Proof.Gen.KernelIdeal.Frame
import Idealize.ShloMosaic.Lib.Pipeline.Value

noncomputable section

namespace Cert.KernelIdeal.RegionSage1

open Idealize.ShloMosaic Idealize.ShloMosaic.TcCoe Idealize.ShloMosaic.ValueIdx Idealize.SL.Sem
open Idealize.ShloMosaic.Pipeline (Dat)
open Cert.KernelIdeal Cert.KernelIdeal.Gen Cert.BlockRows

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two row-block windows and the output at block (t, 0), the two
    weight tables and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block of point t is row 2000 t + p of the table. -/
def rowAt (t : Fin cfg1.N) : Fin 2000 → Fin 50000 :=
  blockRow 2000 25 50000 (by decide) ⟨t.val, lt_of_lt_of_eq t.isLt N_1⟩

theorem rowAt_val (t : Fin cfg1.N) (p : Fin 2000) : (rowAt t p).val = 2000 * t.val + p.val := rfl

/-- The first window's block at point t is rows 2000 t … 2000 t + 1999 of the node table. -/
theorem rows_w0 (c : Dev nD) (t : Fin cfg1.N) :
    (iblk1 V c 0 t : Vec Ideal S2000x256 .f32) = rowsOf (rowAt t) (V c main_v1) := by
  obtain ⟨e0, e1, -⟩ := idx_facts t
  funext x
  unfold iblk1
  rw [View.read_apply]
  show V c main_v1 _ = V c main_v1 _
  refine congrArg (V c main_v1) ?_
  funext a
  apply Fin.ext
  match a with
  | ⟨0, _⟩ => show win1_0.index t (0 : Fin 2) * 2000 + 1 * (x 0).val = 2000 * t.val + (x 0).val; rw [e0]; omega
  | ⟨1, _⟩ => show win1_0.index t (1 : Fin 2) * 256 + 1 * (x 1).val = (x 1).val; rw [e1]; omega

/-- The second window's block at point t is the same rows of the table of neighbour means. -/
theorem rows_w1 (c : Dev nD) (t : Fin cfg1.N) :
    (iblk1 V c 1 t : Vec Ideal S2000x256 .f32) = rowsOf (rowAt t) (V c main_v20) := by
  obtain ⟨-, -, e0, e1, -⟩ := idx_facts t
  funext x
  unfold iblk1
  rw [View.read_apply]
  show V c main_v20 _ = V c main_v20 _
  refine congrArg (V c main_v20) ?_
  funext a
  apply Fin.ext
  match a with
  | ⟨0, _⟩ => show win1_1.index t (0 : Fin 2) * 2000 + 1 * (x 0).val = 2000 * t.val + (x 0).val; rw [e0]; omega
  | ⟨1, _⟩ => show win1_1.index t (1 : Fin 2) * 256 + 1 * (x 1).val = (x 1).val; rw [e1]; omega

/-- The third window's one block is the whole of its weight table. -/
theorem whole_w2 (c : Dev nD) (t : Fin cfg1.N) :
    (iblk1 V c 2 t : Vec Ideal S256x256 .f32) = V c main_v22 := by
  obtain ⟨-, -, -, -, e0, e1, -⟩ := idx_facts t
  funext x
  unfold iblk1
  rw [View.read_apply]
  show V c main_v22 _ = V c main_v22 _
  refine congrArg (V c main_v22) ?_
  funext a
  apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega

/-- The fourth window's one block is the whole of its weight table. -/
theorem whole_w3 (c : Dev nD) (t : Fin cfg1.N) :
    (iblk1 V c 3 t : Vec Ideal S256x256 .f32) = V c main_v24 := by
  obtain ⟨-, -, -, -, -, -, e0, e1, -⟩ := idx_facts t
  funext x
  unfold iblk1
  rw [View.read_apply]
  show V c main_v24 _ = V c main_v24 _
  refine congrArg (V c main_v24) ?_
  funext a
  apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

/-- The fifth window's one block is the whole bias row. -/
theorem whole_w4 (c : Dev nD) (t : Fin cfg1.N) :
    (iblk1 V c 4 t : Vec Ideal S1x256 .f32) = V c main_v27 := by
  obtain ⟨-, -, -, -, -, -, -, -, e0, e1, -⟩ := idx_facts t
  funext x
  unfold iblk1
  rw [View.read_apply]
  show V c main_v27 _ = V c main_v27 _
  refine congrArg (V c main_v27) ?_
  funext a
  apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The output window's block at point t, read off any table, is rows 2000 t … 2000 t + 1999 of the table. -/
theorem rows_out (t : Fin cfg1.N) (G : FVec Ideal S50000x256 .f32) :
    (((cfg1.win 5).blk t).view.read (Elt Ideal) G : Vec Ideal S2000x256 .f32) = rowsOf (rowAt t) G := by
  obtain ⟨-, -, -, -, -, -, -, -, -, -, e0, e1⟩ := idx_facts t
  funext x
  rw [View.read_apply]
  show G _ = G _
  refine congrArg G ?_
  funext a
  apply Fin.ext
  match a with
  | ⟨0, _⟩ => show win1_5.index t (0 : Fin 2) * 2000 + 1 * (x 0).val = 2000 * t.val + (x 0).val; rw [e0]; omega
  | ⟨1, _⟩ => show win1_5.index t (1 : Fin 2) * 256 + 1 * (x 1).val = (x 1).val; rw [e1]; omega

/-- WHAT POINT t WRITES BACK is block t of the layer computed on the whole tables as the region finds them. -/
theorem flushed_eq (c : Dev nD) (t : Fin cfg1.N) :
    (dat1 (F := Ideal) V c).flushed 5 t = ((cfg1.win 5).blk t).view.read (Elt Ideal)
      (Cert.Sage.layer (V c main_v1) (V c main_v20) (V c main_v22) (V c main_v24) (V c main_v27)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [rows_w0 V c t, rows_w1 V c t, whole_w2 V c t, whole_w3 V c t, whole_w4 V c t,
    Cert.KernelIdeal.BlockBody.sage_rows, rows_out]
  rfl

/-- Row r of the output table lies in the block of point r / 2000, and every point writes its block back. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1⟩ := idx_facts t
  refine ⟨t, flush1_5 t, ?_⟩
  show i ∈ ((View.whole main_v28).slice (win1_5.rect t)).set
  rw [View.set_slice_whole, Rect.mem_set_unit]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 256 ≤ (i 1).val ∧ (i 1).val < win1_5.index t (1 : Fin 2) * 256 + 256
    rw [e1]; omega

/-- THE OUTPUT TABLE after the region: the layer computed once on the whole tables the region found. -/
theorem final (c : Dev nD) :
    (dat1 (F := Ideal) V c).arrAt 5 cfg1.N
      = Cert.Sage.layer (V c main_v1) (V c main_v20) (V c main_v22) (V c main_v24) (V c main_v27) :=
  (dat1 (F := Ideal) V c).arrAt_eq_of_cover 5 _ (fun t _ => flushed_eq V c t) cover

end Cert.KernelIdeal.RegionSage1

end
-- ==== Proof.RegionSage2.lean ====
/-
  The second layer's region, from blocks to the whole table.

  The region runs the layer's body once per block of 2000 rows, 25 blocks in all. At point t the body reads rows
  2000 t … 2000 t + 1999 of the node table and of the table of neighbour means, the two whole weight tables and the
  whole bias row, and writes rows 2000 t … 2000 t + 1999 of the output table. The body on picked rows gives the picked
  rows of the layer computed on the whole tables, every row r lies in block r / 2000, and every block is written
  back: so after the region the output table is the layer of the tables the region found.
-/
import proofs.«168573_j3556232921300_1_alg».proof.Proof.BlockBody
import proofs.«168573_j3556232921300_1_alg».proof.Proof.Gen.KernelIdeal.Frame
import Idealize.ShloMosaic.Lib.Pipeline.Value

noncomputable section

namespace Cert.KernelIdeal.RegionSage2

open Idealize.ShloMosaic Idealize.ShloMosaic.TcCoe Idealize.ShloMosaic.ValueIdx Idealize.SL.Sem
open Idealize.ShloMosaic.Pipeline (Dat)
open Cert.KernelIdeal Cert.KernelIdeal.Gen Cert.BlockRows

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two row-block windows and the output at block (t, 0), the two
    weight tables and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the block of point t is row 2000 t + p of the table. -/
def rowAt (t : Fin cfg2.N) : Fin 2000 → Fin 50000 :=
  blockRow 2000 25 50000 (by decide) ⟨t.val, lt_of_lt_of_eq t.isLt N_2⟩

theorem rowAt_val (t : Fin cfg2.N) (p : Fin 2000) : (rowAt t p).val = 2000 * t.val + p.val := rfl

/-- The first window's block at point t is rows 2000 t … 2000 t + 1999 of the node table. -/
theorem rows_w0 (c : Dev nD) (t : Fin cfg2.N) :
    (iblk2 V c 0 t : Vec Ideal S2000x256 .f32) = rowsOf (rowAt t) (V c main_v28) := by
  obtain ⟨e0, e1, -⟩ := idx_facts t
  funext x
  unfold iblk2
  rw [View.read_apply]
  show V c main_v28 _ = V c main_v28 _
  refine congrArg (V c main_v28) ?_
  funext a
  apply Fin.ext
  match a with
  | ⟨0, _⟩ => show win2_0.index t (0 : Fin 2) * 2000 + 1 * (x 0).val = 2000 * t.val + (x 0).val; rw [e0]; omega
  | ⟨1, _⟩ => show win2_0.index t (1 : Fin 2) * 256 + 1 * (x 1).val = (x 1).val; rw [e1]; omega

/-- The second window's block at point t is the same rows of the table of neighbour means. -/
theorem rows_w1 (c : Dev nD) (t : Fin cfg2.N) :
    (iblk2 V c 1 t : Vec Ideal S2000x256 .f32) = rowsOf (rowAt t) (V c main_v47) := by
  obtain ⟨-, -, e0, e1, -⟩ := idx_facts t
  funext x
  unfold iblk2
  rw [View.read_apply]
  show V c main_v47 _ = V c main_v47 _
  refine congrArg (V c main_v47) ?_
  funext a
  apply Fin.ext
  match a with
  | ⟨0, _⟩ => show win2_1.index t (0 : Fin 2) * 2000 + 1 * (x 0).val = 2000 * t.val + (x 0).val; rw [e0]; omega
  | ⟨1, _⟩ => show win2_1.index t (1 : Fin 2) * 256 + 1 * (x 1).val = (x 1).val; rw [e1]; omega

/-- The third window's one block is the whole of its weight table. -/
theorem whole_w2 (c : Dev nD) (t : Fin cfg2.N) :
    (iblk2 V c 2 t : Vec Ideal S256x256 .f32) = V c main_v49 := by
  obtain ⟨-, -, -, -, e0, e1, -⟩ := idx_facts t
  funext x
  unfold iblk2
  rw [View.read_apply]
  show V c main_v49 _ = V c main_v49 _
  refine congrArg (V c main_v49) ?_
  funext a
  apply Fin.ext
  match a with
  | ⟨0, _⟩ => show win2_2.index t (0 : Fin 2) * 256 + 1 * (x 0).val = (x 0).val; rw [e0]; omega
  | ⟨1, _⟩ => show win2_2.index t (1 : Fin 2) * 256 + 1 * (x 1).val = (x 1).val; rw [e1]; omega

/-- The fourth window's one block is the whole of its weight table. -/
theorem whole_w3 (c : Dev nD) (t : Fin cfg2.N) :
    (iblk2 V c 3 t : Vec Ideal S256x256 .f32) = V c main_v51 := by
  obtain ⟨-, -, -, -, -, -, e0, e1, -⟩ := idx_facts t
  funext x
  unfold iblk2
  rw [View.read_apply]
  show V c main_v51 _ = V c main_v51 _
  refine congrArg (V c main_v51) ?_
  funext a
  apply Fin.ext
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega

/-- The fifth window's one block is the whole bias row. -/
theorem whole_w4 (c : Dev nD) (t : Fin cfg2.N) :
    (iblk2 V c 4 t : Vec Ideal S1x256 .f32) = V c main_v54 := by
  obtain ⟨-, -, -, -, -, -, -, -, e0, e1, -⟩ := idx_facts t
  funext x
  unfold iblk2
  rw [View.read_apply]
  show V c main_v54 _ = V c main_v54 _
  refine congrArg (V c main_v54) ?_
  funext a
  apply Fin.ext
  match a with
  | ⟨0, _⟩ => show win2_4.index t (0 : Fin 2) * 1 + 1 * (x 0).val = (x 0).val; rw [e0]; omega
  | ⟨1, _⟩ => show win2_4.index t (1 : Fin 2) * 256 + 1 * (x 1).val = (x 1).val; rw [e1]; omega

/-- The output window's block at point t, read off any table, is rows 2000 t … 2000 t + 1999 of the table. -/
theorem rows_out (t : Fin cfg2.N) (G : FVec Ideal S50000x256 .f32) :
    (((cfg2.win 5).blk t).view.read (Elt Ideal) G : Vec Ideal S2000x256 .f32) = rowsOf (rowAt t) G := by
  obtain ⟨-, -, -, -, -, -, -, -, -, -, e0, e1⟩ := idx_facts t
  funext x
  rw [View.read_apply]
  show G _ = G _
  refine congrArg G ?_
  funext a
  apply Fin.ext
  match a with
  | ⟨0, _⟩ => show win2_5.index t (0 : Fin 2) * 2000 + 1 * (x 0).val = 2000 * t.val + (x 0).val; rw [e0]; omega
  | ⟨1, _⟩ => show win2_5.index t (1 : Fin 2) * 256 + 1 * (x 1).val = (x 1).val; rw [e1]; omega

/-- WHAT POINT t WRITES BACK is block t of the layer computed on the whole tables as the region finds them. -/
theorem flushed_eq (c : Dev nD) (t : Fin cfg2.N) :
    (dat2 (F := Ideal) V c).flushed 5 t = ((cfg2.win 5).blk t).view.read (Elt Ideal)
      (Cert.Sage.layer (V c main_v28) (V c main_v47) (V c main_v49) (V c main_v51) (V c main_v54)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S1x256) hz]
  rw [rows_w0 V c t, rows_w1 V c t, whole_w2 V c t, whole_w3 V c t, whole_w4 V c t,
    Cert.KernelIdeal.BlockBody.sage_rows2, rows_out]
  rfl

/-- Row r of the output table lies in the block of point r / 2000, and every point writes its block back. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, e0, e1⟩ := idx_facts t
  refine ⟨t, flush2_5 t, ?_⟩
  show i ∈ ((View.whole main_v55).slice (win2_5.rect t)).set
  rw [View.set_slice_whole, Rect.mem_set_unit]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 256 ≤ (i 1).val ∧ (i 1).val < win2_5.index t (1 : Fin 2) * 256 + 256
    rw [e1]; omega

/-- THE OUTPUT TABLE after the region: the layer computed once on the whole tables the region found. -/
theorem final (c : Dev nD) :
    (dat2 (F := Ideal) V c).arrAt 5 cfg2.N
      = Cert.Sage.layer (V c main_v28) (V c main_v47) (V c main_v49) (V c main_v51) (V c main_v54) :=
  (dat2 (F := Ideal) V c).arrAt_eq_of_cover 5 _ (fun t _ => flushed_eq V c t) cover

end Cert.KernelIdeal.RegionSage2

end
-- ==== Proof.RegionSage3.lean ====
/-
  The third layer's region, from blocks to the whole table.

  The region runs the layer's body once per block of 2000 rows, 25 blocks in all. At point t the body reads rows
  2000 t … 2000 t + 1999 of the node table and of the table of neighbour means, the two whole weight tables and the
  whole bias row, and writes rows 2000 t … 2000 t + 1999 of the output table. The body on picked rows gives the picked
  rows of the layer computed on the whole tables, every row r lies in block r / 2000, and every block is written
  back: so after the region the output table is the layer of the tables the region found.
-/
import proofs.«168573_j3556232921300_1_alg».proof.Proof.BlockBody
import proofs.«168573_j3556232921300_1_alg».proof.Proof.Gen.KernelIdeal.Frame
import Idealize.ShloMosaic.Lib.Pipeline.Value

noncomputable section

namespace Cert.KernelIdeal.RegionSage3

open Idealize.ShloMosaic Idealize.ShloMosaic.TcCoe Idealize.ShloMosaic.ValueIdx Idealize.SL.Sem
open Idealize.ShloMosaic.Pipeline (Dat)
open Cert.KernelIdeal Cert.KernelIdeal.Gen Cert.BlockRows

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two row-block windows and the output at block (t, 0), the two
    weight tables and the bias row at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of the block of point t is row 2000 t + p of the table. -/
def rowAt (t : Fin cfg3.N) : Fin 2000 → Fin 50000 :=
  blockRow 2000 25 50000 (by decide) ⟨t.val, lt_of_lt_of_eq t.isLt N_3⟩

theorem rowAt_val (t : Fin cfg3.N) (p : Fin 2000) : (rowAt t p).val = 2000 * t.val + p.val := rfl

/-- The first window's block at point t is rows 2000 t … 2000 t + 1999 of the node table. -/
theorem rows_w0 (c : Dev nD) (t : Fin cfg3.N) :
    (iblk3 V c 0 t : Vec Ideal S2000x256 .f32) = rowsOf (rowAt t) (V c main_v55) := by
  obtain ⟨e0, e1, -⟩ := idx_facts t
  funext x
  unfold iblk3
  rw [View.read_apply]
  show V c main_v55 _ = V c main_v55 _
  refine congrArg (V c main_v55) ?_
  funext a
  apply Fin.ext
  match a with
  | ⟨0, _⟩ => show win3_0.index t (0 : Fin 2) * 2000 + 1 * (x 0).val = 2000 * t.val + (x 0).val; rw [e0]; omega
  | ⟨1, _⟩ => show win3_0.index t (1 : Fin 2) * 256 + 1 * (x 1).val = (x 1).val; rw [e1]; omega

/-- The second window's block at point t is the same rows of the table of neighbour means. -/
theorem rows_w1 (c : Dev nD) (t : Fin cfg3.N) :
    (iblk3 V c 1 t : Vec Ideal S2000x256 .f32) = rowsOf (rowAt t) (V c main_v74) := by
  obtain ⟨-, -, e0, e1, -⟩ := idx_facts t
  funext x
  unfold iblk3
  rw [View.read_apply]
  show V c main_v74 _ = V c main_v74 _
  refine congrArg (V c main_v74) ?_
  funext a
  apply Fin.ext
  match a with
  | ⟨0, _⟩ => show win3_1.index t (0 : Fin 2) * 2000 + 1 * (x 0).val = 2000 * t.val + (x 0).val; rw [e0]; omega
  | ⟨1, _⟩ => show win3_1.index t (1 : Fin 2) * 256 + 1 * (x 1).val = (x 1).val; rw [e1]; omega

/-- The third window's one block is the whole of its weight table. -/
theorem whole_w2 (c : Dev nD) (t : Fin cfg3.N) :
    (iblk3 V c 2 t : Vec Ideal S256x256 .f32) = V c main_v76 := by
  obtain ⟨-, -, -, -, e0, e1, -⟩ := idx_facts t
  funext x
  unfold iblk3
  rw [View.read_apply]
  show V c main_v76 _ = V c main_v76 _
  refine congrArg (V c main_v76) ?_
  funext a
  apply Fin.ext
  match a with
  | ⟨0, _⟩ => show win3_2.index t (0 : Fin 2) * 256 + 1 * (x 0).val = (x 0).val; rw [e0]; omega
  | ⟨1, _⟩ => show win3_2.index t (1 : Fin 2) * 256 + 1 * (x 1).val = (x 1).val; rw [e1]; omega

/-- The fourth window's one block is the whole of its weight table. -/
theorem whole_w3 (c : Dev nD) (t : Fin cfg3.N) :
    (iblk3 V c 3 t : Vec Ideal S256x256 .f32) = V c main_v78 := by
  obtain ⟨-, -, -, -, -, -, e0, e1, -⟩ := idx_facts t
  funext x
  unfold iblk3
  rw [View.read_apply]
  show V c main_v78 _ = V c main_v78 _
  refine congrArg (V c main_v78) ?_
  funext a
  apply Fin.ext
  match a with
  | ⟨0, _⟩ => show win3_3.index t (0 : Fin 2) * 256 + 1 * (x 0).val = (x 0).val; rw [e0]; omega
  | ⟨1, _⟩ => show win3_3.index t (1 : Fin 2) * 256 + 1 * (x 1).val = (x 1).val; rw [e1]; omega

/-- The fifth window's one block is the whole bias row. -/
theorem whole_w4 (c : Dev nD) (t : Fin cfg3.N) :
    (iblk3 V c 4 t : Vec Ideal S1x256 .f32) = V c main_v81 := by
  obtain ⟨-, -, -, -, -, -, -, -, e0, e1, -⟩ := idx_facts t
  funext x
  unfold iblk3
  rw [View.read_apply]
  show V c main_v81 _ = V c main_v81 _
  refine congrArg (V c main_v81) ?_
  funext a
  apply Fin.ext
  match a with
  | ⟨0, _⟩ => show win3_4.index t (0 : Fin 2) * 1 + 1 * (x 0).val = (x 0).val; rw [e0]; omega
  | ⟨1, _⟩ => show win3_4.index t (1 : Fin 2) * 256 + 1 * (x 1).val = (x 1).val; rw [e1]; omega

/-- The output window's block at point t, read off any table, is rows 2000 t … 2000 t + 1999 of the table. -/
theorem rows_out (t : Fin cfg3.N) (G : FVec Ideal S50000x256 .f32) :
    (((cfg3.win 5).blk t).view.read (Elt Ideal) G : Vec Ideal S2000x256 .f32) = rowsOf (rowAt t) G := by
  obtain ⟨-, -, -, -, -, -, -, -, -, -, e0, e1⟩ := idx_facts t
  funext x
  rw [View.read_apply]
  show G _ = G _
  refine congrArg G ?_
  funext a
  apply Fin.ext
  match a with
  | ⟨0, _⟩ => show win3_5.index t (0 : Fin 2) * 2000 + 1 * (x 0).val = 2000 * t.val + (x 0).val; rw [e0]; omega
  | ⟨1, _⟩ => show win3_5.index t (1 : Fin 2) * 256 + 1 * (x 1).val = (x 1).val; rw [e1]; omega

/-- WHAT POINT t WRITES BACK is block t of the layer computed on the whole tables as the region finds them. -/
theorem flushed_eq (c : Dev nD) (t : Fin cfg3.N) :
    (dat3 (F := Ideal) V c).flushed 5 t = ((cfg3.win 5).blk t).view.read (Elt Ideal)
      (Cert.Sage.layer (V c main_v55) (V c main_v74) (V c main_v76) (V c main_v78) (V c main_v81)) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x256) hz, View.ld_unit_zero (S := S1x256) hz]
  rw [rows_w0 V c t, rows_w1 V c t, whole_w2 V c t, whole_w3 V c t, whole_w4 V c t,
    Cert.KernelIdeal.BlockBody.sage_rows3, rows_out]
  rfl

/-- Row r of the output table lies in the block of point r / 2000, and every point writes its block back. -/
theorem cover (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, -, -, e0, e1⟩ := idx_facts t
  refine ⟨t, flush3_5 t, ?_⟩
  show i ∈ ((View.whole main_v82).slice (win3_5.rect t)).set
  rw [View.set_slice_whole, Rect.mem_set_unit]
  intro a
  match a with
  | ⟨0, _⟩ =>
    show win3_5.index t (0 : Fin 2) * 2000 ≤ (i 0).val ∧ (i 0).val < win3_5.index t (0 : Fin 2) * 2000 + 2000
    rw [e0, ht]; omega
  | ⟨1, _⟩ =>
    show win3_5.index t (1 : Fin 2) * 256 ≤ (i 1).val ∧ (i 1).val < win3_5.index t (1 : Fin 2) * 256 + 256
    rw [e1]; omega

/-- THE OUTPUT TABLE after the region: the layer computed once on the whole tables the region found. -/
theorem final (c : Dev nD) :
    (dat3 (F := Ideal) V c).arrAt 5 cfg3.N
      = Cert.Sage.layer (V c main_v55) (V c main_v74) (V c main_v76) (V c main_v78) (V c main_v81) :=
  (dat3 (F := Ideal) V c).arrAt_eq_of_cover 5 _ (fun t _ => flushed_eq V c t) cover

end Cert.KernelIdeal.RegionSage3

end
-- ==== Proof.RegionSage4.lean ====
/-
  The fourth layer's region, from blocks to the whole table.

  The region runs the layer's body once per block of 2000 rows, 25 blocks in all. At point t the body reads rows
  2000 t … 2000 t + 1999 of the node table and of the table of neighbour means, the two whole weight tables and the
  whole bias row, and writes rows 2000 t … 2000 t + 1999 of the output table. The body on picked rows gives the picked
  rows of the layer computed on the whole tables, every row r lies in block r / 2000, and every block is written
  back: so after the region the output table is the layer of the tables the region found.
-/
import proofs.«168573_j3556232921300_1_alg».proof.Proof.BlockBody
import proofs.«168573_j3556232921300_1_alg».proof.Proof.Gen.KernelIdeal.Frame
import Idealize.ShloMosaic.Lib.Pipeline.Value

noncomputable section

namespace Cert.KernelIdeal.RegionSage4

open Idealize.ShloMosaic Idealize.ShloMosaic.TcCoe Idealize.ShloMosaic.ValueIdx Idealize.SL.Sem
open Idealize.ShloMosaic.Pipeline (Dat)
open Cert.KernelIdeal Cert.KernelIdeal.Gen Cert.BlockRows

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the two row-block windows and the output at block (t, 0), the two
    weight tables and the bias row at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of the block of point t is row 2000 t + p of the table. -/
def rowAt (t : Fin cfg4.N) : Fin 2000 → Fin 50000 :=
  blockRow 2000 25 50000 (by decide) ⟨t.val, lt_of_lt_of_eq t.isLt N_4⟩

theorem rowAt_val (t : Fin cfg4.N) (p : Fin 2000) : (rowAt t p).val = 2000 * t.val + p.val := rfl

/-- The first window's block at point t is rows 2000 t … 2000 t + 1999 of the node table. -/
theorem rows_w0 (c : Dev nD) (t : Fin cfg4.N) :
    (iblk4 V c 0 t : Vec Ideal S2000x256 .f32) = rowsOf (rowAt t) (V c main_v82) := by
  obtain ⟨e0, e1, -⟩ := idx_facts t
  funext x
  unfold iblk4
  rw [View.read_apply]
  show V c main_v82 _ = V c main_v82 _
  refine congrArg (V c main_v82) ?_
  funext a
  apply Fin.ext
  match a with
  | ⟨0, _⟩ => show win4_0.index t (0 : Fin 2) * 2000 + 1 * (x 0).val = 2000 * t.val + (x 0).val; rw [e0]; omega
  | ⟨1, _⟩ => show win4_0.index t (1 : Fin 2) * 256 + 1 * (x 1).val = (x 1).val; rw [e1]; omega

/-- The second window's block at point t is the same rows of the table of neighbour means. -/
theorem rows_w1 (c : Dev nD) (t : Fin cfg4.N) :
    (iblk4 V c 1 t : Vec Ideal S2000x256 .f32) = rowsOf (rowAt t) (V c main_v101) := by
  obtain ⟨-, -, e0, e1, -⟩ := idx_facts t
  funext x
  unfold iblk4
  rw [View.read_apply]
  show V c main_v101 _ = V c main_v101 _
  refine congrArg (V c main_v101) ?_
  funext a
  apply Fin.ext
  match a with
  | ⟨0, _⟩ => show win4_1.index t (0 : Fin 2) * 2000 + 1 * (x 0).val = 2000 * t.val + (x 0).val; rw [e0]; omega
  | ⟨1, _⟩ => show win4_1.index t (1 : Fin 2) * 256 + 1 * (x 1).val = (x 1).val; rw [e1]; omega

/-- The third window's one block is the whole of its weight table. -/
theorem whole_w2 (c : Dev nD) (t : Fin cfg4.N) :
    (iblk4 V c 2 t : Vec Ideal S256x256 .f32) = V c main_v103 := by
  obtain ⟨-, -, -, -, e0, e1, -⟩ := idx_facts t
  funext x
  unfold iblk4
  rw [View.read_apply]
  show V c main_v103 _ = V c main_v103 _
  refine congrArg (V c main_v103) ?_
  funext a
  apply Fin.ext
  match a with
  | ⟨0, _⟩ => show win4_2.index t (0 : Fin 2) * 256 + 1 * (x 0).val = (x 0).val; rw [e0]; omega
  | ⟨1, _⟩ => show win4_2.index t (1 : Fin 2) * 256 + 1 * (x 1).val = (x 1).val; rw [e1]; omega

/-- The fourth window's one block is the whole of its weight table. -/
theorem whole_w3 (c : Dev nD) (t : Fin cfg4.N) :
    (iblk4 V c 3 t : Vec Ideal S256x256 .f32) = V c main_v105 := by
  obtain ⟨-, -, -, -, -, -, e0, e1, -⟩ := idx_facts t
  funext x
  unfold iblk4
  rw [View.read_apply]
  show V c main_v105 _ = V c main_v105 _
  refine congrArg (V c main_v105) ?_
  funext a
  apply Fin.ext
  match a with
  | ⟨0, _⟩ => show win4_3.index t (0 : Fin 2) * 256 + 1 * (x 0).val = (x 0).val; rw [e0]; omega
  | ⟨1, _⟩ => show win4_3.index t (1 : Fin 2) * 256 + 1 * (x 1).val = (x 1).val; rw [e1]; omega

/-- The fifth window's one block is the whole bias row. -/
theorem whole_w4 (c : Dev nD) (t : Fin cfg4.N) :
    (iblk4 V c 4 t : Vec Ideal S1x256 .f32) = V c main_v108 := by
  obtain ⟨-, -, -, -, -, -, -, -, e0, e1, -⟩ := idx_facts t
  funext x
  unfold iblk4
  rw [View.read_apply]
  show V c main_v108 _ = V c main_v108 _
  refine congrArg (V c main_v108) ?_
  funext a
  apply Fin.ext
  match a with
  | ⟨0, _⟩ => show win4_4.index t (0 : Fin 2) * 1 + 1 * (x 0).val = (x 0).val; rw [e0]; omega
  | ⟨1, _⟩ => show win4_4.index t (1 : Fin 2) * 256 + 1 * (x 1).val = (x 1).val; rw [e1]; omega

/-- The output window's block at point t, read off any table, is rows 2000 t … 2000 t + 1999 of the table. -/
theorem rows_out (t : Fin cfg4.N) (G : FVec Ideal S50000x256 .f32) :
    (((cfg4.win 5).blk t).view.read (Elt Ideal) G : Vec Ideal S2000x256 .f32) = rowsOf (rowAt t) G := by
  obtain ⟨-, -, -, -, -, -, -, -, -, -, e0, e1⟩ := idx_facts t
  funext x
  rw [View.read_apply]
  show G _ = G _
  refine congrArg G ?_
  funext a
  apply Fin.ext
  match a with
  | ⟨0, _⟩ => show win4_5.index t (0 : Fin 2) * 2000 + 1 * (x 0).val = 2000 * t.val + (x 0).val; rw [e0]; omega
  | ⟨1, _⟩ => show win4_5.index t (1 : Fin 2) * 256 + 1 * (x 1).val = (x 1).val; rw [e1]; omega

/-- WHAT POINT t WRITES BACK is block t of the layer computed on the whole tables as the region finds them. -/
theorem flushed_eq (c : Dev nD) (t : Fin cfg4.N) :
    (dat4 (F := Ideal) V c).flushed 5 t = ((cfg4.win 5).blk t).view.read (Elt Ideal)
      (Cert.Sage.layer (V c main_v82) (V c main_v101) (V c main_v103) (V c main_v105) (V c main_v108)) := by
  show (cfg4.win 5).cut (grid4.coords t) ((dat4 V c).after 5 t) = _
  rw [after4_5]
  unfold out4_5
  rw [View.canon_unit_zero hz]
  simp only [View.ld_unit_zero (S := S2000x256) hz, View.ld_unit_zero (S := S256x256) hz, View.ld_unit_zero (S := S1x256) hz]
  rw [rows_w0 V c t, rows_w1 V c t, whole_w2 V c t, whole_w3 V c t, whole_w4 V c t,
    Cert.KernelIdeal.BlockBody.sage_rows4, rows_out]
  rfl

/-- Row r of the output table lies in the block of point r / 2000, and every point writes its block back. -/
theorem cover (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, -, -, -, -, e0, e1⟩ := idx_facts t
  refine ⟨t, flush4_5 t, ?_⟩
  show i ∈ ((View.whole main_v109).slice (win4_5.rect t)).set
  rw [View.set_slice_whole, Rect.mem_set_unit]
  intro a
  match a with
  | ⟨0, _⟩ =>
    show win4_5.index t (0 : Fin 2) * 2000 ≤ (i 0).val ∧ (i 0).val < win4_5.index t (0 : Fin 2) * 2000 + 2000
    rw [e0, ht]; omega
  | ⟨1, _⟩ =>
    show win4_5.index t (1 : Fin 2) * 256 ≤ (i 1).val ∧ (i 1).val < win4_5.index t (1 : Fin 2) * 256 + 256
    rw [e1]; omega

/-- THE OUTPUT TABLE after the region: the layer computed once on the whole tables the region found. -/
theorem final (c : Dev nD) :
    (dat4 (F := Ideal) V c).arrAt 5 cfg4.N
      = Cert.Sage.layer (V c main_v82) (V c main_v101) (V c main_v103) (V c main_v105) (V c main_v108) :=
  (dat4 (F := Ideal) V c).arrAt_eq_of_cover 5 _ (fun t _ => flushed_eq V c t) cover

end Cert.KernelIdeal.RegionSage4

end
-- ==== Proof.RefValue.lean ====
/-
  The reference program's line of 256 host operations, read stretch by stretch.

  The line is cut into six stretches: the embedding, the four layers, and everything after the last layer.  The contents
  after the whole line are the contents after the last stretch run from the contents after the stretches before it
  (`after_append`), so each stretch is read for an arbitrary valuation of the buffers: its result buffer holds the
  network's function of that stretch (`Cert.Sage.Ref.embed`, `rstep0` … `rstep3`, `tail`) of the buffers it reads, and it
  leaves every buffer it reads from outside itself as it was.  Chaining the six readings gives the value of the
  program's result in terms of the launch contents of its eleven arguments.
-/
import proofs.«168573_j3556232921300_1_alg».proof.Proof.RefRun
import proofs.«168573_j3556232921300_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The contents after two lines run one after the other: the second line's fold from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

section Stretches
variable {F : FTy → Type} [FloatOps F]

/-- The embedding: operations 0 to 3. -/
def opsEmbed : List (HloOp τ sig (Elt F)) :=
  [ binary main_arg0 main_arg4 main_v0 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg5 main_v1 (broadcastInDim S1x256 ![1] bcast_S256_S1x256_1 : (⟨S256, .f32⟩ : BufTy).Contents (Elt F) → (⟨S1x256, .f32⟩ : BufTy).Contents (Elt F)),
    unary main_v1 main_v2 (broadcastInDim S50000x256 ![0, 1] bcast_S1x256_S50000x256_0_1 : (⟨S1x256, .f32⟩ : BufTy).Contents (Elt F) → (⟨S50000x256, .f32⟩ : BufTy).Contents (Elt F)),
    binary main_v0 main_v2 main_v3 (addf : (⟨S50000x256, .f32⟩ : BufTy).Contents (Elt F) → (⟨S50000x256, .f32⟩ : BufTy).Contents (Elt F) → (⟨S50000x256, .f32⟩ : BufTy).Contents (Elt F)) ]

/-- Layer 0, the mean over in-neighbours: operations 4 to 28. -/
def opsAgg0 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_v3 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_arg2 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_arg2 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v13 main_v21 main_v22 (Host.divf : (⟨S50000x256, .f32⟩ : BufTy).Contents (Elt F) → (⟨S50000x256, .f32⟩ : BufTy).Contents (Elt F) → (⟨S50000x256, .f32⟩ : BufTy).Contents (Elt F)) ]

/-- Layer 0, from the joined table to the layer's output: operations 29 to 51. -/
def opsFin0 : List (HloOp τ sig (Elt F)) :=
  [ binary main_v3 main_v22 main_v23 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    unary main_arg6 main_v24 ((extractStridedSlice S1x512x256 ![0, 0, 0] · slices_S4x512x256_S1x512x256_0_0_0) : (⟨S4x512x256, .f32⟩ : BufTy).Contents (Elt F) → (⟨S1x512x256, .f32⟩ : BufTy).Contents (Elt F)),
    reshape main_v24 main_v25 rfl shapeCasts_S1x512x256_S512x256,
    binary main_v23 main_v25 main_v26 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg7 main_v27 ((extractStridedSlice S1x256 ![0, 0] · slices_S4x256_S1x256_0_0) : (⟨S4x256, .f32⟩ : BufTy).Contents (Elt F) → (⟨S1x256, .f32⟩ : BufTy).Contents (Elt F)),
    reshape main_v27 main_v28 rfl shapeCasts_S1x256_S256,
    unary main_v28 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v26 main_v30 main_v31 (addf : (⟨S50000x256, .f32⟩ : BufTy).Contents (Elt F) → (⟨S50000x256, .f32⟩ : BufTy).Contents (Elt F) → (⟨S50000x256, .f32⟩ : BufTy).Contents (Elt F)),
    TRef.binary (TRef.of (T := ⟨S50000x256, .f32⟩) main_v31) (TRef.of (T := ⟨S50000x256, .f32⟩) main_v31) (TRef.of (T := ⟨S50000x256, .f32⟩) main_call0_v0) mulf,
    TRef.nullary (TRef.of (T := ⟨S_, .f32⟩) main_call0_cst) (constant S_ .f32 0x00000000#32),
    TRef.binary (TRef.of (T := ⟨S50000x256, .f32⟩) main_call0_v0) (TRef.of (T := ⟨S_, .f32⟩) main_call0_cst) (TRef.of (T := ⟨S50000, .f32⟩) main_call0_v1) (fun x v => Host.reduceAdd x v reducesTo_S50000x256_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v32) Host.sqrt,
    nullary main_cst_4 (constant S_ .f32 0x2B8CBCCC#32),
    unary main_cst_4 main_v33 (broadcastInDim S50000x1 ![] bcast_S_S50000x1 : (⟨S_, .f32⟩ : BufTy).Contents (Elt F) → (⟨S50000x1, .f32⟩ : BufTy).Contents (Elt F)),
    binary main_v32 main_v33 main_v34 (maximumf : (⟨S50000x1, .f32⟩ : BufTy).Contents (Elt F) → (⟨S50000x1, .f32⟩ : BufTy).Contents (Elt F) → (⟨S50000x1, .f32⟩ : BufTy).Contents (Elt F)),
    unary main_v34 main_v35 (broadcastInDim S50000x256 ![0, 1] bcast_S50000x1_S50000x256_0_1 : (⟨S50000x1, .f32⟩ : BufTy).Contents (Elt F) → (⟨S50000x256, .f32⟩ : BufTy).Contents (Elt F)),
    binary main_v31 main_v35 main_v36 (Host.divf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v36) (TRef.of (T := ⟨S50000x256, .f32⟩) main_call1_v0) (TRef.of (T := ⟨S50000x256, .f32⟩) main_v37) maximumf,
    binary main_v3 main_v37 main_v38 (addf : (⟨S50000x256, .f32⟩ : BufTy).Contents (Elt F) → (⟨S50000x256, .f32⟩ : BufTy).Contents (Elt F) → (⟨S50000x256, .f32⟩ : BufTy).Contents (Elt F)) ]

/-- Layer 0: operations 4 to 51. -/
abbrev opsLayer0 : List (HloOp τ sig (Elt F)) := opsAgg0 ++ opsFin0

/-- Layer 1, the mean over in-neighbours: operations 52 to 76. -/
def opsAgg1 : List (HloOp τ sig (Elt F)) :=
  [ nullary main_c_5 (constantI S_ 32 0#32),
    unary main_c_5 main_v39 (broadcastInDim S800000 ![] bcast_S_S800000 : (⟨S_, .i32⟩ : BufTy).Contents (Elt F) → (⟨S800000, .i32⟩ : BufTy).Contents (Elt F)),
    binary main_arg1 main_v39 main_v40 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v41 (broadcastInDim S800000 ![] bcast_S_S800000 : (⟨S_, .i32⟩ : BufTy).Contents (Elt F) → (⟨S800000, .i32⟩ : BufTy).Contents (Elt F)),
    binary main_arg1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_arg1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v46 (broadcastInDim S50000x256 ![] bcast_S_S50000x256 : (⟨S_, .f32⟩ : BufTy).Contents (Elt F) → (⟨S50000x256, .f32⟩ : BufTy).Contents (Elt F)),
    unary main_arg2 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_8 (constant S_ .f32 0x3F800000#32),
    unary main_cst_8 main_v49 (broadcastInDim S800000 ![] bcast_S_S800000 : (⟨S_, .f32⟩ : BufTy).Contents (Elt F) → (⟨S800000, .f32⟩ : BufTy).Contents (Elt F)),
    nullary main_cst_9 (constant S_ .f32 0x00000000#32),
    unary main_cst_9 main_v50 (broadcastInDim S50000 ![] bcast_S_S50000 : (⟨S_, .f32⟩ : BufTy).Contents (Elt F) → (⟨S50000, .f32⟩ : BufTy).Contents (Elt F)),
    unary main_arg2 main_v51 (broadcastInDim S800000x1 ![0] bcast_S800000_S800000x1_0 : (⟨S800000, .i32⟩ : BufTy).Contents (Elt F) → (⟨S800000x1, .i32⟩ : BufTy).Contents (Elt F)),
    ternary main_v50 main_v51 main_v49 main_v52 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_10 (constant S_ .f32 0x3F800000#32),
    unary main_cst_10 main_v53 (broadcastInDim S50000 ![] bcast_S_S50000 : (⟨S_, .f32⟩ : BufTy).Contents (Elt F) → (⟨S50000, .f32⟩ : BufTy).Contents (Elt F)),
    binary main_v52 main_v53 main_v54 (maximumf : (⟨S50000, .f32⟩ : BufTy).Contents (Elt F) → (⟨S50000, .f32⟩ : BufTy).Contents (Elt F) → (⟨S50000, .f32⟩ : BufTy).Contents (Elt F)),
    unary main_v54 main_v55 (broadcastInDim S50000x1 ![0] bcast_S50000_S50000x1_0 : (⟨S50000, .f32⟩ : BufTy).Contents (Elt F) → (⟨S50000x1, .f32⟩ : BufTy).Contents (Elt F)),
    unary main_v55 main_v56 (broadcastInDim S50000x256 ![0, 1] bcast_S50000x1_S50000x256_0_1 : (⟨S50000x1, .f32⟩ : BufTy).Contents (Elt F) → (⟨S50000x256, .f32⟩ : BufTy).Contents (Elt F)),
    binary main_v48 main_v56 main_v57 (Host.divf : (⟨S50000x256, .f32⟩ : BufTy).Contents (Elt F) → (⟨S50000x256, .f32⟩ : BufTy).Contents (Elt F) → (⟨S50000x256, .f32⟩ : BufTy).Contents (Elt F)) ]

/-- Layer 1, from the joined table to the layer's output: operations 77 to 99. -/
def opsFin1 : List (HloOp τ sig (Elt F)) :=
  [ binary main_v38 main_v57 main_v58 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    unary main_arg6 main_v59 ((extractStridedSlice S1x512x256 ![1, 0, 0] · slices_S4x512x256_S1x512x256_1_0_0) : (⟨S4x512x256, .f32⟩ : BufTy).Contents (Elt F) → (⟨S1x512x256, .f32⟩ : BufTy).Contents (Elt F)),
    reshape main_v59 main_v60 rfl shapeCasts_S1x512x256_S512x256,
    binary main_v58 main_v60 main_v61 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg7 main_v62 ((extractStridedSlice S1x256 ![1, 0] · slices_S4x256_S1x256_1_0) : (⟨S4x256, .f32⟩ : BufTy).Contents (Elt F) → (⟨S1x256, .f32⟩ : BufTy).Contents (Elt F)),
    reshape main_v62 main_v63 rfl shapeCasts_S1x256_S256,
    unary main_v63 main_v64 (broadcastInDim S1x256 ![1] bcast_S256_S1x256_1 : (⟨S256, .f32⟩ : BufTy).Contents (Elt F) → (⟨S1x256, .f32⟩ : BufTy).Contents (Elt F)),
    unary main_v64 main_v65 (broadcastInDim S50000x256 ![0, 1] bcast_S1x256_S50000x256_0_1 : (⟨S1x256, .f32⟩ : BufTy).Contents (Elt F) → (⟨S50000x256, .f32⟩ : BufTy).Contents (Elt F)),
    binary main_v61 main_v65 main_v66 (addf : (⟨S50000x256, .f32⟩ : BufTy).Contents (Elt F) → (⟨S50000x256, .f32⟩ : BufTy).Contents (Elt F) → (⟨S50000x256, .f32⟩ : BufTy).Contents (Elt F)),
    TRef.binary (TRef.of (T := ⟨S50000x256, .f32⟩) main_v66) (TRef.of (T := ⟨S50000x256, .f32⟩) main_v66) (TRef.of (T := ⟨S50000x256, .f32⟩) main_call2_v0) mulf,
    TRef.nullary (TRef.of (T := ⟨S_, .f32⟩) main_call2_cst) (constant S_ .f32 0x00000000#32),
    TRef.binary (TRef.of (T := ⟨S50000x256, .f32⟩) main_call2_v0) (TRef.of (T := ⟨S_, .f32⟩) main_call2_cst) (TRef.of (T := ⟨S50000, .f32⟩) main_call2_v1) (fun x v => Host.reduceAdd x v reducesTo_S50000x256_S50000_d1 h_S_),
    TRef.unary (TRef.of (T := ⟨S50000, .f32⟩) main_call2_v1) (TRef.of (T := ⟨S50000x1, .f32⟩) main_call2_v2) (broadcastInDim S50000x1 ![0] bcast_S50000_S50000x1_0),
    TRef.unary (TRef.of (T := ⟨S50000x1, .f32⟩) main_call2_v2) (TRef.of (T := ⟨S50000x1, .f32⟩) main_v67) Host.sqrt,
    nullary main_cst_11 (constant S_ .f32 0x2B8CBCCC#32),
    unary main_cst_11 main_v68 (broadcastInDim S50000x1 ![] bcast_S_S50000x1 : (⟨S_, .f32⟩ : BufTy).Contents (Elt F) → (⟨S50000x1, .f32⟩ : BufTy).Contents (Elt F)),
    binary main_v67 main_v68 main_v69 (maximumf : (⟨S50000x1, .f32⟩ : BufTy).Contents (Elt F) → (⟨S50000x1, .f32⟩ : BufTy).Contents (Elt F) → (⟨S50000x1, .f32⟩ : BufTy).Contents (Elt F)),
    unary main_v69 main_v70 (broadcastInDim S50000x256 ![0, 1] bcast_S50000x1_S50000x256_0_1 : (⟨S50000x1, .f32⟩ : BufTy).Contents (Elt F) → (⟨S50000x256, .f32⟩ : BufTy).Contents (Elt F)),
    binary main_v66 main_v70 main_v71 (Host.divf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v71) (TRef.of (T := ⟨S50000x256, .f32⟩) main_call3_v0) (TRef.of (T := ⟨S50000x256, .f32⟩) main_v72) maximumf,
    binary main_v38 main_v72 main_v73 (addf : (⟨S50000x256, .f32⟩ : BufTy).Contents (Elt F) → (⟨S50000x256, .f32⟩ : BufTy).Contents (Elt F) → (⟨S50000x256, .f32⟩ : BufTy).Contents (Elt F)) ]

/-- Layer 1: operations 52 to 99. -/
abbrev opsLayer1 : List (HloOp τ sig (Elt F)) := opsAgg1 ++ opsFin1

/-- Layer 2, the mean over in-neighbours: operations 100 to 124. -/
def opsAgg2 : List (HloOp τ sig (Elt F)) :=
  [ nullary main_c_12 (constantI S_ 32 0#32),
    unary main_c_12 main_v74 (broadcastInDim S800000 ![] bcast_S_S800000 : (⟨S_, .i32⟩ : BufTy).Contents (Elt F) → (⟨S800000, .i32⟩ : BufTy).Contents (Elt F)),
    binary main_arg1 main_v74 main_v75 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v76 (broadcastInDim S800000 ![] bcast_S_S800000 : (⟨S_, .i32⟩ : BufTy).Contents (Elt F) → (⟨S800000, .i32⟩ : BufTy).Contents (Elt F)),
    binary main_arg1 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_arg1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v78 main_v79 (broadcastInDim S800000x1 ![0] bcast_S800000_S800000x1_0 : (⟨S800000, .i32⟩ : BufTy).Contents (Elt F) → (⟨S800000x1, .i32⟩ : BufTy).Contents (Elt F)),
    binary main_v73 main_v79 main_v80 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v81 (broadcastInDim S50000x256 ![] bcast_S_S50000x256 : (⟨S_, .f32⟩ : BufTy).Contents (Elt F) → (⟨S50000x256, .f32⟩ : BufTy).Contents (Elt F)),
    unary main_arg2 main_v82 (broadcastInDim S800000x1 ![0] bcast_S800000_S800000x1_0 : (⟨S800000, .i32⟩ : BufTy).Contents (Elt F) → (⟨S800000x1, .i32⟩ : BufTy).Contents (Elt F)),
    ternary main_v81 main_v82 main_v80 main_v83 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_15 (constant S_ .f32 0x3F800000#32),
    unary main_cst_15 main_v84 (broadcastInDim S800000 ![] bcast_S_S800000 : (⟨S_, .f32⟩ : BufTy).Contents (Elt F) → (⟨S800000, .f32⟩ : BufTy).Contents (Elt F)),
    nullary main_cst_16 (constant S_ .f32 0x00000000#32),
    unary main_cst_16 main_v85 (broadcastInDim S50000 ![] bcast_S_S50000 : (⟨S_, .f32⟩ : BufTy).Contents (Elt F) → (⟨S50000, .f32⟩ : BufTy).Contents (Elt F)),
    unary main_arg2 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_17 (constant S_ .f32 0x3F800000#32),
    unary main_cst_17 main_v88 (broadcastInDim S50000 ![] bcast_S_S50000 : (⟨S_, .f32⟩ : BufTy).Contents (Elt F) → (⟨S50000, .f32⟩ : BufTy).Contents (Elt F)),
    binary main_v87 main_v88 main_v89 (maximumf : (⟨S50000, .f32⟩ : BufTy).Contents (Elt F) → (⟨S50000, .f32⟩ : BufTy).Contents (Elt F) → (⟨S50000, .f32⟩ : BufTy).Contents (Elt F)),
    unary main_v89 main_v90 (broadcastInDim S50000x1 ![0] bcast_S50000_S50000x1_0 : (⟨S50000, .f32⟩ : BufTy).Contents (Elt F) → (⟨S50000x1, .f32⟩ : BufTy).Contents (Elt F)),
    unary main_v90 main_v91 (broadcastInDim S50000x256 ![0, 1] bcast_S50000x1_S50000x256_0_1 : (⟨S50000x1, .f32⟩ : BufTy).Contents (Elt F) → (⟨S50000x256, .f32⟩ : BufTy).Contents (Elt F)),
    binary main_v83 main_v91 main_v92 (Host.divf : (⟨S50000x256, .f32⟩ : BufTy).Contents (Elt F) → (⟨S50000x256, .f32⟩ : BufTy).Contents (Elt F) → (⟨S50000x256, .f32⟩ : BufTy).Contents (Elt F)) ]

/-- Layer 2, from the joined table to the layer's output: operations 125 to 147. -/
def opsFin2 : List (HloOp τ sig (Elt F)) :=
  [ binary main_v73 main_v92 main_v93 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    unary main_arg6 main_v94 ((extractStridedSlice S1x512x256 ![2, 0, 0] · slices_S4x512x256_S1x512x256_2_0_0) : (⟨S4x512x256, .f32⟩ : BufTy).Contents (Elt F) → (⟨S1x512x256, .f32⟩ : BufTy).Contents (Elt F)),
    reshape main_v94 main_v95 rfl shapeCasts_S1x512x256_S512x256,
    binary main_v93 main_v95 main_v96 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg7 main_v97 ((extractStridedSlice S1x256 ![2, 0] · slices_S4x256_S1x256_2_0) : (⟨S4x256, .f32⟩ : BufTy).Contents (Elt F) → (⟨S1x256, .f32⟩ : BufTy).Contents (Elt F)),
    reshape main_v97 main_v98 rfl shapeCasts_S1x256_S256,
    unary main_v98 main_v99 (broadcastInDim S1x256 ![1] bcast_S256_S1x256_1 : (⟨S256, .f32⟩ : BufTy).Contents (Elt F) → (⟨S1x256, .f32⟩ : BufTy).Contents (Elt F)),
    unary main_v99 main_v100 (broadcastInDim S50000x256 ![0, 1] bcast_S1x256_S50000x256_0_1 : (⟨S1x256, .f32⟩ : BufTy).Contents (Elt F) → (⟨S50000x256, .f32⟩ : BufTy).Contents (Elt F)),
    binary main_v96 main_v100 main_v101 (addf : (⟨S50000x256, .f32⟩ : BufTy).Contents (Elt F) → (⟨S50000x256, .f32⟩ : BufTy).Contents (Elt F) → (⟨S50000x256, .f32⟩ : BufTy).Contents (Elt F)),
    TRef.binary (TRef.of (T := ⟨S50000x256, .f32⟩) main_v101) (TRef.of (T := ⟨S50000x256, .f32⟩) main_v101) (TRef.of (T := ⟨S50000x256, .f32⟩) main_call4_v0) mulf,
    TRef.nullary (TRef.of (T := ⟨S_, .f32⟩) main_call4_cst) (constant S_ .f32 0x00000000#32),
    TRef.binary (TRef.of (T := ⟨S50000x256, .f32⟩) main_call4_v0) (TRef.of (T := ⟨S_, .f32⟩) main_call4_cst) (TRef.of (T := ⟨S50000, .f32⟩) main_call4_v1) (fun x v => Host.reduceAdd x v reducesTo_S50000x256_S50000_d1 h_S_),
    TRef.unary (TRef.of (T := ⟨S50000, .f32⟩) main_call4_v1) (TRef.of (T := ⟨S50000x1, .f32⟩) main_call4_v2) (broadcastInDim S50000x1 ![0] bcast_S50000_S50000x1_0),
    TRef.unary (TRef.of (T := ⟨S50000x1, .f32⟩) main_call4_v2) (TRef.of (T := ⟨S50000x1, .f32⟩) main_v102) Host.sqrt,
    nullary main_cst_18 (constant S_ .f32 0x2B8CBCCC#32),
    unary main_cst_18 main_v103 (broadcastInDim S50000x1 ![] bcast_S_S50000x1 : (⟨S_, .f32⟩ : BufTy).Contents (Elt F) → (⟨S50000x1, .f32⟩ : BufTy).Contents (Elt F)),
    binary main_v102 main_v103 main_v104 (maximumf : (⟨S50000x1, .f32⟩ : BufTy).Contents (Elt F) → (⟨S50000x1, .f32⟩ : BufTy).Contents (Elt F) → (⟨S50000x1, .f32⟩ : BufTy).Contents (Elt F)),
    unary main_v104 main_v105 (broadcastInDim S50000x256 ![0, 1] bcast_S50000x1_S50000x256_0_1 : (⟨S50000x1, .f32⟩ : BufTy).Contents (Elt F) → (⟨S50000x256, .f32⟩ : BufTy).Contents (Elt F)),
    binary main_v101 main_v105 main_v106 (Host.divf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x256, .f32⟩) main_call5_v0) (broadcastInDim S50000x256 ![] bcast_S_S50000x256),
    TRef.binary (TRef.of (T := ⟨S50000x256, .f32⟩) main_v106) (TRef.of (T := ⟨S50000x256, .f32⟩) main_call5_v0) (TRef.of (T := ⟨S50000x256, .f32⟩) main_v107) maximumf,
    binary main_v73 main_v107 main_v108 (addf : (⟨S50000x256, .f32⟩ : BufTy).Contents (Elt F) → (⟨S50000x256, .f32⟩ : BufTy).Contents (Elt F) → (⟨S50000x256, .f32⟩ : BufTy).Contents (Elt F)) ]

/-- Layer 2: operations 100 to 147. -/
abbrev opsLayer2 : List (HloOp τ sig (Elt F)) := opsAgg2 ++ opsFin2

/-- Layer 3, the mean over in-neighbours: operations 148 to 172. -/
def opsAgg3 : List (HloOp τ sig (Elt F)) :=
  [ nullary main_c_19 (constantI S_ 32 0#32),
    unary main_c_19 main_v109 (broadcastInDim S800000 ![] bcast_S_S800000 : (⟨S_, .i32⟩ : BufTy).Contents (Elt F) → (⟨S800000, .i32⟩ : BufTy).Contents (Elt F)),
    binary main_arg1 main_v109 main_v110 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v111 (broadcastInDim S800000 ![] bcast_S_S800000 : (⟨S_, .i32⟩ : BufTy).Contents (Elt F) → (⟨S800000, .i32⟩ : BufTy).Contents (Elt F)),
    binary main_arg1 main_v111 main_v112 (addi : (⟨S800000, .i32⟩ : BufTy).Contents (Elt F) → (⟨S800000, .i32⟩ : BufTy).Contents (Elt F) → (⟨S800000, .i32⟩ : BufTy).Contents (Elt F)),
    ternary main_v110 main_v112 main_arg1 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v113 main_v114 (broadcastInDim S800000x1 ![0] bcast_S800000_S800000x1_0 : (⟨S800000, .i32⟩ : BufTy).Contents (Elt F) → (⟨S800000x1, .i32⟩ : BufTy).Contents (Elt F)),
    binary main_v108 main_v114 main_v115 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_21 (constant S_ .f32 0x00000000#32),
    unary main_cst_21 main_v116 (broadcastInDim S50000x256 ![] bcast_S_S50000x256 : (⟨S_, .f32⟩ : BufTy).Contents (Elt F) → (⟨S50000x256, .f32⟩ : BufTy).Contents (Elt F)),
    unary main_arg2 main_v117 (broadcastInDim S800000x1 ![0] bcast_S800000_S800000x1_0 : (⟨S800000, .i32⟩ : BufTy).Contents (Elt F) → (⟨S800000x1, .i32⟩ : BufTy).Contents (Elt F)),
    ternary main_v116 main_v117 main_v115 main_v118 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_22 (constant S_ .f32 0x3F800000#32),
    unary main_cst_22 main_v119 (broadcastInDim S800000 ![] bcast_S_S800000 : (⟨S_, .f32⟩ : BufTy).Contents (Elt F) → (⟨S800000, .f32⟩ : BufTy).Contents (Elt F)),
    nullary main_cst_23 (constant S_ .f32 0x00000000#32),
    unary main_cst_23 main_v120 (broadcastInDim S50000 ![] bcast_S_S50000 : (⟨S_, .f32⟩ : BufTy).Contents (Elt F) → (⟨S50000, .f32⟩ : BufTy).Contents (Elt F)),
    unary main_arg2 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_24 (constant S_ .f32 0x3F800000#32),
    unary main_cst_24 main_v123 (broadcastInDim S50000 ![] bcast_S_S50000 : (⟨S_, .f32⟩ : BufTy).Contents (Elt F) → (⟨S50000, .f32⟩ : BufTy).Contents (Elt F)),
    binary main_v122 main_v123 main_v124 (maximumf : (⟨S50000, .f32⟩ : BufTy).Contents (Elt F) → (⟨S50000, .f32⟩ : BufTy).Contents (Elt F) → (⟨S50000, .f32⟩ : BufTy).Contents (Elt F)),
    unary main_v124 main_v125 (broadcastInDim S50000x1 ![0] bcast_S50000_S50000x1_0 : (⟨S50000, .f32⟩ : BufTy).Contents (Elt F) → (⟨S50000x1, .f32⟩ : BufTy).Contents (Elt F)),
    unary main_v125 main_v126 (broadcastInDim S50000x256 ![0, 1] bcast_S50000x1_S50000x256_0_1 : (⟨S50000x1, .f32⟩ : BufTy).Contents (Elt F) → (⟨S50000x256, .f32⟩ : BufTy).Contents (Elt F)),
    binary main_v118 main_v126 main_v127 (Host.divf : (⟨S50000x256, .f32⟩ : BufTy).Contents (Elt F) → (⟨S50000x256, .f32⟩ : BufTy).Contents (Elt F) → (⟨S50000x256, .f32⟩ : BufTy).Contents (Elt F)) ]

/-- Layer 3, from the joined table to the layer's output: operations 173 to 195. -/
def opsFin3 : List (HloOp τ sig (Elt F)) :=
  [ binary main_v108 main_v127 main_v128 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    unary main_arg6 main_v129 ((extractStridedSlice S1x512x256 ![3, 0, 0] · slices_S4x512x256_S1x512x256_3_0_0) : (⟨S4x512x256, .f32⟩ : BufTy).Contents (Elt F) → (⟨S1x512x256, .f32⟩ : BufTy).Contents (Elt F)),
    reshape main_v129 main_v130 rfl shapeCasts_S1x512x256_S512x256,
    binary main_v128 main_v130 main_v131 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg7 main_v132 ((extractStridedSlice S1x256 ![3, 0] · slices_S4x256_S1x256_3_0) : (⟨S4x256, .f32⟩ : BufTy).Contents (Elt F) → (⟨S1x256, .f32⟩ : BufTy).Contents (Elt F)),
    reshape main_v132 main_v133 rfl shapeCasts_S1x256_S256,
    unary main_v133 main_v134 (broadcastInDim S1x256 ![1] bcast_S256_S1x256_1 : (⟨S256, .f32⟩ : BufTy).Contents (Elt F) → (⟨S1x256, .f32⟩ : BufTy).Contents (Elt F)),
    unary main_v134 main_v135 (broadcastInDim S50000x256 ![0, 1] bcast_S1x256_S50000x256_0_1 : (⟨S1x256, .f32⟩ : BufTy).Contents (Elt F) → (⟨S50000x256, .f32⟩ : BufTy).Contents (Elt F)),
    binary main_v131 main_v135 main_v136 (addf : (⟨S50000x256, .f32⟩ : BufTy).Contents (Elt F) → (⟨S50000x256, .f32⟩ : BufTy).Contents (Elt F) → (⟨S50000x256, .f32⟩ : BufTy).Contents (Elt F)),
    TRef.binary (TRef.of (T := ⟨S50000x256, .f32⟩) main_v136) (TRef.of (T := ⟨S50000x256, .f32⟩) main_v136) (TRef.of (T := ⟨S50000x256, .f32⟩) main_call6_v0) mulf,
    TRef.nullary (TRef.of (T := ⟨S_, .f32⟩) main_call6_cst) (constant S_ .f32 0x00000000#32),
    TRef.binary (TRef.of (T := ⟨S50000x256, .f32⟩) main_call6_v0) (TRef.of (T := ⟨S_, .f32⟩) main_call6_cst) (TRef.of (T := ⟨S50000, .f32⟩) main_call6_v1) (fun x v => Host.reduceAdd x v reducesTo_S50000x256_S50000_d1 h_S_),
    TRef.unary (TRef.of (T := ⟨S50000, .f32⟩) main_call6_v1) (TRef.of (T := ⟨S50000x1, .f32⟩) main_call6_v2) (broadcastInDim S50000x1 ![0] bcast_S50000_S50000x1_0),
    TRef.unary (TRef.of (T := ⟨S50000x1, .f32⟩) main_call6_v2) (TRef.of (T := ⟨S50000x1, .f32⟩) main_v137) Host.sqrt,
    nullary main_cst_25 (constant S_ .f32 0x2B8CBCCC#32),
    unary main_cst_25 main_v138 (broadcastInDim S50000x1 ![] bcast_S_S50000x1 : (⟨S_, .f32⟩ : BufTy).Contents (Elt F) → (⟨S50000x1, .f32⟩ : BufTy).Contents (Elt F)),
    binary main_v137 main_v138 main_v139 (maximumf : (⟨S50000x1, .f32⟩ : BufTy).Contents (Elt F) → (⟨S50000x1, .f32⟩ : BufTy).Contents (Elt F) → (⟨S50000x1, .f32⟩ : BufTy).Contents (Elt F)),
    unary main_v139 main_v140 (broadcastInDim S50000x256 ![0, 1] bcast_S50000x1_S50000x256_0_1 : (⟨S50000x1, .f32⟩ : BufTy).Contents (Elt F) → (⟨S50000x256, .f32⟩ : BufTy).Contents (Elt F)),
    binary main_v136 main_v140 main_v141 (Host.divf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x256, .f32⟩) main_call7_v0) (broadcastInDim S50000x256 ![] bcast_S_S50000x256),
    TRef.binary (TRef.of (T := ⟨S50000x256, .f32⟩) main_v141) (TRef.of (T := ⟨S50000x256, .f32⟩) main_call7_v0) (TRef.of (T := ⟨S50000x256, .f32⟩) main_v142) maximumf,
    binary main_v108 main_v142 main_v143 (addf : (⟨S50000x256, .f32⟩ : BufTy).Contents (Elt F) → (⟨S50000x256, .f32⟩ : BufTy).Contents (Elt F) → (⟨S50000x256, .f32⟩ : BufTy).Contents (Elt F)) ]

/-- Layer 3: operations 148 to 195. -/
abbrev opsLayer3 : List (HloOp τ sig (Elt F)) := opsAgg3 ++ opsFin3

/-- After the last layer, the pooled rows and the two families of similarities: operations 196 to 243. -/
def opsSim : List (HloOp τ sig (Elt F)) :=
  [ nullary main_cst_26 (constant S_ .f32 0x00000000#32),
    unary main_cst_26 main_v144 (broadcastInDim S64x256 ![] bcast_S_S64x256 : (⟨S_, .f32⟩ : BufTy).Contents (Elt F) → (⟨S64x256, .f32⟩ : BufTy).Contents (Elt F)),
    unary main_arg3 main_v145 (broadcastInDim S50000x1 ![0] bcast_S50000_S50000x1_0 : (⟨S50000, .i32⟩ : BufTy).Contents (Elt F) → (⟨S50000x1, .i32⟩ : BufTy).Contents (Elt F)),
    ternary main_v144 main_v145 main_v143 main_v146 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    nullary main_cst_27 (constant S_ .f32 0x3F800000#32),
    unary main_cst_27 main_v147 (broadcastInDim S50000 ![] bcast_S_S50000 : (⟨S_, .f32⟩ : BufTy).Contents (Elt F) → (⟨S50000, .f32⟩ : BufTy).Contents (Elt F)),
    nullary main_cst_28 (constant S_ .f32 0x00000000#32),
    unary main_cst_28 main_v148 (broadcastInDim S64 ![] bcast_S_S64 : (⟨S_, .f32⟩ : BufTy).Contents (Elt F) → (⟨S64, .f32⟩ : BufTy).Contents (Elt F)),
    unary main_arg3 main_v149 (broadcastInDim S50000x1 ![0] bcast_S50000_S50000x1_0 : (⟨S50000, .i32⟩ : BufTy).Contents (Elt F) → (⟨S50000x1, .i32⟩ : BufTy).Contents (Elt F)),
    ternary main_v148 main_v149 main_v147 main_v150 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_29 (constant S_ .f32 0x3F800000#32),
    unary main_cst_29 main_v151 (broadcastInDim S64 ![] bcast_S_S64 : (⟨S_, .f32⟩ : BufTy).Contents (Elt F) → (⟨S64, .f32⟩ : BufTy).Contents (Elt F)),
    binary main_v150 main_v151 main_v152 (maximumf : (⟨S64, .f32⟩ : BufTy).Contents (Elt F) → (⟨S64, .f32⟩ : BufTy).Contents (Elt F) → (⟨S64, .f32⟩ : BufTy).Contents (Elt F)),
    unary main_v152 main_v153 (broadcastInDim S64x1 ![0] bcast_S64_S64x1_0 : (⟨S64, .f32⟩ : BufTy).Contents (Elt F) → (⟨S64x1, .f32⟩ : BufTy).Contents (Elt F)),
    unary main_v153 main_v154 (broadcastInDim S64x256 ![0, 1] bcast_S64x1_S64x256_0_1 : (⟨S64x1, .f32⟩ : BufTy).Contents (Elt F) → (⟨S64x256, .f32⟩ : BufTy).Contents (Elt F)),
    binary main_v146 main_v154 main_v155 (Host.divf : (⟨S64x256, .f32⟩ : BufTy).Contents (Elt F) → (⟨S64x256, .f32⟩ : BufTy).Contents (Elt F) → (⟨S64x256, .f32⟩ : BufTy).Contents (Elt F)),
    unary main_v155 main_v156 (broadcastInDim S64x1x256 ![0, 2] bcast_S64x256_S64x1x256_0_2 : (⟨S64x256, .f32⟩ : BufTy).Contents (Elt F) → (⟨S64x1x256, .f32⟩ : BufTy).Contents (Elt F)),
    unary main_arg8 main_v157 (broadcastInDim S1x5x256 ![1, 2] bcast_S5x256_S1x5x256_1_2 : (⟨S5x256, .f32⟩ : BufTy).Contents (Elt F) → (⟨S1x5x256, .f32⟩ : BufTy).Contents (Elt F)),
    unary main_v156 main_v158 (broadcastInDim S64x5x256 ![0, 1, 2] bcast_S64x1x256_S64x5x256_0_1_2 : (⟨S64x1x256, .f32⟩ : BufTy).Contents (Elt F) → (⟨S64x5x256, .f32⟩ : BufTy).Contents (Elt F)),
    unary main_v157 main_v159 (broadcastInDim S64x5x256 ![0, 1, 2] bcast_S1x5x256_S64x5x256_0_1_2 : (⟨S1x5x256, .f32⟩ : BufTy).Contents (Elt F) → (⟨S64x5x256, .f32⟩ : BufTy).Contents (Elt F)),
    binary main_v158 main_v159 main_v160 (subf : (⟨S64x5x256, .f32⟩ : BufTy).Contents (Elt F) → (⟨S64x5x256, .f32⟩ : BufTy).Contents (Elt F) → (⟨S64x5x256, .f32⟩ : BufTy).Contents (Elt F)),
    binary main_v160 main_v160 main_v161 (mulf : (⟨S64x5x256, .f32⟩ : BufTy).Contents (Elt F) → (⟨S64x5x256, .f32⟩ : BufTy).Contents (Elt F) → (⟨S64x5x256, .f32⟩ : BufTy).Contents (Elt F)),
    nullary main_cst_30 (constant S_ .f32 0x00000000#32),
    binary main_v161 main_cst_30 main_v162 ((fun x v => Host.reduceAdd x v reducesTo_S64x5x256_S64x5_d2 h_S_) : (⟨S64x5x256, .f32⟩ : BufTy).Contents (Elt F) → (⟨S_, .f32⟩ : BufTy).Contents (Elt F) → (⟨S64x5, .f32⟩ : BufTy).Contents (Elt F)),
    nullary main_cst_31 (constant S_ .f32 0x3F800000#32),
    unary main_cst_31 main_v163 (broadcastInDim S64x5 ![] bcast_S_S64x5 : (⟨S_, .f32⟩ : BufTy).Contents (Elt F) → (⟨S64x5, .f32⟩ : BufTy).Contents (Elt F)),
    binary main_v162 main_v163 main_v164 (addf : (⟨S64x5, .f32⟩ : BufTy).Contents (Elt F) → (⟨S64x5, .f32⟩ : BufTy).Contents (Elt F) → (⟨S64x5, .f32⟩ : BufTy).Contents (Elt F)),
    nullary main_cst_32 (constant S_ .f32 0x2B8CBCCC#32),
    unary main_cst_32 main_v165 (broadcastInDim S64x5 ![] bcast_S_S64x5 : (⟨S_, .f32⟩ : BufTy).Contents (Elt F) → (⟨S64x5, .f32⟩ : BufTy).Contents (Elt F)),
    binary main_v162 main_v165 main_v166 (addf : (⟨S64x5, .f32⟩ : BufTy).Contents (Elt F) → (⟨S64x5, .f32⟩ : BufTy).Contents (Elt F) → (⟨S64x5, .f32⟩ : BufTy).Contents (Elt F)),
    binary main_v164 main_v166 main_v167 (Host.divf : (⟨S64x5, .f32⟩ : BufTy).Contents (Elt F) → (⟨S64x5, .f32⟩ : BufTy).Contents (Elt F) → (⟨S64x5, .f32⟩ : BufTy).Contents (Elt F)),
    unary main_v167 main_v168 (Host.log : (⟨S64x5, .f32⟩ : BufTy).Contents (Elt F) → (⟨S64x5, .f32⟩ : BufTy).Contents (Elt F)),
    unary main_v155 main_v169 (broadcastInDim S64x1x256 ![0, 2] bcast_S64x256_S64x1x256_0_2 : (⟨S64x256, .f32⟩ : BufTy).Contents (Elt F) → (⟨S64x1x256, .f32⟩ : BufTy).Contents (Elt F)),
    unary main_arg9 main_v170 (broadcastInDim S1x5x256 ![1, 2] bcast_S5x256_S1x5x256_1_2 : (⟨S5x256, .f32⟩ : BufTy).Contents (Elt F) → (⟨S1x5x256, .f32⟩ : BufTy).Contents (Elt F)),
    unary main_v169 main_v171 (broadcastInDim S64x5x256 ![0, 1, 2] bcast_S64x1x256_S64x5x256_0_1_2 : (⟨S64x1x256, .f32⟩ : BufTy).Contents (Elt F) → (⟨S64x5x256, .f32⟩ : BufTy).Contents (Elt F)),
    unary main_v170 main_v172 (broadcastInDim S64x5x256 ![0, 1, 2] bcast_S1x5x256_S64x5x256_0_1_2 : (⟨S1x5x256, .f32⟩ : BufTy).Contents (Elt F) → (⟨S64x5x256, .f32⟩ : BufTy).Contents (Elt F)),
    binary main_v171 main_v172 main_v173 (subf : (⟨S64x5x256, .f32⟩ : BufTy).Contents (Elt F) → (⟨S64x5x256, .f32⟩ : BufTy).Contents (Elt F) → (⟨S64x5x256, .f32⟩ : BufTy).Contents (Elt F)),
    binary main_v173 main_v173 main_v174 (mulf : (⟨S64x5x256, .f32⟩ : BufTy).Contents (Elt F) → (⟨S64x5x256, .f32⟩ : BufTy).Contents (Elt F) → (⟨S64x5x256, .f32⟩ : BufTy).Contents (Elt F)),
    nullary main_cst_33 (constant S_ .f32 0x00000000#32),
    binary main_v174 main_cst_33 main_v175 ((fun x v => Host.reduceAdd x v reducesTo_S64x5x256_S64x5_d2 h_S_) : (⟨S64x5x256, .f32⟩ : BufTy).Contents (Elt F) → (⟨S_, .f32⟩ : BufTy).Contents (Elt F) → (⟨S64x5, .f32⟩ : BufTy).Contents (Elt F)),
    nullary main_cst_34 (constant S_ .f32 0x3F800000#32),
    unary main_cst_34 main_v176 (broadcastInDim S64x5 ![] bcast_S_S64x5 : (⟨S_, .f32⟩ : BufTy).Contents (Elt F) → (⟨S64x5, .f32⟩ : BufTy).Contents (Elt F)),
    binary main_v175 main_v176 main_v177 (addf : (⟨S64x5, .f32⟩ : BufTy).Contents (Elt F) → (⟨S64x5, .f32⟩ : BufTy).Contents (Elt F) → (⟨S64x5, .f32⟩ : BufTy).Contents (Elt F)),
    nullary main_cst_35 (constant S_ .f32 0x2B8CBCCC#32),
    unary main_cst_35 main_v178 (broadcastInDim S64x5 ![] bcast_S_S64x5 : (⟨S_, .f32⟩ : BufTy).Contents (Elt F) → (⟨S64x5, .f32⟩ : BufTy).Contents (Elt F)),
    binary main_v175 main_v178 main_v179 (addf : (⟨S64x5, .f32⟩ : BufTy).Contents (Elt F) → (⟨S64x5, .f32⟩ : BufTy).Contents (Elt F) → (⟨S64x5, .f32⟩ : BufTy).Contents (Elt F)),
    binary main_v177 main_v179 main_v180 (Host.divf : (⟨S64x5, .f32⟩ : BufTy).Contents (Elt F) → (⟨S64x5, .f32⟩ : BufTy).Contents (Elt F) → (⟨S64x5, .f32⟩ : BufTy).Contents (Elt F)),
    unary main_v180 main_v181 (Host.log : (⟨S64x5, .f32⟩ : BufTy).Contents (Elt F) → (⟨S64x5, .f32⟩ : BufTy).Contents (Elt F)) ]

/-- The linear head and the logistic: operations 244 to 255. -/
def opsHead : List (HloOp τ sig (Elt F)) :=
  [ binary main_v168 main_v181 main_v182 ((fun a b => concatenate S64x10 1 [⟨S64x5, a⟩, ⟨S64x5, b⟩] concatenates_S64x5_S64x5_S64x10_d1) : (⟨S64x5, .f32⟩ : BufTy).Contents (Elt F) → (⟨S64x5, .f32⟩ : BufTy).Contents (Elt F) → (⟨S64x10, .f32⟩ : BufTy).Contents (Elt F)),
    unary main_arg10 main_v183 ((transpose S10x1 [1, 0] · transposes_S1x10_S10x1_1_0) : (⟨S1x10, .f32⟩ : BufTy).Contents (Elt F) → (⟨S10x1, .f32⟩ : BufTy).Contents (Elt F)),
    binary main_v182 main_v183 main_v184 ((fun l r => Host.dotGeneral dot_S64x10_S10x1_S64x1_1_0_0_1_n_n none l r) : (⟨S64x10, .f32⟩ : BufTy).Contents (Elt F) → (⟨S10x1, .f32⟩ : BufTy).Contents (Elt F) → (⟨S64x1, .f32⟩ : BufTy).Contents (Elt F)),
    unary main_v184 main_v185 (Host.negf : (⟨S64x1, .f32⟩ : BufTy).Contents (Elt F) → (⟨S64x1, .f32⟩ : BufTy).Contents (Elt F)),
    unary main_v185 main_v186 (Host.exp : (⟨S64x1, .f32⟩ : BufTy).Contents (Elt F) → (⟨S64x1, .f32⟩ : BufTy).Contents (Elt F)),
    nullary main_cst_36 (constant S_ .f32 0x3F800000#32),
    unary main_cst_36 main_v187 (broadcastInDim S64x1 ![] bcast_S_S64x1 : (⟨S_, .f32⟩ : BufTy).Contents (Elt F) → (⟨S64x1, .f32⟩ : BufTy).Contents (Elt F)),
    binary main_v187 main_v186 main_v188 (addf : (⟨S64x1, .f32⟩ : BufTy).Contents (Elt F) → (⟨S64x1, .f32⟩ : BufTy).Contents (Elt F) → (⟨S64x1, .f32⟩ : BufTy).Contents (Elt F)),
    nullary main_cst_37 (constant S_ .f32 0x3F800000#32),
    unary main_cst_37 main_v189 (broadcastInDim S64x1 ![] bcast_S_S64x1 : (⟨S_, .f32⟩ : BufTy).Contents (Elt F) → (⟨S64x1, .f32⟩ : BufTy).Contents (Elt F)),
    binary main_v189 main_v188 main_v190 (Host.divf : (⟨S64x1, .f32⟩ : BufTy).Contents (Elt F) → (⟨S64x1, .f32⟩ : BufTy).Contents (Elt F) → (⟨S64x1, .f32⟩ : BufTy).Contents (Elt F)),
    reshape main_v190 main_v191 rfl shapeCasts_S64x1_S64 ]

/-- Everything after the last layer: operations 196 to 255. -/
abbrev opsTail : List (HloOp τ sig (Elt F)) := opsSim ++ opsHead

set_option maxRecDepth 8192 in
/-- The program's line is the six stretches in order. -/
theorem ops_eq : (RefRun.ops : List (HloOp τ sig (Elt F)))
    = opsEmbed ++ (opsLayer0 ++ (opsLayer1 ++ (opsLayer2 ++ (opsLayer3 ++ opsTail)))) := rfl

end Stretches

/-- The program's eleven arguments. -/
def argRefs : List (Ref sig .tc) := [main_arg0, main_arg1, main_arg2, main_arg3, main_arg4, main_arg5, main_arg6, main_arg7, main_arg8, main_arg9, main_arg10]

/-- A line keeps the arguments: from any contents, each argument's buffer holds after the line what it held before. -/
def Keeps (s : List (HloOp τ sig (Elt Ideal))) : Prop :=
  ∀ (W : Valuation τ sig (Elt Ideal)) (r : Ref sig .tc), r ∈ argRefs → after s W (Proc.devRef .tc r) = W (Proc.devRef .tc r)

/-- Two lines that keep the arguments, run one after the other, keep them. -/
theorem Keeps.append {s₁ s₂ : List (HloOp τ sig (Elt Ideal))} (h₁ : Keeps s₁) (h₂ : Keeps s₂) : Keeps (s₁ ++ s₂) :=
  fun W r hr => by rw [after_append, h₂ _ r hr, h₁ W r hr]

/-! ## The embedding -/

/-- The embedding's result is the embedding of the three buffers it reads. -/
theorem embed_value (W : Valuation τ sig (Elt Ideal)) :
    after (opsEmbed (F := Ideal)) W (Proc.devRef .tc main_v3)
      = Cert.Sage.Ref.embed (W (Proc.devRef .tc main_arg0)) (W (Proc.devRef .tc main_arg4)) (W (Proc.devRef .tc main_arg5)) := by
  unfold opsEmbed
  after_results
  rfl

set_option maxRecDepth 8192 in
/-- The embedding writes no argument. -/
theorem keeps_embed : Keeps (opsEmbed (F := Ideal)) := by
  intro W r hr
  unfold opsEmbed
  fin_cases hr <;> after_results_simp

/-! ## Layer 0 -/

set_option maxRecDepth 8192 in
/-- The first half of layer 0 leaves the mean of the input table's rows over the in-neighbours. -/
theorem agg0_value (W : Valuation τ sig (Elt Ideal)) :
    after (opsAgg0 (F := Ideal)) W (Proc.devRef .tc main_v22)
      = Cert.Sage.agg (W (Proc.devRef .tc main_v3)) (W (Proc.devRef .tc main_arg1)) (W (Proc.devRef .tc main_arg2)) := by
  unfold opsAgg0
  after_results_simp
  rfl

set_option maxRecDepth 8192 in
/-- The first half of layer 0 does not write the layer's input table. -/
theorem agg0_input (W : Valuation τ sig (Elt Ideal)) :
    after (opsAgg0 (F := Ideal)) W (Proc.devRef .tc main_v3) = W (Proc.devRef .tc main_v3) := by
  unfold opsAgg0
  after_results_simp

set_option maxRecDepth 8192 in
/-- The first half of layer 0 writes no argument. -/
theorem keeps_agg0 : Keeps (opsAgg0 (F := Ideal)) := by
  intro W r hr
  unfold opsAgg0
  fin_cases hr <;> after_results_simp

set_option maxRecDepth 8192 in
/-- The second half of layer 0: the pre-activation of the joined table, rows scaled by their clamped length, cut at
    zero, added to the input table. -/
theorem fin0_value (W : Valuation τ sig (Elt Ideal)) :
    after (opsFin0 (F := Ideal)) W (Proc.devRef .tc main_v38)
      = Cert.Sage.finish (W (Proc.devRef .tc main_v3)) (Cert.Sage.Ref.pre0 (W (Proc.devRef .tc main_v3)) (W (Proc.devRef .tc main_v22)) (W (Proc.devRef .tc main_arg6)) (W (Proc.devRef .tc main_arg7))) := by
  unfold opsFin0
  after_results_simp
  rfl

set_option maxRecDepth 8192 in
/-- The second half of layer 0 writes no argument. -/
theorem keeps_fin0 : Keeps (opsFin0 (F := Ideal)) := by
  intro W r hr
  unfold opsFin0
  fin_cases hr <;> after_results_simp

/-- Layer 0 writes no argument. -/
theorem keeps_layer0 : Keeps (opsLayer0 (F := Ideal)) := keeps_agg0.append keeps_fin0

/-- Layer 0's result is the reference's layer 0 of the input table, the edge lists, the weights and the biases. -/
theorem layer0_value (W : Valuation τ sig (Elt Ideal)) :
    after (opsLayer0 (F := Ideal)) W (Proc.devRef .tc main_v38)
      = Cert.Sage.rstep0 (W (Proc.devRef .tc main_v3)) (W (Proc.devRef .tc main_arg1)) (W (Proc.devRef .tc main_arg2)) (W (Proc.devRef .tc main_arg6)) (W (Proc.devRef .tc main_arg7)) := by
  rw [after_append, fin0_value, agg0_value, agg0_input, keeps_agg0 W main_arg6 (by decide), keeps_agg0 W main_arg7 (by decide)]
  rfl

/-! ## Layer 1 -/

set_option maxRecDepth 8192 in
/-- The first half of layer 1 leaves the mean of the input table's rows over the in-neighbours. -/
theorem agg1_value (W : Valuation τ sig (Elt Ideal)) :
    after (opsAgg1 (F := Ideal)) W (Proc.devRef .tc main_v57)
      = Cert.Sage.agg (W (Proc.devRef .tc main_v38)) (W (Proc.devRef .tc main_arg1)) (W (Proc.devRef .tc main_arg2)) := by
  unfold opsAgg1
  after_results_simp
  rfl

set_option maxRecDepth 8192 in
/-- The first half of layer 1 does not write the layer's input table. -/
theorem agg1_input (W : Valuation τ sig (Elt Ideal)) :
    after (opsAgg1 (F := Ideal)) W (Proc.devRef .tc main_v38) = W (Proc.devRef .tc main_v38) := by
  unfold opsAgg1
  after_results_simp

set_option maxRecDepth 8192 in
/-- The first half of layer 1 writes no argument. -/
theorem keeps_agg1 : Keeps (opsAgg1 (F := Ideal)) := by
  intro W r hr
  unfold opsAgg1
  fin_cases hr <;> after_results_simp

set_option maxRecDepth 8192 in
/-- The second half of layer 1: the pre-activation of the joined table, rows scaled by their clamped length, cut at
    zero, added to the input table. -/
theorem fin1_value (W : Valuation τ sig (Elt Ideal)) :
    after (opsFin1 (F := Ideal)) W (Proc.devRef .tc main_v73)
      = Cert.Sage.finish (W (Proc.devRef .tc main_v38)) (Cert.Sage.Ref.pre1 (W (Proc.devRef .tc main_v38)) (W (Proc.devRef .tc main_v57)) (W (Proc.devRef .tc main_arg6)) (W (Proc.devRef .tc main_arg7))) := by
  unfold opsFin1
  after_results_simp
  rfl

set_option maxRecDepth 8192 in
/-- The second half of layer 1 writes no argument. -/
theorem keeps_fin1 : Keeps (opsFin1 (F := Ideal)) := by
  intro W r hr
  unfold opsFin1
  fin_cases hr <;> after_results_simp

/-- Layer 1 writes no argument. -/
theorem keeps_layer1 : Keeps (opsLayer1 (F := Ideal)) := keeps_agg1.append keeps_fin1

/-- Layer 1's result is the reference's layer 1 of the input table, the edge lists, the weights and the biases. -/
theorem layer1_value (W : Valuation τ sig (Elt Ideal)) :
    after (opsLayer1 (F := Ideal)) W (Proc.devRef .tc main_v73)
      = Cert.Sage.rstep1 (W (Proc.devRef .tc main_v38)) (W (Proc.devRef .tc main_arg1)) (W (Proc.devRef .tc main_arg2)) (W (Proc.devRef .tc main_arg6)) (W (Proc.devRef .tc main_arg7)) := by
  rw [after_append, fin1_value, agg1_value, agg1_input, keeps_agg1 W main_arg6 (by decide), keeps_agg1 W main_arg7 (by decide)]
  rfl

/-! ## Layer 2 -/

set_option maxRecDepth 8192 in
/-- The first half of layer 2 leaves the mean of the input table's rows over the in-neighbours. -/
theorem agg2_value (W : Valuation τ sig (Elt Ideal)) :
    after (opsAgg2 (F := Ideal)) W (Proc.devRef .tc main_v92)
      = Cert.Sage.agg (W (Proc.devRef .tc main_v73)) (W (Proc.devRef .tc main_arg1)) (W (Proc.devRef .tc main_arg2)) := by
  unfold opsAgg2
  after_results_simp
  rfl

set_option maxRecDepth 8192 in
/-- The first half of layer 2 does not write the layer's input table. -/
theorem agg2_input (W : Valuation τ sig (Elt Ideal)) :
    after (opsAgg2 (F := Ideal)) W (Proc.devRef .tc main_v73) = W (Proc.devRef .tc main_v73) := by
  unfold opsAgg2
  after_results_simp

set_option maxRecDepth 8192 in
/-- The first half of layer 2 writes no argument. -/
theorem keeps_agg2 : Keeps (opsAgg2 (F := Ideal)) := by
  intro W r hr
  unfold opsAgg2
  fin_cases hr <;> after_results_simp

set_option maxRecDepth 8192 in
/-- The second half of layer 2: the pre-activation of the joined table, rows scaled by their clamped length, cut at
    zero, added to the input table. -/
theorem fin2_value (W : Valuation τ sig (Elt Ideal)) :
    after (opsFin2 (F := Ideal)) W (Proc.devRef .tc main_v108)
      = Cert.Sage.finish (W (Proc.devRef .tc main_v73)) (Cert.Sage.Ref.pre2 (W (Proc.devRef .tc main_v73)) (W (Proc.devRef .tc main_v92)) (W (Proc.devRef .tc main_arg6)) (W (Proc.devRef .tc main_arg7))) := by
  unfold opsFin2
  after_results_simp
  rfl

set_option maxRecDepth 8192 in
/-- The second half of layer 2 writes no argument. -/
theorem keeps_fin2 : Keeps (opsFin2 (F := Ideal)) := by
  intro W r hr
  unfold opsFin2
  fin_cases hr <;> after_results_simp

/-- Layer 2 writes no argument. -/
theorem keeps_layer2 : Keeps (opsLayer2 (F := Ideal)) := keeps_agg2.append keeps_fin2

/-- Layer 2's result is the reference's layer 2 of the input table, the edge lists, the weights and the biases. -/
theorem layer2_value (W : Valuation τ sig (Elt Ideal)) :
    after (opsLayer2 (F := Ideal)) W (Proc.devRef .tc main_v108)
      = Cert.Sage.rstep2 (W (Proc.devRef .tc main_v73)) (W (Proc.devRef .tc main_arg1)) (W (Proc.devRef .tc main_arg2)) (W (Proc.devRef .tc main_arg6)) (W (Proc.devRef .tc main_arg7)) := by
  rw [after_append, fin2_value, agg2_value, agg2_input, keeps_agg2 W main_arg6 (by decide), keeps_agg2 W main_arg7 (by decide)]
  rfl

/-! ## Layer 3 -/

set_option maxRecDepth 8192 in
/-- The first half of layer 3 leaves the mean of the input table's rows over the in-neighbours. -/
theorem agg3_value (W : Valuation τ sig (Elt Ideal)) :
    after (opsAgg3 (F := Ideal)) W (Proc.devRef .tc main_v127)
      = Cert.Sage.agg (W (Proc.devRef .tc main_v108)) (W (Proc.devRef .tc main_arg1)) (W (Proc.devRef .tc main_arg2)) := by
  unfold opsAgg3
  after_results_simp
  rfl

set_option maxRecDepth 8192 in
/-- The first half of layer 3 does not write the layer's input table. -/
theorem agg3_input (W : Valuation τ sig (Elt Ideal)) :
    after (opsAgg3 (F := Ideal)) W (Proc.devRef .tc main_v108) = W (Proc.devRef .tc main_v108) := by
  unfold opsAgg3
  after_results_simp

set_option maxRecDepth 8192 in
/-- The first half of layer 3 writes no argument. -/
theorem keeps_agg3 : Keeps (opsAgg3 (F := Ideal)) := by
  intro W r hr
  unfold opsAgg3
  fin_cases hr <;> after_results_simp

set_option maxRecDepth 8192 in
/-- The second half of layer 3: the pre-activation of the joined table, rows scaled by their clamped length, cut at
    zero, added to the input table. -/
theorem fin3_value (W : Valuation τ sig (Elt Ideal)) :
    after (opsFin3 (F := Ideal)) W (Proc.devRef .tc main_v143)
      = Cert.Sage.finish (W (Proc.devRef .tc main_v108)) (Cert.Sage.Ref.pre3 (W (Proc.devRef .tc main_v108)) (W (Proc.devRef .tc main_v127)) (W (Proc.devRef .tc main_arg6)) (W (Proc.devRef .tc main_arg7))) := by
  unfold opsFin3
  after_results_simp
  rfl

set_option maxRecDepth 8192 in
/-- The second half of layer 3 writes no argument. -/
theorem keeps_fin3 : Keeps (opsFin3 (F := Ideal)) := by
  intro W r hr
  unfold opsFin3
  fin_cases hr <;> after_results_simp

/-- Layer 3 writes no argument. -/
theorem keeps_layer3 : Keeps (opsLayer3 (F := Ideal)) := keeps_agg3.append keeps_fin3

/-- Layer 3's result is the reference's layer 3 of the input table, the edge lists, the weights and the biases. -/
theorem layer3_value (W : Valuation τ sig (Elt Ideal)) :
    after (opsLayer3 (F := Ideal)) W (Proc.devRef .tc main_v143)
      = Cert.Sage.rstep3 (W (Proc.devRef .tc main_v108)) (W (Proc.devRef .tc main_arg1)) (W (Proc.devRef .tc main_arg2)) (W (Proc.devRef .tc main_arg6)) (W (Proc.devRef .tc main_arg7)) := by
  rw [after_append, fin3_value, agg3_value, agg3_input, keeps_agg3 W main_arg6 (by decide), keeps_agg3 W main_arg7 (by decide)]
  rfl

/-! ## After the last layer -/

set_option maxRecDepth 8192 in
/-- The similarities of the pooled rows to the first family of prototypes. -/
theorem sim_value_p (W : Valuation τ sig (Elt Ideal)) :
    after (opsSim (F := Ideal)) W (Proc.devRef .tc main_v168)
      = Cert.Sage.simOf (Cert.Sage.sqd (Cert.Sage.pool (W (Proc.devRef .tc main_v143)) (W (Proc.devRef .tc main_arg3))) (W (Proc.devRef .tc main_arg8))) := by
  unfold opsSim
  after_results_simp
  rfl

set_option maxRecDepth 8192 in
/-- The similarities of the pooled rows to the second family of prototypes. -/
theorem sim_value_n (W : Valuation τ sig (Elt Ideal)) :
    after (opsSim (F := Ideal)) W (Proc.devRef .tc main_v181)
      = Cert.Sage.simOf (Cert.Sage.sqd (Cert.Sage.pool (W (Proc.devRef .tc main_v143)) (W (Proc.devRef .tc main_arg3))) (W (Proc.devRef .tc main_arg9))) := by
  unfold opsSim
  after_results_simp
  rfl

set_option maxRecDepth 8192 in
set_option maxHeartbeats 2000000 in
/-- The pooling and the similarities write no argument. -/
theorem keeps_sim : Keeps (opsSim (F := Ideal)) := by
  intro W r hr
  unfold opsSim
  fin_cases hr <;> after_results_simp

/-- The head's result is the logistic of the linear head on the two families of similarities. -/
theorem head_value (W : Valuation τ sig (Elt Ideal)) :
    after (opsHead (F := Ideal)) W (Proc.devRef .tc main_v191)
      = Cert.Sage.head (W (Proc.devRef .tc main_v168)) (W (Proc.devRef .tc main_v181)) (W (Proc.devRef .tc main_arg10)) := by
  unfold opsHead
  after_results
  rfl

set_option maxRecDepth 8192 in
/-- The head writes no argument. -/
theorem keeps_head : Keeps (opsHead (F := Ideal)) := by
  intro W r hr
  unfold opsHead
  fin_cases hr <;> after_results_simp

/-- Nothing after the last layer writes an argument. -/
theorem keeps_tail : Keeps (opsTail (F := Ideal)) := keeps_sim.append keeps_head

/-- The last stretch's result is the network's tail of the last layer's table, the graph ids, the prototypes and the
    head's weights. -/
theorem tail_value (W : Valuation τ sig (Elt Ideal)) :
    after (opsTail (F := Ideal)) W (Proc.devRef .tc main_v191)
      = Cert.Sage.tail (W (Proc.devRef .tc main_v143)) (W (Proc.devRef .tc main_arg3)) (W (Proc.devRef .tc main_arg8)) (W (Proc.devRef .tc main_arg9)) (W (Proc.devRef .tc main_arg10)) := by
  rw [after_append, head_value, sim_value_p, sim_value_n, keeps_sim W main_arg10 (by decide)]
  rfl

/-! ## The stretches chained

From the last stretch backwards: the result after the stretches from layer k on, from any contents, in terms of layer
k's input table and the arguments. -/

/-- The result after layers 3 to 3 and the last stretch. -/
theorem from_layer3 (W : Valuation τ sig (Elt Ideal)) :
    after ((opsLayer3 ++ (opsTail)) : List (HloOp τ sig (Elt Ideal))) W (Proc.devRef .tc main_v191)
      = Cert.Sage.tail (Cert.Sage.rstep3 (W (Proc.devRef .tc main_v108)) (W (Proc.devRef .tc main_arg1)) (W (Proc.devRef .tc main_arg2)) (W (Proc.devRef .tc main_arg6)) (W (Proc.devRef .tc main_arg7))) (W (Proc.devRef .tc main_arg3)) (W (Proc.devRef .tc main_arg8)) (W (Proc.devRef .tc main_arg9)) (W (Proc.devRef .tc main_arg10)) := by
  rw [after_append, tail_value, layer3_value, keeps_layer3 W main_arg3 (by decide),
    keeps_layer3 W main_arg8 (by decide),
    keeps_layer3 W main_arg9 (by decide),
    keeps_layer3 W main_arg10 (by decide)]

/-- The result after layers 2 to 3 and the last stretch. -/
theorem from_layer2 (W : Valuation τ sig (Elt Ideal)) :
    after ((opsLayer2 ++ (opsLayer3 ++ (opsTail))) : List (HloOp τ sig (Elt Ideal))) W (Proc.devRef .tc main_v191)
      = Cert.Sage.tail (Cert.Sage.rstep3 (Cert.Sage.rstep2 (W (Proc.devRef .tc main_v73)) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg3)) (W (Proc.devRef .tc main_arg8)) (W (Proc.devRef .tc main_arg9)) (W (Proc.devRef .tc main_arg10)) := by
  rw [after_append, from_layer3, layer2_value, keeps_layer2 W main_arg1 (by decide),
    keeps_layer2 W main_arg2 (by decide),
    keeps_layer2 W main_arg6 (by decide),
    keeps_layer2 W main_arg7 (by decide),
    keeps_layer2 W main_arg3 (by decide),
    keeps_layer2 W main_arg8 (by decide),
    keeps_layer2 W main_arg9 (by decide),
    keeps_layer2 W main_arg10 (by decide)]

/-- The result after layers 1 to 3 and the last stretch. -/
theorem from_layer1 (W : Valuation τ sig (Elt Ideal)) :
    after ((opsLayer1 ++ (opsLayer2 ++ (opsLayer3 ++ (opsTail)))) : List (HloOp τ sig (Elt Ideal))) W (Proc.devRef .tc main_v191)
      = Cert.Sage.tail (Cert.Sage.rstep3 (Cert.Sage.rstep2 (Cert.Sage.rstep1 (W (Proc.devRef .tc main_v38)) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg3)) (W (Proc.devRef .tc main_arg8)) (W (Proc.devRef .tc main_arg9)) (W (Proc.devRef .tc main_arg10)) := by
  rw [after_append, from_layer2, layer1_value, keeps_layer1 W main_arg1 (by decide),
    keeps_layer1 W main_arg2 (by decide),
    keeps_layer1 W main_arg6 (by decide),
    keeps_layer1 W main_arg7 (by decide),
    keeps_layer1 W main_arg3 (by decide),
    keeps_layer1 W main_arg8 (by decide),
    keeps_layer1 W main_arg9 (by decide),
    keeps_layer1 W main_arg10 (by decide)]

/-- The result after layers 0 to 3 and the last stretch. -/
theorem from_layer0 (W : Valuation τ sig (Elt Ideal)) :
    after ((opsLayer0 ++ (opsLayer1 ++ (opsLayer2 ++ (opsLayer3 ++ (opsTail))))) : List (HloOp τ sig (Elt Ideal))) W (Proc.devRef .tc main_v191)
      = Cert.Sage.tail (Cert.Sage.rstep3 (Cert.Sage.rstep2 (Cert.Sage.rstep1 (Cert.Sage.rstep0 (W (Proc.devRef .tc main_v3)) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg1)) (W (Proc.devRef .tc main_arg2)) (W (Proc.devRef .tc main_arg6)) (W (Proc.devRef .tc main_arg7))) (W (Proc.devRef .tc main_arg3)) (W (Proc.devRef .tc main_arg8)) (W (Proc.devRef .tc main_arg9)) (W (Proc.devRef .tc main_arg10)) := by
  rw [after_append, from_layer1, layer0_value, keeps_layer0 W main_arg1 (by decide),
    keeps_layer0 W main_arg2 (by decide),
    keeps_layer0 W main_arg6 (by decide),
    keeps_layer0 W main_arg7 (by decide),
    keeps_layer0 W main_arg3 (by decide),
    keeps_layer0 W main_arg8 (by decide),
    keeps_layer0 W main_arg9 (by decide),
    keeps_layer0 W main_arg10 (by decide)]

/-- The whole line keeps the arguments. -/
theorem keeps_ops : Keeps (RefRun.ops (F := Ideal)) := by
  rw [ops_eq]
  exact keeps_embed.append (keeps_layer0.append (keeps_layer1.append (keeps_layer2.append (keeps_layer3.append keeps_tail))))

/-- The program's result after the whole line, from any contents: the network's tail of the four layers of the
    embedding, all of the arguments' contents. -/
theorem value (V : Valuation τ sig (Elt Ideal)) :
    after (RefRun.ops (F := Ideal)) V (Proc.devRef .tc main_v191)
      = Cert.Sage.tail (Cert.Sage.rstep3 (Cert.Sage.rstep2 (Cert.Sage.rstep1 (Cert.Sage.rstep0 (Cert.Sage.Ref.embed (V (Proc.devRef .tc main_arg0)) (V (Proc.devRef .tc main_arg4)) (V (Proc.devRef .tc main_arg5))) (V (Proc.devRef .tc main_arg1)) (V (Proc.devRef .tc main_arg2)) (V (Proc.devRef .tc main_arg6)) (V (Proc.devRef .tc main_arg7))) (V (Proc.devRef .tc main_arg1)) (V (Proc.devRef .tc main_arg2)) (V (Proc.devRef .tc main_arg6)) (V (Proc.devRef .tc main_arg7))) (V (Proc.devRef .tc main_arg1)) (V (Proc.devRef .tc main_arg2)) (V (Proc.devRef .tc main_arg6)) (V (Proc.devRef .tc main_arg7))) (V (Proc.devRef .tc main_arg1)) (V (Proc.devRef .tc main_arg2)) (V (Proc.devRef .tc main_arg6)) (V (Proc.devRef .tc main_arg7))) (V (Proc.devRef .tc main_arg3)) (V (Proc.devRef .tc main_arg8)) (V (Proc.devRef .tc main_arg9)) (V (Proc.devRef .tc main_arg10)) := by
  rw [ops_eq, after_append, from_layer0, embed_value, keeps_embed V main_arg1 (by decide),
    keeps_embed V main_arg2 (by decide),
    keeps_embed V main_arg6 (by decide),
    keeps_embed V main_arg7 (by decide),
    keeps_embed V main_arg3 (by decide),
    keeps_embed V main_arg8 (by decide),
    keeps_embed V main_arg9 (by decide),
    keeps_embed V main_arg10 (by decide)]

/-! ## The run -/

/-- On every device, from any memory with zero counters: every weakly fair execution of @main terminates with the
    result at the network's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v191)
        = Cert.Sage.tail (Cert.Sage.rstep3 (Cert.Sage.rstep2 (Cert.Sage.rstep1 (Cert.Sage.rstep0 (Cert.Sage.Ref.embed (m ((c.tc : Thread nD τ).loc main_arg0)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg1)) (m ((c.tc : Thread nD τ).loc main_arg2)) (m ((c.tc : Thread nD τ).loc main_arg6)) (m ((c.tc : Thread nD τ).loc main_arg7))) (m ((c.tc : Thread nD τ).loc main_arg3)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v191).trans (value (launchContents m c)),
      (h c main_arg0).trans (keeps_ops (launchContents m c) main_arg0 (by decide)),
      (h c main_arg1).trans (keeps_ops (launchContents m c) main_arg1 (by decide)),
      (h c main_arg2).trans (keeps_ops (launchContents m c) main_arg2 (by decide)),
      (h c main_arg3).trans (keeps_ops (launchContents m c) main_arg3 (by decide)),
      (h c main_arg4).trans (keeps_ops (launchContents m c) main_arg4 (by decide)),
      (h c main_arg5).trans (keeps_ops (launchContents m c) main_arg5 (by decide)),
      (h c main_arg6).trans (keeps_ops (launchContents m c) main_arg6 (by decide)),
      (h c main_arg7).trans (keeps_ops (launchContents m c) main_arg7 (by decide)),
      (h c main_arg8).trans (keeps_ops (launchContents m c) main_arg8 (by decide)),
      (h c main_arg9).trans (keeps_ops (launchContents m c) main_arg9 (by decide)),
      (h c main_arg10).trans (keeps_ops (launchContents m c) main_arg10 (by decide))⟩)
    (RefRun.run m ρ)

end Cert.ReferenceIdeal.RefValue

end
-- ==== Proof.lean ====
/-
  A four-layer neighbour-averaging graph network with a prototype-distance head: the kernel program against its reference.

  Both programs embed the node features (H · W + b), run four layers X ↦ X + relu(Y / max(‖Y‖₂, ε)) with
  Y = X · W_top + C · W_bottom + b and C the mean of X over each node's in-neighbours, pool the rows per graph, and
  finish with squared distances to prototypes, log((d + 1) / (d + ε)), a one-row linear head and a logistic.  The kernel
  computes the embedding and each layer's dense part on blocks of 2000 rows with operands narrowed to bf16 (the
  identity on the extended reals), the two halves of the weight table multiplied apart; the reference multiplies the
  joined table [X | C] by the whole weight table.  The gather, the two scatter-adds, the division by the clamped
  in-degree and everything after the last layer are the same host operations in both programs.

  On the extended reals the two sides differ by one law only: a sum over 512 terms is the sum of its first 256 and its
  last 256 terms.  It holds for any terms, so the precondition is never opened.  The idealization rewrote nothing:
  `preserves` is trivial.
-/
import proofs.«168573_j3556232921300_1_alg».proof.Defs
import proofs.«168573_j3556232921300_1_alg».proof.Proof.Gen.Kernel
import proofs.«168573_j3556232921300_1_alg».proof.Proof.Gen.Kernel.Frame
import proofs.«168573_j3556232921300_1_alg».proof.Proof.Gen.KernelIdeal
import proofs.«168573_j3556232921300_1_alg».proof.Proof.Gen.KernelIdeal.Frame
import proofs.«168573_j3556232921300_1_alg».proof.Proof.Gen.ReferenceIdeal
import proofs.«168573_j3556232921300_1_alg».proof.Proof.Gen.Pre_finite_inputs
import proofs.«168573_j3556232921300_1_alg».proof.Proof.Spec
import proofs.«168573_j3556232921300_1_alg».proof.Proof.Bridge
import proofs.«168573_j3556232921300_1_alg».proof.Proof.KernelRun
import proofs.«168573_j3556232921300_1_alg».proof.Proof.KernelFold
import proofs.«168573_j3556232921300_1_alg».proof.Proof.BlockBody
import proofs.«168573_j3556232921300_1_alg».proof.Proof.RegionEmbed
import proofs.«168573_j3556232921300_1_alg».proof.Proof.RegionSage1
import proofs.«168573_j3556232921300_1_alg».proof.Proof.RegionSage2
import proofs.«168573_j3556232921300_1_alg».proof.Proof.RegionSage3
import proofs.«168573_j3556232921300_1_alg».proof.Proof.RegionSage4
import proofs.«168573_j3556232921300_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the head applied to the fourth layer's table; the tables agree layer by layer. -/
theorem algebraic : Cert.algebraic_KernelIdeal_ReferenceIdeal := by
  intro m ρ m' ρ' _ hagree
  refine ⟨_, (θ_run Cert.KernelIdeal.defs _ _).mono (fun _ h c => ⟨(h c).1.trans
      (Cert.KernelIdeal.KFold.result m ρ c Cert.KernelIdeal.RegionEmbed.final Cert.KernelIdeal.RegionSage1.final
        Cert.KernelIdeal.RegionSage2.final Cert.KernelIdeal.RegionSage3.final Cert.KernelIdeal.RegionSage4.final), (h c).2⟩)
      (Cert.KernelIdeal.KRun.run (F := Ideal) m ρ), ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10⟩ := hagree c
  rw [e0, e1, e2, e3, e4, e5, e6, e7, e8, e9, e10, Cert.Sage.Bridge.embed_eq, Cert.Sage.Bridge.rstep0_eq,
    Cert.Sage.Bridge.rstep1_eq, Cert.Sage.Bridge.rstep2_eq, Cert.Sage.Bridge.rstep3_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
